-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x512 : Shape := ⟨2, ![25000, 512]⟩
abbrev S2x400000 : Shape := ⟨2, ![2, 400000]⟩
abbrev S400000x512 : Shape := ⟨2, ![400000, 512]⟩
abbrev S512x512 : Shape := ⟨2, ![512, 512]⟩
abbrev S512 : Shape := ⟨1, ![512]⟩
abbrev S_ : Shape := ⟨0, ![]⟩

class Facts : Prop where
  bcast_S_S25000x512 : S_.BroadcastsInDim S25000x512 (![] : Fin 0 → Fin S25000x512.rank)
  reducesTo_S25000x512_S_d0_1 : S25000x512.ReducesTo [0, 1] S_
  h_S_ : 0 < S_.numel
  bcast_S_S400000x512 : S_.BroadcastsInDim S400000x512 (![] : Fin 0 → Fin S400000x512.rank)
  reducesTo_S400000x512_S_d0_1 : S400000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_arg9 : FVec F S512 .f32) (main_arg10 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S512x512 .f32) (main_arg8 : FVec F S512 .f32) (main_arg9 : FVec F S512 .f32) (main_arg10 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S25000x512 .f32) (main_arg1 : IVec S2x400000 32) (main_arg2 : FVec F S400000x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512 .f32) (main_arg10 : FVec F S512 .f32) : IVec S_ 1 :=
  let main_v0 : FVec F S25000x512 .f32 := Host.absf main_arg0
  let main_cst : FVec F S_ .f32 := constant S_ .f32 0x7F800000#32
  let main_v1 : FVec F S25000x512 .f32 := broadcastInDim S25000x512 ![] bcast_S_S25000x512 main_cst
  let main_v2 : IVec S25000x512 1 := cmpf .olt main_v0 main_v1
  let main_c : IVec S_ 1 := constantI S_ 1 1#1
  let main_v3 : IVec S_ 1 := (fun x v => Host.reduce IntOp.andi x v reducesTo_S25000x512_S_d0_1 h_S_) main_v2 main_c
  let main_v4 : FVec F S400000x512 .f32 := Host.absf main_arg2
  let main_cst_0 : FVec F S_ .f32 := constant S_ .f32 0x7F800000#32
  let main_v5 : FVec F S400000x512 .f32 := broadcastInDim S400000x512 ![] bcast_S_S400000x512 main_cst_0
  let main_v6 : IVec S400000x512 1 := cmpf .olt main_v4 main_v5
  let main_c_1 : IVec S_ 1 := constantI S_ 1 1#1
  let main_v7 : IVec S_ 1 := (fun x v => Host.reduce IntOp.andi x v reducesTo_S400000x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S25000x512 : Shape := ⟨2, ![25000, 512]⟩
abbrev S2x400000 : Shape := ⟨2, ![2, 400000]⟩
abbrev S400000x512 : Shape := ⟨2, ![400000, 512]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S4000x512 : Shape := ⟨2, ![4000, 512]⟩
abbrev S1x512 : Shape := ⟨2, ![1, 512]⟩
abbrev S2x512 : Shape := ⟨2, ![2, 512]⟩
abbrev S1000x512 : Shape := ⟨2, ![1000, 512]⟩

abbrev nBuf : Space → Nat
  | .hbm => 50
  | .vmem => 25
  | .smem => 0
  | _ => 0

abbrev bufTy : (tb : Table) → Fin (tcTables nBuf tb) → BufTy
  | .hbm, ⟨0, _⟩ => ⟨S25000x512, .f32⟩
  | .hbm, ⟨1, _⟩ => ⟨S2x400000, .i32⟩
  | .hbm, ⟨2, _⟩ => ⟨S400000x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x400000, .i32⟩
  | .hbm, ⟨12, _⟩ => ⟨S400000, .i32⟩
  | .hbm, ⟨13, _⟩ => ⟨S1x400000, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x512, .f32⟩
  | .hbm, ⟨24, _⟩ => ⟨S400000x512, .bf16⟩
  | .hbm, ⟨25, _⟩ => ⟨S400000x512, .f32⟩
  | .hbm, ⟨26, _⟩ => ⟨S_, .f32⟩
  | .hbm, ⟨27, _⟩ => ⟨S25000x512, .f32⟩
  | .hbm, ⟨28, _⟩ => ⟨S400000x1, .i32⟩
  | .hbm, ⟨29, _⟩ => ⟨S25000x512, .f32⟩
  | .hbm, ⟨30, _⟩ => ⟨S_, .f32⟩
  | .hbm, ⟨31, _⟩ => ⟨S25000x512, .f32⟩
  | .hbm, ⟨32, _⟩ => ⟨S25000x512, .f32⟩
  | .hbm, ⟨33, _⟩ => ⟨S25000x512, .f32⟩
  | .hbm, ⟨34, _⟩ => ⟨S25000x512, .bf16⟩
  | .hbm, ⟨35, _⟩ => ⟨S25000x512, .f32⟩
  | .hbm, ⟨36, _⟩ => ⟨S2x512, .f32⟩
  | .hbm, ⟨37, _⟩ => ⟨S1x512, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S1x512, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S25000x512, .f32⟩
  | .local _ .vmem, ⟨0, _⟩ => ⟨S4000x512, .f32⟩
  | .local _ .vmem, ⟨1, _⟩ => ⟨S4000x512, .f32⟩
  | .local _ .vmem, ⟨2, _⟩ => ⟨S4000x512, .bf16⟩
  | .local _ .vmem, ⟨3, _⟩ => ⟨S4000x512, .bf16⟩
  | .local _ .vmem, ⟨4, _⟩ => ⟨S512x512, .f32⟩
  | .local _ .vmem, ⟨5, _⟩ => ⟨S512, .f32⟩
  | .local _ .vmem, ⟨6, _⟩ => ⟨S4000x512, .f32⟩
  | .local _ .vmem, ⟨7, _⟩ => ⟨S4000x512, .f32⟩
  | .local _ .vmem, ⟨8, _⟩ => ⟨S1000x512, .bf16⟩
  | .local _ .vmem, ⟨9, _⟩ => ⟨S1000x512, .bf16⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S1000x512, .f32⟩
  | .local _ .vmem, ⟨15, _⟩ => ⟨S1000x512, .f32⟩
  | .local _ .vmem, ⟨16, _⟩ => ⟨S2x512, .f32⟩
  | .local _ .vmem, ⟨17, _⟩ => ⟨S1000x512, .f32⟩
  | .local _ .vmem, ⟨18, _⟩ => ⟨S1000x512, .f32⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S1000x512, .f32⟩
  | .local _ .vmem, ⟨24, _⟩ => ⟨S1000x512, .f32⟩
  | _, _ => ⟨S25000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bitsLt_bf16_f32 : FTy.bits .bf16 < FTy.bits .f32
  inb_S4000x512_S4000x512_0_0 : ∀ a, (![0, 0] : Fin 2 → Nat) a + S4000x512.size a ≤ S4000x512.size a
  h_S4000x512 : 0 < S4000x512.numel
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S4000x512 : S1x512.Broadcasts S4000x512
  shapeCasts_S4000x512_S4000x512 : S4000x512.ShapeCasts S4000x512
  bcast_S_S25000x512 : S_.BroadcastsInDim S25000x512 (![] : Fin 0 → Fin S25000x512.rank)
  inb_S2x512_S2x512_0_0 : ∀ a, (![0, 0] : Fin 2 → Nat) a + S2x512.size a ≤ S2x512.size a
  h_S2x512 : 0 < S2x512.numel
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  broadcasts_S1x512_S1000x512 : S1x512.Broadcasts S1000x512
  reduces_S1000x512_S512 : S1000x512.Reduces [0] S512
  inb_S2x512_S1x512_0_0 : ∀ a, (![0, 0] : Fin 2 → Nat) a + S1x512.size a ≤ S2x512.size a
  h_S1x512 : 0 < S1x512.numel
  shapeCasts_S1x512_S1x512 : S1x512.ShapeCasts S1x512
  inb_S2x512_S1x512_1_0 : ∀ a, (![1, 0] : Fin 2 → Nat) a + S1x512.size a ≤ S2x512.size a
  slices_S2x512_S1x512_0_0 : S2x512.Slices ![0, 0] S1x512
  shapeCasts_S1x512_S512 : S1x512.ShapeCasts S512
  bcast_S_S512 : S_.BroadcastsInDim S512 (![] : Fin 0 → Fin S512.rank)
  slices_S2x512_S1x512_1_0 : S2x512.Slices ![1, 0] S1x512
  shapeCasts_S512_S512 : S512.ShapeCasts S512
  gather_S25000x512_S400000x1_S400000x512_1_0_n_n_0_1_1512_wf : GatherDims.WF S25000x512 S400000x1 S400000x512 [1] [0] [] [0] [] 1 ![1, 512]
  dot_S4000x512_S512x512_S4000x512_1_0_0_1_n_n_wf : DotDims.WF S4000x512 S512x512 S4000x512 [1] [0] [0] [1] [] []
  scatter_S25000x512_S400000x1_S400000x512_1_0_0_1_wf : ScatterDims.WF S25000x512 S400000x1 S400000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S400000x512.size a
  hwx0_0 : ∀ i : grid0.Coords, EltTy.bits .f32 = 32 ∨ (Rect.block (s := S400000x512) S4000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x512.size a ≤ S400000x512.size a
  hwx0_1 : ∀ i : grid0.Coords, EltTy.bits .bf16 = 32 ∨ (Rect.block (s := S400000x512) S4000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x512.size a ≤ S400000x512.size a
  hwx0_4 : ∀ i : grid0.Coords, EltTy.bits .f32 = 32 ∨ (Rect.block (s := S400000x512) S4000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S25000x512.size a
  hwx1_0 : ∀ i : grid1.Coords, EltTy.bits .bf16 = 32 ∨ (Rect.block (s := S25000x512) S1000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S25000x512.size a
  hwx1_5 : ∀ i : grid1.Coords, EltTy.bits .f32 = 32 ∨ (Rect.block (s := S25000x512) S1000x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x512.size a ≤ S2x512.size a
  hwx1_6 : ∀ i : grid1.Coords, EltTy.bits .f32 = 32 ∨ (Rect.block (s := S2x512) S2x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S25000x512.size a
  hwx2_0 : ∀ i : grid2.Coords, EltTy.bits .f32 = 32 ∨ (Rect.block (s := S25000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512.size a ≤ S512.size a
  hwx2_1 : ∀ i : grid2.Coords, EltTy.bits .f32 = 32 ∨ (Rect.block (s := S512) S512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S25000x512.size a
  hwx2_5 : ∀ i : grid2.Coords, EltTy.bits .f32 = 32 ∨ (Rect.block (s := S25000x512) S1000x512.size (cc2_transform_5 i) (hinb2_5 i)).WholeWords (EltTy.packing .f32)

variable [Facts₀]

def gather_S25000x512_S400000x1_S400000x512_1_0_n_n_0_1_1512 : GatherDims S25000x512 S400000x1 S400000x512 where
  offsetDims := [1]
  collapsedSliceDims := [0]
  operandBatchingDims := []
  startIndicesBatchingDims := []
  startIndexMap := [0]
  indexVectorDim := 1
  sliceSizes := ![1, 512]
  wf := gather_S25000x512_S400000x1_S400000x512_1_0_n_n_0_1_1512_wf
def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg2) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S4000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20_0) S1000x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20_1) S2x512.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20_0) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S25000x512 : Shape := ⟨2, ![25000, 512]⟩
abbrev S2x400000 : Shape := ⟨2, ![2, 400000]⟩
abbrev S400000x512 : Shape := ⟨2, ![400000, 512]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S1x512 : Shape := ⟨2, ![1, 512]⟩
abbrev S_ : Shape := ⟨0, ![]⟩
abbrev S400000x1 : Shape := ⟨2, ![400000, 1]⟩

abbrev nBuf : Space → Nat
  | .hbm => 95
  | .vmem => 0
  | .smem => 0
  | _ => 0

abbrev bufTy : (tb : Table) → Fin (tcTables nBuf tb) → BufTy
  | .hbm, ⟨0, _⟩ => ⟨S25000x512, .f32⟩
  | .hbm, ⟨1, _⟩ => ⟨S2x400000, .i32⟩
  | .hbm, ⟨2, _⟩ => ⟨S400000x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x400000, .i32⟩
  | .hbm, ⟨12, _⟩ => ⟨S400000, .i32⟩
  | .hbm, ⟨13, _⟩ => ⟨S1x400000, .i32⟩
  | .hbm, ⟨14, _⟩ => ⟨S400000, .i32⟩
  | .hbm, ⟨15, _⟩ => ⟨S400000x512, .f32⟩
  | .hbm, ⟨16, _⟩ => ⟨S1x512, .f32⟩
  | .hbm, ⟨17, _⟩ => ⟨S400000x512, .f32⟩
  | .hbm, ⟨18, _⟩ => ⟨S400000x512, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x512, .f32⟩
  | .hbm, ⟨28, _⟩ => ⟨S400000x512, .f32⟩
  | .hbm, ⟨29, _⟩ => ⟨S_, .f32⟩
  | .hbm, ⟨30, _⟩ => ⟨S400000x512, .f32⟩
  | .hbm, ⟨31, _⟩ => ⟨S400000x512, .f32⟩
  | .hbm, ⟨32, _⟩ => ⟨S_, .f32⟩
  | .hbm, ⟨33, _⟩ => ⟨S25000x512, .f32⟩
  | .hbm, ⟨34, _⟩ => ⟨S400000x1, .i32⟩
  | .hbm, ⟨35, _⟩ => ⟨S25000x512, .f32⟩
  | .hbm, ⟨36, _⟩ => ⟨S_, .f32⟩
  | .hbm, ⟨37, _⟩ => ⟨S25000x512, .f32⟩
  | .hbm, ⟨38, _⟩ => ⟨S25000x512, .f32⟩
  | .hbm, ⟨39, _⟩ => ⟨S25000x512, .f32⟩
  | .hbm, ⟨40, _⟩ => ⟨S25000x512, .f32⟩
  | .hbm, ⟨41, _⟩ => ⟨S1x512, .f32⟩
  | .hbm, ⟨42, _⟩ => ⟨S25000x512, .f32⟩
  | .hbm, ⟨43, _⟩ => ⟨S25000x512, .f32⟩
  | .hbm, ⟨44, _⟩ => ⟨S_, .f32⟩
  | .hbm, ⟨45, _⟩ => ⟨S25000x512, .f32⟩
  | .hbm, ⟨46, _⟩ => ⟨S25000x512, .f32⟩
  | .hbm, ⟨47, _⟩ => ⟨S25000x512, .f32⟩
  | .hbm, ⟨48, _⟩ => ⟨S1x512, .f32⟩
  | .hbm, ⟨49, _⟩ => ⟨S25000x512, .f32⟩
  | .hbm, ⟨50, _⟩ => ⟨S25000x512, .f32⟩
  | .hbm, ⟨51, _⟩ => ⟨S_, .f32⟩
  | .hbm, ⟨52, _⟩ => ⟨S512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S_, .i32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S1x512, .f32⟩
  | .hbm, ⟨62, _⟩ => ⟨S1x512, .f32⟩
  | .hbm, ⟨63, _⟩ => ⟨S25000x512, .f32⟩
  | .hbm, ⟨64, _⟩ => ⟨S25000x512, .f32⟩
  | .hbm, ⟨65, _⟩ => ⟨S25000x512, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S512, .f32⟩
  | .hbm, ⟨78, _⟩ => ⟨S512, .f32⟩
  | .hbm, ⟨79, _⟩ => ⟨S1x512, .f32⟩
  | .hbm, ⟨80, _⟩ => ⟨S25000x512, .f32⟩
  | .hbm, ⟨81, _⟩ => ⟨S25000x512, .f32⟩
  | .hbm, ⟨82, _⟩ => ⟨S_, .f32⟩
  | .hbm, ⟨83, _⟩ => ⟨S512, .f32⟩
  | .hbm, ⟨84, _⟩ => ⟨S512, .f32⟩
  | .hbm, ⟨85, _⟩ => ⟨S512, .f32⟩
  | .hbm, ⟨86, _⟩ => ⟨S1x512, .f32⟩
  | .hbm, ⟨87, _⟩ => ⟨S25000x512, .f32⟩
  | .hbm, ⟨88, _⟩ => ⟨S25000x512, .f32⟩
  | .hbm, ⟨89, _⟩ => ⟨S1x512, .f32⟩
  | .hbm, ⟨90, _⟩ => ⟨S25000x512, .f32⟩
  | .hbm, ⟨91, _⟩ => ⟨S25000x512, .f32⟩
  | .hbm, ⟨92, _⟩ => ⟨S1x512, .f32⟩
  | .hbm, ⟨93, _⟩ => ⟨S25000x512, .f32⟩
  | .hbm, ⟨94, _⟩ => ⟨S25000x512, .f32⟩
  | _, _ => ⟨S25000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_cst_2 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_cst_3 : Ref sig .tc := ⟨.hbm, 73, rfl⟩
abbrev main_call2_v12 : Ref sig .tc := ⟨.hbm, 74, rfl⟩
abbrev main_call2_cst_4 : Ref sig .tc := ⟨.hbm, 75, rfl⟩
abbrev main_call2_call0_v0 : Ref sig .tc := ⟨.hbm, 76, rfl⟩
abbrev main_call2_call0_v1 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_5 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S512_S1x512_1 : S512.BroadcastsInDim S1x512 (![1] : Fin 1 → Fin S1x512.rank)
  bcast_S1x512_S400000x512_0_1 : S1x512.BroadcastsInDim S400000x512 (![0, 1] : Fin 2 → Fin S400000x512.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x512 : S_.BroadcastsInDim S400000x512 (![] : Fin 0 → Fin S400000x512.rank)
  bcast_S_S25000x512 : S_.BroadcastsInDim S25000x512 (![] : Fin 0 → Fin S25000x512.rank)
  bcast_S1x512_S25000x512_0_1 : S1x512.BroadcastsInDim S25000x512 (![0, 1] : Fin 2 → Fin S25000x512.rank)
  reducesTo_S25000x512_S512_d0 : S25000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  dot_S400000x512_S512x512_S400000x512_1_0_0_1_n_n_wf : DotDims.WF S400000x512 S512x512 S400000x512 [1] [0] [0] [1] [] []
  gather_S25000x512_S400000x1_S400000x512_1_0_n_n_0_1_1512_wf : GatherDims.WF S25000x512 S400000x1 S400000x512 [1] [0] [] [0] [] 1 ![1, 512]
  scatter_S25000x512_S400000x1_S400000x512_1_0_0_1_wf : ScatterDims.WF S25000x512 S400000x1 S400000x512 [1] [0] [0] 1
  dot_S25000x512_S512x512_S25000x512_1_0_0_1_n_n_wf : DotDims.WF S25000x512 S512x512 S25000x512 [1] [0] [0] [1] [] []

variable [Facts₀]

def dot_S400000x512_S512x512_S400000x512_1_0_0_1_n_n : DotDims S400000x512 S512x512 S400000x512 where
  lhsContracting := [1]
  rhsContracting := [0]
  lhsNonContracting := [0]
  rhsNonContracting := [1]
  lhsBatch := []
  rhsBatch := []
  wf := dot_S400000x512_S512x512_S400000x512_1_0_0_1_n_n_wf
def gather_S25000x512_S400000x1_S400000x512_1_0_n_n_0_1_1512 : GatherDims S25000x512 S400000x1 S400000x512 where
  offsetDims := [1]
  collapsedSliceDims := [0]
  operandBatchingDims := []
  startIndicesBatchingDims := []
  startIndexMap := [0]
  indexVectorDim := 1
  sliceSizes := ![1, 512]
  wf := gather_S25000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf

class Facts : Prop extends Facts₀ where

variable [Facts]
-- ==== Proof.KRun.lean ====
/-
  The kernel program's run with its result named.

  The program is three kernel regions among stretches of host operations. Every weakly fair execution terminates without
  a fault; at the end each argument array is as launched, and the result array holds what the fold of the six segments
  leaves in it: the last region's output array after its write-backs, computed from the contents the region was entered
  with, which are the host operations of the contents the region before it left, and so on back to the launch memory.
-/
import proofs.«137729_j60997125538475_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KRun

end
-- ==== Proof.Spec.lean ====
/-
  The mathematics both programs compute, written index by index over the extended reals.

  A GINE layer followed by a two-layer perceptron and a batch normalisation over the nodes:
    message   m(e, d)  = max (g(e, d) + (∑ k, ea(e, k) · We(k, d) + be(d)), 0)      for each edge e and feature d,
                         where g holds, for each edge, the feature row of its source node;
    node      h        = 1 · x + (the messages summed into their destination nodes);
    perceptron y(n, d) = ∑ k, max (∑ j, h(n, j) · W1(j, k) + b1(k), 0) · W2(k, d) + b2(d);
    statistics over the 25000 nodes, per feature d:
              mean(d)  = (∑ n, y(n, d)) / 25000,
              the variance either as  (∑ n, y(n, d)²) / 25000 − mean(d)²  ("mean of squares minus square of the mean")
              or as  (∑ n, (y(n, d) − mean(d))²) / 25000  ("mean squared deviation");
    output    out(n, d) = ((y(n, d) − mean(d)) · rsqrt (var(d) + ε)) · γ(d) + β(d).

  The two forms of the variance agree whenever every y(n, d) is a real number (neither infinity); on the extended reals
  they differ at infinite entries, so the agreement is stated under that hypothesis.
-/
import Idealize.ShloMosaic.PureOps.Ideal
import Idealize.ShloMosaic.Lib.ValueIdx

noncomputable section

namespace Cert.Gine

open Idealize.ShloMosaic Idealize.ShloMosaic.ValueIdx

/-- Edge features [400000, 512], node features [25000, 512], a weight matrix [512, 512], a feature vector [512]. -/
abbrev SE : Shape := ⟨2, ![400000, 512]⟩
abbrev SN : Shape := ⟨2, ![25000, 512]⟩
abbrev SW : Shape := ⟨2, ![512, 512]⟩
abbrev SD : Shape := ⟨1, ![512]⟩

/-- A two-axis array from its entries. -/
def ofFn2 {n0 n1 : Nat} (f : Fin n0 → Fin n1 → EReal) : (⟨2, ![n0, n1]⟩ : Shape).Idx → EReal :=
  fun i => f ⟨(i 0).val, idx2_lt0 i⟩ ⟨(i 1).val, idx2_lt1 i⟩

theorem ofFn2_ix2 {n0 n1 : Nat} (f : Fin n0 → Fin n1 → EReal) (a : Fin n0) (b : Fin n1) : ofFn2 f (ix2 a b) = f a b := rfl

/-- A one-axis array from its entries. -/
def ofFn1 {n : Nat} (f : Fin n → EReal) : (⟨1, ![n]⟩ : Shape).Idx → EReal := fun i => f ⟨(i 0).val, (i 0).isLt⟩

theorem ofFn1_ix1 {n : Nat} (f : Fin n → EReal) (a : Fin n) : ofFn1 f (ix1 a) = f a := rfl

/-- Every entry is a real number. -/
def IsReal {ι : Type} (v : ι → EReal) : Prop := ∀ i, ∃ r : ℝ, v i = (r : EReal)

/-- One entry of a linear layer: row r of a against column d of W, plus the bias. -/
def lin {R : Nat} (a : (⟨2, ![R, 512]⟩ : Shape).Idx → EReal) (W : SW.Idx → EReal) (b : SD.Idx → EReal) (r : Fin R) (d : Fin 512) :
    EReal :=
  (∑ k : Fin 512, a (ix2 r k) * W (ix2 k d)) + b (ix1 d)

/-- The messages: the gathered source row plus the edge's linear layer, clipped below at zero. -/
def msg (g ea : SE.Idx → EReal) (We : SW.Idx → EReal) (be : SD.Idx → EReal) : SE.Idx → EReal :=
  ofFn2 fun e d => max (g (ix2 e d) + lin ea We be e d) 0

/-- The hidden layer of the perceptron. -/
def hidden (h : SN.Idx → EReal) (W1 : SW.Idx → EReal) (b1 : SD.Idx → EReal) : SN.Idx → EReal :=
  ofFn2 fun n k => max (lin h W1 b1 n k) 0

/-- The perceptron's output. -/
def mlp (h : SN.Idx → EReal) (W1 : SW.Idx → EReal) (b1 : SD.Idx → EReal) (W2 : SW.Idx → EReal) (b2 : SD.Idx → EReal) :
    SN.Idx → EReal :=
  ofFn2 fun n d => lin (hidden h W1 b1) W2 b2 n d

/-- The number of nodes as the programs write it: the single-precision word of 25000.0. -/
def cnt : EReal := Ideal.ofBits .f32 0x46C35000#32

/-- The stabiliser under the square root as the programs write it: the single-precision word nearest 1e-5. -/
def eps : EReal := Ideal.ofBits .f32 0x3727C5AC#32

/-- The sum of feature d over the nodes. -/
def colSum (y : SN.Idx → EReal) (d : Fin 512) : EReal := ∑ n : Fin 25000, y (ix2 n d)

/-- The sum of the squares of feature d over the nodes. -/
def colSumSq (y : SN.Idx → EReal) (d : Fin 512) : EReal := ∑ n : Fin 25000, y (ix2 n d) * y (ix2 n d)

/-- The mean of feature d. -/
def mean (y : SN.Idx → EReal) (d : Fin 512) : EReal := Ideal.div (colSum y d) cnt

/-- The variance of feature d as mean of squares minus square of the mean. -/
def varSq (y : SN.Idx → EReal) (d : Fin 512) : EReal := Ideal.div (colSumSq y d) cnt - mean y d * mean y d

/-- The variance of feature d as mean squared deviation. -/
def varDev (y : SN.Idx → EReal) (d : Fin 512) : EReal :=
  Ideal.div (∑ n : Fin 25000, (y (ix2 n d) - mean y d) * (y (ix2 n d) - mean y d)) cnt

/-- The normalised output for given statistics. -/
def bnorm (y : SN.Idx → EReal) (mu var : Fin 512 → EReal) (gamma beta : SD.Idx → EReal) : SN.Idx → EReal :=
  ofFn2 fun n d => (y (ix2 n d) - mu d) * Ideal.rsqrt (var d + eps) * gamma (ix1 d) + beta (ix1 d)

/-- The index arrays [400000, 1]: the source-node numbers are row 0 of the edge list, a negative number wrapped once by
    the number of nodes (numpy's reading of a negative index); the destination-node numbers are row 1 as they are. -/
abbrev SI : Shape := ⟨2, ![400000, 1]⟩
abbrev SEI : Shape := ⟨2, ![2, 400000]⟩

def srcIdx (a1 : IVec SEI 32) : IVec SI 32 := fun i =>
  Scalar.select (IntOp.cmpi .slt (a1 (ix2 (0 : Fin 2) (⟨(i 0).val, idx2_lt0 i⟩ : Fin 400000))) 0#32)
    (IntOp.addi (a1 (ix2 (0 : Fin 2) (⟨(i 0).val, idx2_lt0 i⟩ : Fin 400000))) 25000#32)
    (a1 (ix2 (0 : Fin 2) (⟨(i 0).val, idx2_lt0 i⟩ : Fin 400000)))

def dstIdx (a1 : IVec SEI 32) : IVec SI 32 := fun i => a1 (ix2 (1 : Fin 2) (⟨(i 0).val, idx2_lt0 i⟩ : Fin 400000))

/-- The single-precision words of 1.0 and 0.0 as extended reals. -/
def one : EReal := Ideal.ofBits .f32 0x3F800000#32
def zero : EReal := Ideal.ofBits .f32 0x00000000#32

/-- The node array entering the perceptron: 1 · x plus the messages summed into their destination rows (a row
    scatter-add into zeros), the messages built from the gathered source rows. The gather's and the scatter's dimension
    numbers are parameters: each program supplies its own printed record. -/
def node (gd : GatherDims SN SI SE) (sd : ScatterDims SN SI SE) (x : SN.Idx → EReal) (a1 : IVec SEI 32)
    (ea : SE.Idx → EReal) (We : SW.Idx → EReal) (be : SD.Idx → EReal) : SN.Idx → EReal :=
  fun i => one * x i
    + Ideal.hostScatterAdd sd (fun _ => zero) (dstIdx a1) (msg (Host.gather gd x (srcIdx a1)) ea We be) i

/-- The whole result with the variance taken as mean of squares minus square of the mean. -/
def resultSq (y : SN.Idx → EReal) (gamma beta : SD.Idx → EReal) : SN.Idx → EReal :=
  bnorm y (mean y) (varSq y) gamma beta

/-- The whole result with the variance taken as mean squared deviation. -/
def resultDev (y : SN.Idx → EReal) (gamma beta : SD.Idx → EReal) : SN.Idx → EReal :=
  bnorm y (mean y) (varDev y) gamma beta

end Cert.Gine

end
-- ==== Proof.KPay.lean ====
/-
  What each kernel body stores, read at one entry of the block.

  The three bodies work on blocks of rows: 4000 edges, or 1000 nodes. Read over the extended reals (a change of float
  format is the identity, a matrix product into a zero accumulator is the plain sum of products, a lane reduction is
  the plain sum):
    the edge body stores      max (g(a, d) + (∑ k, ea(a, k) · We(k, d) + be(d)), 0);
    the perceptron body stores y(a, d) = ∑ k, max (∑ j, h(a, j) · W1(j, k) + b1(k), 0) · W2(k, d) + b2(d),
      adds ∑ a, y(a, d) to row 0 of the statistics and ∑ a, y(a, d)² to row 1 (after zeroing both at the first block);
    the normalising body stores ((y(a, d) − mean(d)) · rsqrt (var(d) + ε)) · γ(d) + β(d).
-/
import proofs.«137729_j60997125538475_2_alg».proof.Proof.Gen.KernelIdeal.Skeleton
import proofs.«137729_j60997125538475_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The dimension numbers of the two block products: rows × 512 against 512 × 512, contracting the 512. -/
abbrev D0 := dot_S4000x512_S512x512_S4000x512_1_0_0_1_n_n
abbrev D1 := dot_S1000x512_S512x512_S1000x512_1_0_0_1_n_n

/-! ## The operand indices of the block products -/

theorem D0_lhs0 (i : S4000x512.Idx) (q : D0.contr.Idx) : (D0.lhsIdx i q 0).val = (i 0).val := by
  unfold DotDims.lhsIdx
  rw [dif_neg (show ¬(0 : Fin S4000x512.rank) ∈ D0.lhsBatch by decide),
    dif_pos (show (0 : Fin S4000x512.rank) ∈ D0.lhsNonContracting by decide)]
  rfl
theorem D0_lhs1 (i : S4000x512.Idx) (q : D0.contr.Idx) : (D0.lhsIdx i q 1).val = (q ⟨0, by decide⟩).val :=
  D0.lhsIdx_val_of_single rfl i q
theorem D0_rhs0 (i : S4000x512.Idx) (q : D0.contr.Idx) : (D0.rhsIdx i q 0).val = (q ⟨0, by decide⟩).val :=
  D0.rhsIdx_val_of_single rfl i q
theorem D0_rhs1 (i : S4000x512.Idx) (q : D0.contr.Idx) : (D0.rhsIdx i q 1).val = (i 1).val := by
  unfold DotDims.rhsIdx
  rw [dif_neg (show ¬(1 : Fin S512x512.rank) ∈ D0.rhsBatch by decide),
    dif_pos (show (1 : Fin S512x512.rank) ∈ D0.rhsNonContracting by decide)]
  rfl

theorem D1_lhs0 (i : S1000x512.Idx) (q : D1.contr.Idx) : (D1.lhsIdx i q 0).val = (i 0).val := by
  unfold DotDims.lhsIdx
  rw [dif_neg (show ¬(0 : Fin S1000x512.rank) ∈ D1.lhsBatch by decide),
    dif_pos (show (0 : Fin S1000x512.rank) ∈ D1.lhsNonContracting by decide)]
  rfl
theorem D1_lhs1 (i : S1000x512.Idx) (q : D1.contr.Idx) : (D1.lhsIdx i q 1).val = (q ⟨0, by decide⟩).val :=
  D1.lhsIdx_val_of_single rfl i q
theorem D1_rhs0 (i : S1000x512.Idx) (q : D1.contr.Idx) : (D1.rhsIdx i q 0).val = (q ⟨0, by decide⟩).val :=
  D1.rhsIdx_val_of_single rfl i q
theorem D1_rhs1 (i : S1000x512.Idx) (q : D1.contr.Idx) : (D1.rhsIdx i q 1).val = (i 1).val := by
  unfold DotDims.rhsIdx
  rw [dif_neg (show ¬(1 : Fin S512x512.rank) ∈ D1.rhsBatch by decide),
    dif_pos (show (1 : Fin S512x512.rank) ∈ D1.rhsNonContracting by decide)]
  rfl

/-- A block of 4000 rows times a 512 × 512 matrix, into a zero accumulator, at (a, d): row a against column d. -/
theorem matmul0_apply {φ₁ φ₂ : FTy} (l : FVec Ideal S4000x512 φ₁) (r : FVec Ideal S512x512 φ₂) (a : Fin 4000) (d : Fin 512) :
    matmul D0 none l r (constant S4000x512 .f32 0x00000000#32) (ix2 a d) = ∑ k : Fin 512, l (ix2 a k) * r (ix2 k d) := by
  refine (Ideal.matmul_constant_zero_apply D0 none l r (ix2 a d)).trans ?_
  rw [← Equiv.sum_comp (contrEquiv1 D0 512 rfl rfl).symm]
  refine Finset.sum_congr rfl fun k _ => ?_
  have hk := contrEquiv1_symm_val D0 512 rfl rfl k
  have el : D0.lhsIdx (ix2 a d) ((contrEquiv1 D0 512 rfl rfl).symm k) = ix2 a k := funext fun b => Fin.ext (by
    match b with
    | ⟨0, _⟩ => exact D0_lhs0 _ _
    | ⟨1, _⟩ => exact (D0_lhs1 _ _).trans hk)
  have er : D0.rhsIdx (ix2 a d) ((contrEquiv1 D0 512 rfl rfl).symm k) = ix2 k d := funext fun b => Fin.ext (by
    match b with
    | ⟨0, _⟩ => exact (D0_rhs0 _ _).trans hk
    | ⟨1, _⟩ => exact D0_rhs1 _ _)
  rw [el, er]

/-- The same for a block of 1000 rows. -/
theorem matmul1_apply {φ₁ φ₂ : FTy} (l : FVec Ideal S1000x512 φ₁) (r : FVec Ideal S512x512 φ₂) (a : Fin 1000) (d : Fin 512) :
    matmul D1 none l r (constant S1000x512 .f32 0x00000000#32) (ix2 a d) = ∑ k : Fin 512, l (ix2 a k) * r (ix2 k d) := by
  refine (Ideal.matmul_constant_zero_apply D1 none l r (ix2 a d)).trans ?_
  rw [← Equiv.sum_comp (contrEquiv1 D1 512 rfl rfl).symm]
  refine Finset.sum_congr rfl fun k _ => ?_
  have hk := contrEquiv1_symm_val D1 512 rfl rfl k
  have el : D1.lhsIdx (ix2 a d) ((contrEquiv1 D1 512 rfl rfl).symm k) = ix2 a k := funext fun b => Fin.ext (by
    match b with
    | ⟨0, _⟩ => exact D1_lhs0 _ _
    | ⟨1, _⟩ => exact (D1_lhs1 _ _).trans hk)
  have er : D1.rhsIdx (ix2 a d) ((contrEquiv1 D1 512 rfl rfl).symm k) = ix2 k d := funext fun b => Fin.ext (by
    match b with
    | ⟨0, _⟩ => exact (D1_rhs0 _ _).trans hk
    | ⟨1, _⟩ => exact D1_rhs1 _ _)
  rw [el, er]

/-- The row bias: a [512] vector cast to [1, 512] and broadcast over R rows reads, at (a, d), the vector at d. -/
theorem bias_apply {R : Nat} (v : (⟨1, ![512]⟩ : Shape).Idx → EReal)
    (h1 : (⟨1, ![512]⟩ : Shape).ShapeCasts ⟨2, ![1, 512]⟩) (h2 : (⟨2, ![1, 512]⟩ : Shape).Broadcasts ⟨2, ![R, 512]⟩)
    (a : Fin R) (d : Fin 512) :
    broadcastTo ⟨2, ![R, 512]⟩ (shapeCast ⟨2, ![1, 512]⟩ v h1) h2 (ix2 a d) = v (ix1 d) :=
  (broadcastTo_1b_ab_apply _ h2 a d).trans (shapeCast_a_1a_apply v h1 0 d)

/-- The edge kernel's stored value at (a, d) of a block: the gathered entry plus the edge's linear layer, clipped at zero. -/
theorem k0_pay1_apply (v0 : Vec Ideal S4000x512 .f32) (v2 : Vec Ideal S512x512 .f32) (v5 : Vec Ideal S512 .f32)
    (v9 : Vec Ideal S4000x512 .bf16) (a : Fin 4000) (d : Fin 512) :
    k0_pay1 (F := Ideal) v0 v2 v5 v9 (ix2 a d)
      = max (v9 (ix2 a d) + ((∑ k : Fin 512, v0 (ix2 a k) * v2 (ix2 k d)) + v5 (ix1 d))) 0 := by
  unfold k0_pay1
  refine (maximumf_apply _ _ _).trans ?_
  refine congrArg₂ max ?_ Ideal.ofBits_zero_f32
  refine (addf_apply _ _ _).trans ?_
  refine congrArg₂ (· + ·) ?_ ?_
  · exact congrFun (shapeCast_self v9 shapeCasts_S4000x512_S4000x512) (ix2 a d)
  · refine (addf_apply _ _ _).trans ?_
    refine congrArg₂ (· + ·) ?_ ?_
    · exact matmul0_apply (truncf FTy.bf16 v0 bitsLt_bf16_f32) (truncf FTy.bf16 v2 bitsLt_bf16_f32) a d
    · exact bias_apply v5 shapeCasts_S512_S1x512 broadcasts_S1x512_S4000x512 a d

/-- The sum over the 1000 rows of a block, at feature d. -/
theorem colsum_apply (src : FVec Ideal S1000x512 .f32) (hacc : (0x00000000#32 : BitVec 32) = 0x00000000#32) (d : Fin 512) :
    multiReduction .add [0] S512 src 0x00000000#32 reduces_S1000x512_S512 (.inl rfl) hacc (ix1 d)
      = ∑ r : Fin 1000, src (ix2 r d) := by
  refine (Ideal.multiReduction_add_single src 0x00000000#32 reduces_S1000x512_S512 (.inl rfl) hacc (ix1 d)).trans ?_
  refine Finset.sum_congr rfl fun r _ => congrArg src ?_
  funext b
  refine Fin.ext ?_
  match b with
  | ⟨0, _⟩ => rfl
  | ⟨1, _⟩ => rfl

/-- The perceptron body's stored value at (a, d) of a block. -/
theorem k1_pay3_apply (v3 : Vec Ideal S1000x512 .bf16) (v5 : Vec Ideal S512x512 .f32) (v8 : Vec Ideal S512 .f32)
    (v15 : Vec Ideal S512x512 .f32) (v18 : Vec Ideal S512 .f32) (a : Fin 1000) (d : Fin 512) :
    k1_pay3 (F := Ideal) v3 v5 v8 v15 v18 (ix2 a d)
      = (∑ k : Fin 512, max ((∑ j : Fin 512, v3 (ix2 a j) * v5 (ix2 j k)) + v8 (ix1 k)) 0 * v15 (ix2 k d)) + v18 (ix1 d) := by
  unfold k1_pay3
  refine (addf_apply _ _ _).trans ?_
  refine congrArg₂ (· + ·) ?_ ?_
  · refine (matmul1_apply _ (truncf FTy.bf16 v15 bitsLt_bf16_f32) a d).trans ?_
    refine Finset.sum_congr rfl fun k _ => congrArg (· * v15 (ix2 k d)) ?_
    refine (maximumf_apply _ _ _).trans ?_
    refine congrArg₂ max ?_ Ideal.ofBits_zero_f32
    refine (addf_apply _ _ _).trans ?_
    refine congrArg₂ (· + ·) ?_ ?_
    · refine (matmul1_apply (shapeCast S1000x512 v3 shapeCasts_S1000x512_S1000x512) (truncf FTy.bf16 v5 bitsLt_bf16_f32) a k).trans ?_
      refine Finset.sum_congr rfl fun j _ => congrArg (· * v5 (ix2 j k)) ?_
      exact congrFun (shapeCast_self v3 shapeCasts_S1000x512_S1000x512) (ix2 a j)
    · exact bias_apply v8 shapeCasts_S512_S1x512 broadcasts_S1x512_S1000x512 a k
  · exact bias_apply v18 shapeCasts_S512_S1x512 broadcasts_S1x512_S1000x512 a d

/-- What the perceptron body adds to row 0 of the statistics: the old row plus the block's column sums. -/
theorem k1_pay5_apply (v3 : Vec Ideal S1000x512 .bf16) (v5 : Vec Ideal S512x512 .f32) (v8 : Vec Ideal S512 .f32)
    (v15 : Vec Ideal S512x512 .f32) (v18 : Vec Ideal S512 .f32) (v28 : Vec Ideal S1x512 .f32) (u : Fin 1) (d : Fin 512) :
    k1_pay5 (F := Ideal) v3 v5 v8 v15 v18 v28 (ix2 u d)
      = v28 (ix2 u d) + ∑ r : Fin 1000, k1_pay3 (F := Ideal) v3 v5 v8 v15 v18 (ix2 r d) := by
  unfold k1_pay5
  refine (addf_apply _ _ _).trans ?_
  refine congrArg₂ (· + ·) ?_ ?_
  · exact congrFun (shapeCast_self v28 shapeCasts_S1x512_S1x512) (ix2 u d)
  · refine (shapeCast_a_1a_apply _ shapeCasts_S512_S1x512 u d).trans ?_
    exact colsum_apply _ rfl d

/-- What it adds to row 1: the block's column sums of squares (the old row is added by the last store). -/
theorem k1_pay4_apply (v3 : Vec Ideal S1000x512 .bf16) (v5 : Vec Ideal S512x512 .f32) (v8 : Vec Ideal S512 .f32)
    (v15 : Vec Ideal S512x512 .f32) (v18 : Vec Ideal S512 .f32) (u : Fin 1) (d : Fin 512) :
    k1_pay4 (F := Ideal) v3 v5 v8 v15 v18 (ix2 u d)
      = ∑ r : Fin 1000, k1_pay3 (F := Ideal) v3 v5 v8 v15 v18 (ix2 r d) * k1_pay3 (F := Ideal) v3 v5 v8 v15 v18 (ix2 r d) := by
  unfold k1_pay4
  refine (shapeCast_a_1a_apply _ shapeCasts_S512_S1x512 u d).trans ?_
  exact colsum_apply _ rfl d

theorem k1_pay1_apply (v27 : FVec Ideal S1x512 .f32) (v32 : Vec Ideal S1x512 .f32) (u : Fin 1) (d : Fin 512) :
    k1_pay1 (F := Ideal) v27 v32 (ix2 u d) = v32 (ix2 u d) + v27 (ix2 u d) := by
  unfold k1_pay1
  refine (addf_apply _ _ _).trans ?_
  exact congrArg (· + v27 (ix2 u d)) (congrFun (shapeCast_self v32 shapeCasts_S1x512_S1x512) (ix2 u d))

theorem k1_pay2_apply (i : S2x512.Idx) : k1_pay2 (F := Ideal) i = 0 := Ideal.ofBits_zero_f32

/-- The normalising body's stored value at (a, d) of a block. -/
theorem k2_pay1_apply (v0 : Vec Ideal S1000x512 .f32) (v2 v7 v15 v19 : Vec Ideal S512 .f32) (a : Fin 1000) (d : Fin 512) :
    k2_pay1 (F := Ideal) v0 v2 v7 v15 v19 (ix2 a d)
      = (v0 (ix2 a d) - v7 (ix1 d)) * Ideal.rsqrt (v2 (ix1 d) + Cert.Gine.eps) * v15 (ix1 d) + v19 (ix1 d) := by
  unfold k2_pay1
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) ?_ ?_
      · refine (subf_apply _ _ _).trans ?_
        refine congrArg₂ (· - ·) ?_ ?_
        · exact congrFun (shapeCast_self v0 shapeCasts_S1000x512_S1000x512) (ix2 a d)
        · refine (bias_apply _ shapeCasts_S512_S1x512 broadcasts_S1x512_S1000x512 a d).trans ?_
          exact congrFun (shapeCast_self v7 shapeCasts_S512_S512) (ix1 d)
      · refine (bias_apply _ shapeCasts_S512_S1x512 broadcasts_S1x512_S1000x512 a d).trans ?_
        show Ideal.rsqrt (shapeCast S512 v2 shapeCasts_S512_S512 (ix1 d) + Cert.Gine.eps) = _
        rw [shapeCast_self]
    · exact bias_apply v15 shapeCasts_S512_S1x512 broadcasts_S1x512_S1000x512 a d
  · exact bias_apply v19 shapeCasts_S512_S1x512 broadcasts_S1x512_S1000x512 a d

end Cert.KernelIdeal.Pay

end
-- ==== Proof.K0.lean ====
/-
  The edge kernel's output array.

  The grid has 100 points; point t handles the 4000 edges 4000·t … 4000·t + 3999: it reads those rows of the edge
  features and of the gathered source rows, the whole weight matrix and bias, and writes those rows of the messages. So
  whatever the arrays hold when the region is entered, the output array ends holding, at every (e, d),
      max (g(e, d) + (∑ k, ea(e, k) · We(k, d) + be(d)), 0).
-/
import proofs.«137729_j60997125538475_2_alg».proof.Proof.Gen.KernelIdeal.Frame
import proofs.«137729_j60997125538475_2_alg».proof.Proof.KPay
import proofs.«137729_j60997125538475_2_alg».proof.Proof.Spec

set_option maxRecDepth 16384
set_option pp.maxSteps 5000
set_option pp.deepTerms false

noncomputable section

namespace Cert.KernelIdeal.K0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices of the five windows at point t: the two edge-row inputs and the output move with t along the rows,
    the weight matrix and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 ∧ t.val < 100 :=
  (by decide +kernel : ∀ t : Fin grid0.N, _)

/-- Edge number 4000·t + a. -/
def row (t : Fin cfg0.N) (a : Fin 4000) : Fin 400000 :=
  ⟨4000 * t.val + a.val, by have := (idx_facts t).2.2.2.2.2.2.2.2.2; have := a.isLt; omega⟩

/-- The four arrays the region reads, as it finds them: edge features, gathered rows, weight matrix, bias. -/
abbrev aE (c : Dev nD) : S400000x512.Idx → EReal := V c main_arg2
abbrev aG (c : Dev nD) : S400000x512.Idx → EReal := V c main_v11
abbrev aW (c : Dev nD) : S512x512.Idx → EReal := V c main_arg3
abbrev aB (c : Dev nD) : S512.Idx → EReal := V c main_arg4

/-- The messages as a function of the arrays the region finds. -/
def G (c : Dev nD) : S400000x512.Idx → EReal :=
  Cert.Gine.msg (aG V c) (aE V c) (aW V c) (aB V c)

theorem blk_0 (c : Dev nD) (t : Fin cfg0.N) (a : Fin 4000) (k : Fin 512) :
    iblk0 V c 0 t (ix2 a k) = aE V c (ix2 (row t a) k) := by
  show V c main_arg2 (((cfg0.win 0).blk t).view.emb (ix2 a k)) = _
  refine congrArg _ (funext fun b => Fin.ext ?_)
  obtain ⟨e0, e1, -⟩ := idx_facts t
  match b with
  | ⟨0, _⟩ => show win0_0.index t (0 : Fin 2) * 4000 + 1 * a.val = 4000 * t.val + a.val; omega
  | ⟨1, _⟩ => show win0_0.index t (1 : Fin 2) * 512 + 1 * k.val = k.val; omega

theorem blk_1 (c : Dev nD) (t : Fin cfg0.N) (a : Fin 4000) (k : Fin 512) :
    iblk0 V c 1 t (ix2 a k) = aG V c (ix2 (row t a) k) := by
  show V c main_v11 (((cfg0.win 1).blk t).view.emb (ix2 a k)) = _
  refine congrArg _ (funext fun b => Fin.ext ?_)
  obtain ⟨-, -, e0, e1, -⟩ := idx_facts t
  match b with
  | ⟨0, _⟩ => show win0_1.index t (0 : Fin 2) * 4000 + 1 * a.val = 4000 * t.val + a.val; omega
  | ⟨1, _⟩ => show win0_1.index t (1 : Fin 2) * 512 + 1 * k.val = k.val; omega

theorem blk_2 (c : Dev nD) (t : Fin cfg0.N) (k d : Fin 512) :
    iblk0 V c 2 t (ix2 k d) = aW V c (ix2 k d) := by
  show V c main_arg3 (((cfg0.win 2).blk t).view.emb (ix2 k d)) = _
  refine congrArg _ (funext fun b => Fin.ext ?_)
  obtain ⟨-, -, -, -, e0, e1, -⟩ := idx_facts t
  match b with
  | ⟨0, _⟩ => show win0_2.index t (0 : Fin 2) * 512 + 1 * k.val = k.val; omega
  | ⟨1, _⟩ => show win0_2.index t (1 : Fin 2) * 512 + 1 * d.val = d.val; omega

theorem blk_3 (c : Dev nD) (t : Fin cfg0.N) (d : Fin 512) :
    iblk0 V c 3 t (ix1 d) = aB V c (ix1 d) := by
  show V c main_arg4 (((cfg0.win 3).blk t).view.emb (ix1 d)) = _
  refine congrArg _ (funext fun b => Fin.ext ?_)
  obtain ⟨-, -, -, -, -, -, e0, -⟩ := idx_facts t
  match b with
  | ⟨0, _⟩ => show win0_3.index t (0 : Fin 1) * 512 + 1 * d.val = d.val; omega

theorem emb_4 (t : Fin cfg0.N) (a : Fin 4000) (d : Fin 512) :
    ((cfg0.win 4).blk t).view.emb (ix2 a d) = (ix2 (row t a) d : S400000x512.Idx) := by
  refine funext fun b => Fin.ext ?_
  obtain ⟨-, -, -, -, -, -, -, e0, e1, -⟩ := idx_facts t
  match b with
  | ⟨0, _⟩ => show win0_4.index t (0 : Fin 2) * 4000 + 1 * a.val = 4000 * t.val + a.val; omega
  | ⟨1, _⟩ => show win0_4.index t (1 : Fin 2) * 512 + 1 * d.val = d.val; omega

/-- What point t writes back is its 4000 rows of the messages. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz2]
  simp only [View.ld_unit_zero (S := S4000x512) hz2, View.ld_unit_zero (S := S512x512) hz2, View.ld_unit_zero (S := S512) hz1]
  funext j
  obtain ⟨a, d, rfl⟩ : ∃ (a : Fin 4000) (d : Fin 512), j = ix2 a d := ⟨j 0, j 1, eq_ix2 j⟩
  show k0_pay1 (F := Ideal) (iblk0 V c 0 t) (iblk0 V c 2 t) (iblk0 V c 3 t) (iblk0 V c 1 t) (ix2 a d)
    = G V c (((cfg0.win 4).blk t).view.emb (ix2 a d))
  rw [emb_4 t a d]
  refine (k0_pay1_apply (iblk0 V c 0 t) (iblk0 V c 2 t) (iblk0 V c 3 t) (iblk0 V c 1 t) a d).trans ?_
  show _ = max (aG V c (ix2 (row t a) d)
    + ((∑ k : Fin 512, aE V c (ix2 (row t a) k) * aW V c (ix2 k d)) + aB V c (ix1 d))) 0
  rw [blk_1 V c t a d, blk_3 V c t d]
  refine congrArg (fun s => max (aG V c (ix2 (row t a) d) + (s + aB V c (ix1 d))) 0) ?_
  exact Finset.sum_congr rfl fun k _ => by rw [blk_0 V c t a k, blk_2 V c t k d]

theorem mem_blk (t : Fin cfg0.N) (i : S400000x512.Idx) :
    i ∈ ((cfg0.win 4).blk t).view.set ↔ ∀ a : Fin 2, win0_4.index t a * S4000x512.size a ≤ (i a).val ∧ (i a).val < win0_4.index t a * S4000x512.size a + S4000x512.size a := by
  show i ∈ ((View.whole main_v12).slice (win0_4.rect t)).set ↔ _
  rw [View.set_slice_whole, Rect.mem_set_unit]
  exact Iff.rfl

/-- Every edge row lies in the block of point e / 4000. -/
theorem cover (i : S400000x512.Idx) : ∃ t : Fin cfg0.N, (cfg0.win 4).flush t = true ∧ i ∈ ((cfg0.win 4).blk t).view.set := by
  have hi0 : (i 0).val < 400000 := (i 0).isLt
  have hi1 : (i 1).val < 512 := (i 1).isLt
  have hN : cfg0.N = 100 := rfl
  let t : Fin cfg0.N := ⟨(i 0).val / 4000, by rw [hN]; omega⟩
  refine ⟨t, flush0_4 t, ?_⟩
  rw [mem_blk]
  obtain ⟨-, -, -, -, -, -, -, e0, e1, -⟩ := idx_facts t
  have ht : t.val = (i 0).val / 4000 := rfl
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 512 ≤ (i 1).val ∧ (i 1).val < win0_4.index t (1 : Fin 2) * 512 + 512; omega

/-- The output array after the region: the messages. -/
theorem final (c : Dev nD) : (dat0 V c).arrAt 4 cfg0.N = G V c :=
  (dat0 V c).arrAt_eq_of_cover 4 (G V c) (fun t _ => flushed_eq V c t) cover

end Cert.KernelIdeal.K0

end
-- ==== Proof.K1Body.lean ====
/-
  What the perceptron kernel's body leaves in its two output buffers at one grid point.

  The block of 1000 output rows is stored whole: it is y(a, d) of the loaded blocks. The statistics buffer has two rows
  of 512. At the first point the body first zeroes it; at every point it then replaces row 0 by row 0 plus the block's
  column sums ∑ a, y(a, d), and row 1 by row 1 plus the block's column sums of squares ∑ a, y(a, d)². So after the body
      row 0 = (row 0 before, or 0 at the first point) + ∑ a, y(a, d),
      row 1 = (row 1 before, or 0 at the first point) + ∑ a, y(a, d)².
-/
import proofs.«137729_j60997125538475_2_alg».proof.Proof.Gen.KernelIdeal.Frame
import proofs.«137729_j60997125538475_2_alg».proof.Proof.KPay
import proofs.«137729_j60997125538475_2_alg».proof.Proof.Spec

set_option maxRecDepth 16384
set_option pp.maxSteps 20000
set_option pp.deepTerms false
set_option pp.proofs false

noncomputable section

namespace Cert.KernelIdeal.K1

open Idealize.ShloMosaic Idealize.ShloMosaic.TcCoe Idealize.ShloMosaic.ValueIdx Idealize.SL.Sem Idealize.ShloMosaic.Tactic
open Idealize.ShloMosaic.Pipeline (Dat Cfg Window)
open Cert.KernelIdeal Cert.KernelIdeal.Gen Cert.KernelIdeal.Pay

theorem hz2 : (![0, 0] : Fin 2 → Nat) = fun _ => 0 := funext fun a => by fin_cases a <;> rfl
theorem hz1 : (![0] : Fin 1 → Nat) = fun _ => 0 := funext fun a => by fin_cases a; rfl

/-! ## Two rows of a [2, 512] buffer written one after the other -/

section Rows
variable {Val : EltTy → Type} [∀ e, Nonempty (Val e)]

/-- The rectangle of row 1 and of row 0. -/
abbrev R1 : Rect S2x512 := Rect.unit (s := S2x512) ![1, 0] ![1, 512] inb_S2x512_S1x512_1_0
abbrev R0 : Rect S2x512 := Rect.unit (s := S2x512) ![0, 0] ![1, 512] inb_S2x512_S1x512_0_0

theorem R1_emb (d : Fin 512) : R1.emb (ix2 (0 : Fin 1) d) = (ix2 (1 : Fin 2) d : S2x512.Idx) :=
  funext fun b => Fin.ext (by
    match b with
    | ⟨0, _⟩ => rfl
    | ⟨1, _⟩ => show 0 + 1 * d.val = d.val; omega)

theorem R0_emb (d : Fin 512) : R0.emb (ix2 (0 : Fin 1) d) = (ix2 (0 : Fin 2) d : S2x512.Idx) :=
  funext fun b => Fin.ext (by
    match b with
    | ⟨0, _⟩ => rfl
    | ⟨1, _⟩ => show 0 + 1 * d.val = d.val; omega)

theorem row0_not_mem_R1 (d : Fin 512) : (ix2 (0 : Fin 2) d : S2x512.Idx) ∉ R1.set := by
  rw [Rect.mem_set_unit]
  intro h
  have h1 : (1 : ℕ) ≤ 0 := (h 0).1
  omega

theorem row1_not_mem_R0 (d : Fin 512) : (ix2 (1 : Fin 2) d : S2x512.Idx) ∉ R0.set := by
  rw [Rect.mem_set_unit]
  intro h
  have h1 : (1 : ℕ) < 0 + 1 := (h 0).2
  omega

/-- After a store to row 1 (last), row 1 reads that store's payload. -/
theorem canon_row1 (w1 : R1.shape.Idx → Val .f32) (L : List (View.Piece Val S2x512 .f32)) (d : Fin 512) :
    View.canon (⟨R1, w1⟩ :: L) (ix2 (1 : Fin 2) d) = w1 (ix2 (0 : Fin 1) d) := by
  exact (congrArg (View.canon (⟨R1, w1⟩ :: L)) (R1_emb d).symm).trans (View.canon_cons_emb R1 w1 L _)

/-- After a store to row 0 and then one to row 1, row 0 reads the first store's payload. -/
theorem canon_row0 (w1 : R1.shape.Idx → Val .f32) (w0 : R0.shape.Idx → Val .f32) (L : List (View.Piece Val S2x512 .f32))
    (d : Fin 512) : View.canon (⟨R1, w1⟩ :: ⟨R0, w0⟩ :: L) (ix2 (0 : Fin 2) d) = w0 (ix2 (0 : Fin 1) d) := by
  exact (View.canon_cons_of_not_mem (⟨R1, w1⟩ : View.Piece Val S2x512 .f32) (⟨R0, w0⟩ :: L) (row0_not_mem_R1 d)).trans
    ((congrArg (View.canon (⟨R0, w0⟩ :: L)) (R0_emb d).symm).trans (View.canon_cons_emb R0 w0 L _))

/-- A store to row 0 does not change what row 1 reads. -/
theorem canon_row1_skip0 (w0 : R0.shape.Idx → Val .f32) (L : List (View.Piece Val S2x512 .f32)) (d : Fin 512) :
    View.canon (⟨R0, w0⟩ :: L) (ix2 (1 : Fin 2) d) = View.canon L (ix2 (1 : Fin 2) d) :=
  View.canon_cons_of_not_mem (⟨R0, w0⟩ : View.Piece Val S2x512 .f32) L (row1_not_mem_R0 d)

end Rows

/-! ## The block of output rows -/

theorem out_A_5 (c : Dev nD) (i : grid1.Coords) (arg1 : Memref sig .tc .vmem S1000x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1000x512 .f32) (harg6 : arg6.IsWhole) (arg7 : Memref sig .tc .vmem S2x512 .f32) (harg7 : arg7.IsWhole) (hc0 : cond1_0 i) (x0 : Vec Ideal S1000x512 .bf16) (x1 : Vec Ideal S512x512 .f32) (x2 : Vec Ideal S512 .f32) (x3 : Vec Ideal S512x512 .f32) (x4 : Vec Ideal S512 .f32) :
    out1_A_5 (F := Ideal) c i arg1 harg1 arg2 harg2 arg3 harg3 arg4 harg4 arg5 harg5 arg6 harg6 arg7 harg7 hc0 x0 x1 x2 x3 x4 = k1_pay3 x0 x1 x2 x3 x4 := by
  unfold out1_A_5
  rw [View.read_writes_eq_canon _ _ _ (cover1_A_5 c i arg1 harg1 arg2 harg2 arg3 harg3 arg4 harg4 arg5 harg5 arg6 harg6 arg7 harg7 hc0 x0 x1 x2 x3 x4)]
  unfold kernelRun1_A
  dsimp only
  sl_unfold_words
  rw [View.canon_unit_zero hz2]
  simp only [View.readAt_eq_ld, harg1.read_unread, harg2.read_unread, harg3.read_unread, harg4.read_unread,
    harg5.read_unread, View.ld_unit_zero (S := S1000x512) hz2, View.ld_unit_zero (S := S512x512) hz2,
    View.ld_unit_zero (S := S512) hz1]

theorem out_B_5 (c : Dev nD) (i : grid1.Coords) (arg1 : Memref sig .tc .vmem S1000x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1000x512 .f32) (harg6 : arg6.IsWhole) (arg7 : Memref sig .tc .vmem S2x512 .f32) (harg7 : arg7.IsWhole) (hc0 : ¬cond1_0 i) (x0 : Vec Ideal S1000x512 .bf16) (x1 : Vec Ideal S512x512 .f32) (x2 : Vec Ideal S512 .f32) (x3 : Vec Ideal S512x512 .f32) (x4 : Vec Ideal S512 .f32) (xo6 : Vec Ideal S2x512 .f32) :
    out1_B_5 (F := Ideal) c i arg1 harg1 arg2 harg2 arg3 harg3 arg4 harg4 arg5 harg5 arg6 harg6 arg7 harg7 hc0 x0 x1 x2 x3 x4 xo6 = k1_pay3 x0 x1 x2 x3 x4 := by
  unfold out1_B_5
  rw [View.read_writes_eq_canon _ _ _ (cover1_B_5 c i arg1 harg1 arg2 harg2 arg3 harg3 arg4 harg4 arg5 harg5 arg6 harg6 arg7 harg7 hc0 x0 x1 x2 x3 x4 xo6)]
  unfold kernelRun1_B
  dsimp only
  sl_unfold_words
  rw [View.canon_unit_zero hz2]
  simp only [View.readAt_eq_ld, harg1.read_unread, harg2.read_unread, harg3.read_unread, harg4.read_unread,
    harg5.read_unread, View.ld_unit_zero (S := S1000x512) hz2, View.ld_unit_zero (S := S512x512) hz2,
    View.ld_unit_zero (S := S512) hz1]

/-! ## The statistics rows at a later point -/

/-- A row of the statistics buffer loaded through its rectangle. -/
theorem ld_R1 (xo6 : Vec Ideal S2x512 .f32) (d : Fin 512) :
    View.ld xo6 (Rect.unit (s := S2x512) ![1, 0] ![1, 512] inb_S2x512_S1x512_1_0) (ix2 (0 : Fin 1) d) = xo6 (ix2 (1 : Fin 2) d) :=
  congrArg xo6 (funext fun b => Fin.ext (by
    match b with
    | ⟨0, _⟩ => rfl
    | ⟨1, _⟩ => show 0 + 1 * d.val = d.val; omega))

theorem ld_R0 (xo6 : Vec Ideal S2x512 .f32) (d : Fin 512) :
    View.ld xo6 (Rect.unit (s := S2x512) ![0, 0] ![1, 512] inb_S2x512_S1x512_0_0) (ix2 (0 : Fin 1) d) = xo6 (ix2 (0 : Fin 2) d) :=
  congrArg xo6 (funext fun b => Fin.ext (by
    match b with
    | ⟨0, _⟩ => rfl
    | ⟨1, _⟩ => show 0 + 1 * d.val = d.val; omega))

theorem out_B_6_row1 (c : Dev nD) (i : grid1.Coords) (arg1 : Memref sig .tc .vmem S1000x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1000x512 .f32) (harg6 : arg6.IsWhole) (arg7 : Memref sig .tc .vmem S2x512 .f32) (harg7 : arg7.IsWhole) (hc0 : ¬cond1_0 i) (x0 : Vec Ideal S1000x512 .bf16) (x1 : Vec Ideal S512x512 .f32) (x2 : Vec Ideal S512 .f32) (x3 : Vec Ideal S512x512 .f32) (x4 : Vec Ideal S512 .f32) (xo6 : Vec Ideal S2x512 .f32) (d : Fin 512) :
    out1_B_6 (F := Ideal) c i arg1 harg1 arg2 harg2 arg3 harg3 arg4 harg4 arg5 harg5 arg6 harg6 arg7 harg7 hc0 x0 x1 x2 x3 x4 xo6 (ix2 (1 : Fin 2) d)
      = xo6 (ix2 (1 : Fin 2) d) + ∑ r : Fin 1000, k1_pay3 (F := Ideal) x0 x1 x2 x3 x4 (ix2 r d) * k1_pay3 (F := Ideal) x0 x1 x2 x3 x4 (ix2 r d) := by
  unfold out1_B_6
  rw [View.read_writes_eq_canon _ _ _ (cover1_B_6 c i arg1 harg1 arg2 harg2 arg3 harg3 arg4 harg4 arg5 harg5 arg6 harg6 arg7 harg7 hc0 x0 x1 x2 x3 x4 xo6)]
  unfold kernelRun1_B
  dsimp only
  sl_unfold_words
  simp only [View.readAt_eq_ld, harg1.read_unread, harg2.read_unread, harg3.read_unread, harg4.read_unread,
    harg5.read_unread, harg7.read_unread, View.ld_unit_zero (S := S1000x512) hz2, View.ld_unit_zero (S := S512x512) hz2,
    View.ld_unit_zero (S := S512) hz1]
  refine (canon_row1 _ _ d).trans ?_
  refine (k1_pay1_apply _ _ 0 d).trans ?_
  exact congrArg₂ (· + ·) (ld_R1 xo6 d) (k1_pay4_apply x0 x1 x2 x3 x4 0 d)

theorem out_B_6_row0 (c : Dev nD) (i : grid1.Coords) (arg1 : Memref sig .tc .vmem S1000x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1000x512 .f32) (harg6 : arg6.IsWhole) (arg7 : Memref sig .tc .vmem S2x512 .f32) (harg7 : arg7.IsWhole) (hc0 : ¬cond1_0 i) (x0 : Vec Ideal S1000x512 .bf16) (x1 : Vec Ideal S512x512 .f32) (x2 : Vec Ideal S512 .f32) (x3 : Vec Ideal S512x512 .f32) (x4 : Vec Ideal S512 .f32) (xo6 : Vec Ideal S2x512 .f32) (d : Fin 512) :
    out1_B_6 (F := Ideal) c i arg1 harg1 arg2 harg2 arg3 harg3 arg4 harg4 arg5 harg5 arg6 harg6 arg7 harg7 hc0 x0 x1 x2 x3 x4 xo6 (ix2 (0 : Fin 2) d)
      = xo6 (ix2 (0 : Fin 2) d) + ∑ r : Fin 1000, k1_pay3 (F := Ideal) x0 x1 x2 x3 x4 (ix2 r d) := by
  unfold out1_B_6
  rw [View.read_writes_eq_canon _ _ _ (cover1_B_6 c i arg1 harg1 arg2 harg2 arg3 harg3 arg4 harg4 arg5 harg5 arg6 harg6 arg7 harg7 hc0 x0 x1 x2 x3 x4 xo6)]
  unfold kernelRun1_B
  dsimp only
  sl_unfold_words
  simp only [View.readAt_eq_ld, harg1.read_unread, harg2.read_unread, harg3.read_unread, harg4.read_unread,
    harg5.read_unread, harg7.read_unread, View.ld_unit_zero (S := S1000x512) hz2, View.ld_unit_zero (S := S512x512) hz2,
    View.ld_unit_zero (S := S512) hz1]
  refine (canon_row0 _ _ _ d).trans ?_
  refine (k1_pay5_apply x0 x1 x2 x3 x4 _ 0 d).trans ?_
  exact congrArg (· + _) (ld_R0 xo6 d)

/-! ## The statistics rows at the first point -/

/-- The whole-buffer rectangle of the zeroing store. -/
abbrev Rz : Rect S2x512 := Rect.unit (s := S2x512) ![0, 0] ![2, 512] inb_S2x512_S2x512_0_0

/-- After the zeroing store alone, every entry is zero. -/
theorem canon_zero (y : S2x512.Idx) : View.canon [(⟨Rz, k1_pay2 (F := Ideal)⟩ : View.Piece (Elt Ideal) S2x512 .f32)] y = 0 :=
by
  have h : View.canon [(⟨Rz, k1_pay2 (F := Ideal)⟩ : View.Piece (Elt Ideal) S2x512 .f32)] = k1_pay2 (F := Ideal) :=
    View.canon_unit_zero (S := S2x512) hz2 inb_S2x512_S2x512_0_0 _
  exact (congrFun h y).trans (k1_pay2_apply y)

/-- Row 0 loaded after the zeroing store is zero. -/
theorem readCov_zero_row0 {sg : RefSig} {κ : Kind} {sp : Space} (v : View sg κ sp S2x512 .f32) (d : Fin 512) :
    v.readCov [(⟨Rz, k1_pay2 (F := Ideal)⟩ : View.Piece (Elt Ideal) S2x512 .f32)] R0.toLoadRect (ix2 (0 : Fin 1) d) = 0 := by
  rw [View.readCov_eq_canon']
  exact canon_zero _

/-- Row 1 loaded after the zeroing store and the store to row 0 is zero. -/
theorem readCov_zero_row1 {sg : RefSig} {κ : Kind} {sp : Space} (v : View sg κ sp S2x512 .f32) (w0 : R0.shape.Idx → EReal) (d : Fin 512) :
    v.readCov [(⟨R0, w0⟩ : View.Piece (Elt Ideal) S2x512 .f32), ⟨Rz, k1_pay2 (F := Ideal)⟩] R1.toLoadRect (ix2 (0 : Fin 1) d) = 0 := by
  rw [View.readCov_eq_canon']
  show View.canon [(⟨R0, w0⟩ : View.Piece (Elt Ideal) S2x512 .f32), ⟨Rz, k1_pay2 (F := Ideal)⟩] (R1.emb (ix2 (0 : Fin 1) d)) = 0
  rw [R1_emb d, canon_row1_skip0]
  exact canon_zero _

theorem out_A_6_row1 (c : Dev nD) (i : grid1.Coords) (arg1 : Memref sig .tc .vmem S1000x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1000x512 .f32) (harg6 : arg6.IsWhole) (arg7 : Memref sig .tc .vmem S2x512 .f32) (harg7 : arg7.IsWhole) (hc0 : cond1_0 i) (x0 : Vec Ideal S1000x512 .bf16) (x1 : Vec Ideal S512x512 .f32) (x2 : Vec Ideal S512 .f32) (x3 : Vec Ideal S512x512 .f32) (x4 : Vec Ideal S512 .f32) (d : Fin 512) :
    out1_A_6 (F := Ideal) c i arg1 harg1 arg2 harg2 arg3 harg3 arg4 harg4 arg5 harg5 arg6 harg6 arg7 harg7 hc0 x0 x1 x2 x3 x4 (ix2 (1 : Fin 2) d)
      = 0 + ∑ r : Fin 1000, k1_pay3 (F := Ideal) x0 x1 x2 x3 x4 (ix2 r d) * k1_pay3 (F := Ideal) x0 x1 x2 x3 x4 (ix2 r d) := by
  unfold out1_A_6
  rw [View.read_writes_eq_canon _ _ _ (cover1_A_6 c i arg1 harg1 arg2 harg2 arg3 harg3 arg4 harg4 arg5 harg5 arg6 harg6 arg7 harg7 hc0 x0 x1 x2 x3 x4)]
  unfold kernelRun1_A
  dsimp only
  sl_unfold_words
  simp only [View.readAt_eq_ld, harg1.read_unread, harg2.read_unread, harg3.read_unread, harg4.read_unread,
    harg5.read_unread, View.ld_unit_zero (S := S1000x512) hz2, View.ld_unit_zero (S := S512x512) hz2,
    View.ld_unit_zero (S := S512) hz1]
  refine (canon_row1 _ _ d).trans ?_
  refine (k1_pay1_apply _ _ 0 d).trans ?_
  exact congrArg₂ (· + ·) (readCov_zero_row1 arg7.view _ d) (k1_pay4_apply x0 x1 x2 x3 x4 0 d)

theorem out_A_6_row0 (c : Dev nD) (i : grid1.Coords) (arg1 : Memref sig .tc .vmem S1000x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1000x512 .f32) (harg6 : arg6.IsWhole) (arg7 : Memref sig .tc .vmem S2x512 .f32) (harg7 : arg7.IsWhole) (hc0 : cond1_0 i) (x0 : Vec Ideal S1000x512 .bf16) (x1 : Vec Ideal S512x512 .f32) (x2 : Vec Ideal S512 .f32) (x3 : Vec Ideal S512x512 .f32) (x4 : Vec Ideal S512 .f32) (d : Fin 512) :
    out1_A_6 (F := Ideal) c i arg1 harg1 arg2 harg2 arg3 harg3 arg4 harg4 arg5 harg5 arg6 harg6 arg7 harg7 hc0 x0 x1 x2 x3 x4 (ix2 (0 : Fin 2) d)
      = 0 + ∑ r : Fin 1000, k1_pay3 (F := Ideal) x0 x1 x2 x3 x4 (ix2 r d) := by
  unfold out1_A_6
  rw [View.read_writes_eq_canon _ _ _ (cover1_A_6 c i arg1 harg1 arg2 harg2 arg3 harg3 arg4 harg4 arg5 harg5 arg6 harg6 arg7 harg7 hc0 x0 x1 x2 x3 x4)]
  unfold kernelRun1_A
  dsimp only
  sl_unfold_words
  simp only [View.readAt_eq_ld, harg1.read_unread, harg2.read_unread, harg3.read_unread, harg4.read_unread,
    harg5.read_unread, View.ld_unit_zero (S := S1000x512) hz2, View.ld_unit_zero (S := S512x512) hz2,
    View.ld_unit_zero (S := S512) hz1]
  refine (canon_row0 _ _ _ d).trans ?_
  refine (k1_pay5_apply x0 x1 x2 x3 x4 _ 0 d).trans ?_
  exact congrArg (· + _) (readCov_zero_row0 arg7.view d)

end Cert.KernelIdeal.K1

end
-- ==== Proof.SpecLaws.lean ====
/-
  Facts about the specification: the constants as extended reals, every intermediate array is real when the inputs are,
  the two forms of the variance agree on real arrays, and two regroupings of a sum over the nodes.
-/
import proofs.«137729_j60997125538475_2_alg».proof.Proof.Spec
import Idealize.ShloMosaic.PureOps.Ideal.Laws
import Mathlib.Algebra.BigOperators.Fin
import Mathlib.Algebra.BigOperators.Ring.Finset

noncomputable section

namespace Cert.Gine

open Idealize.ShloMosaic Idealize.ShloMosaic.ValueIdx

/-! ## The constants -/

/-- The word of 25000.0 denotes the real 25000. -/
theorem cnt_eq : cnt = ((25000 : ℝ) : EReal) := by
  simp [cnt, Ideal.ofBits, Ideal.ieee, -EReal.coe_mul]; norm_num

theorem zero_eq : zero = 0 := by
  simp [zero, Ideal.ofBits, Ideal.ieee]

theorem one_eq : one = 1 := by
  simp [one, Ideal.ofBits, Ideal.ieee, -EReal.coe_mul]; norm_num

/-! ## Real numbers are closed under the operations of the specification -/

/-- An extended real that is a real number. -/
def RealVal (x : EReal) : Prop := ∃ r : ℝ, x = (r : EReal)

theorem RealVal.add {x y : EReal} (hx : RealVal x) (hy : RealVal y) : RealVal (x + y) := by
  obtain ⟨a, rfl⟩ := hx; obtain ⟨b, rfl⟩ := hy; exact ⟨a + b, (EReal.coe_add a b).symm⟩

theorem RealVal.mul {x y : EReal} (hx : RealVal x) (hy : RealVal y) : RealVal (x * y) := by
  obtain ⟨a, rfl⟩ := hx; obtain ⟨b, rfl⟩ := hy; exact ⟨a * b, (EReal.coe_mul a b).symm⟩

theorem RealVal.max_zero {x : EReal} (hx : RealVal x) : RealVal (max x 0) := by
  obtain ⟨a, rfl⟩ := hx
  exact ⟨max a 0, by rw [EReal.coe_strictMono.monotone.map_max, EReal.coe_zero]⟩

theorem RealVal.zero : RealVal (0 : EReal) := ⟨0, EReal.coe_zero.symm⟩

theorem RealVal.one : RealVal (1 : EReal) := ⟨1, EReal.coe_one.symm⟩

/-- A finite sum of real numbers is a real number, whatever the index set. -/
theorem RealVal.sum {ι : Type} (s : Finset ι) (f : ι → EReal) (h : ∀ i ∈ s, RealVal (f i)) : RealVal (∑ i ∈ s, f i) := by
  classical
  induction s using Finset.induction_on with
  | empty => simpa using RealVal.zero
  | insert a s ha ih =>
    rw [Finset.sum_insert ha]
    exact (h a (Finset.mem_insert_self a s)).add (ih fun i hi => h i (Finset.mem_insert_of_mem hi))

/-- An array given entry by entry is real when every entry is. -/
theorem isReal_ofFn2 {n0 n1 : Nat} {f : Fin n0 → Fin n1 → EReal} (h : ∀ a b, RealVal (f a b)) : IsReal (ofFn2 f) :=
  fun _ => h _ _

theorem RealVal.lin {R : Nat} {a : (⟨2, ![R, 512]⟩ : Shape).Idx → EReal} {W : SW.Idx → EReal} {b : SD.Idx → EReal}
    (ha : IsReal a) (hW : IsReal W) (hb : IsReal b) (r : Fin R) (d : Fin 512) : RealVal (lin a W b r d) :=
  (RealVal.sum _ _ fun k _ => RealVal.mul (ha (ix2 r k)) (hW (ix2 k d))).add (hb (ix1 d))

theorem isReal_msg {g ea : SE.Idx → EReal} {We : SW.Idx → EReal} {be : SD.Idx → EReal} (hg : IsReal g) (hea : IsReal ea)
    (hWe : IsReal We) (hbe : IsReal be) : IsReal (msg g ea We be) :=
  isReal_ofFn2 fun e d => (RealVal.add (hg (ix2 e d)) (RealVal.lin hea hWe hbe e d)).max_zero

/-- A gathered entry is an entry of the operand. -/
theorem isReal_gather (gd : GatherDims SN SI SE) {x : SN.Idx → EReal} (hx : IsReal x) (idx : IVec SI 32) :
    IsReal (Host.gather gd x idx) :=
  fun j => hx (gd.operandIdx j idx)

theorem isReal_node (gd : GatherDims SN SI SE) (sd : ScatterDims SN SI SE) {x : SN.Idx → EReal} (a1 : IVec SEI 32)
    {ea : SE.Idx → EReal} {We : SW.Idx → EReal} {be : SD.Idx → EReal} (hx : IsReal x) (hea : IsReal ea) (hWe : IsReal We)
    (hbe : IsReal be) : IsReal (node gd sd x a1 ea We be) := by
  intro i
  have hm := isReal_msg (isReal_gather gd hx (srcIdx a1)) hea hWe hbe
  have h1 : RealVal (one * x i) := by rw [one_eq]; exact RealVal.one.mul (hx i)
  have h0 : RealVal zero := by rw [zero_eq]; exact RealVal.zero
  exact h1.add (h0.add (RealVal.sum _ _ fun j _ => hm j))

theorem isReal_hidden {h : SN.Idx → EReal} {W1 : SW.Idx → EReal} {b1 : SD.Idx → EReal} (hh : IsReal h) (hW1 : IsReal W1)
    (hb1 : IsReal b1) : IsReal (hidden h W1 b1) :=
  isReal_ofFn2 fun n k => (RealVal.lin hh hW1 hb1 n k).max_zero

theorem isReal_mlp {h : SN.Idx → EReal} {W1 W2 : SW.Idx → EReal} {b1 b2 : SD.Idx → EReal} (hh : IsReal h) (hW1 : IsReal W1)
    (hb1 : IsReal b1) (hW2 : IsReal W2) (hb2 : IsReal b2) : IsReal (mlp h W1 b1 W2 b2) :=
  isReal_ofFn2 fun n d => RealVal.lin (isReal_hidden hh hW1 hb1) hW2 hb2 n d

/-! ## The two forms of the variance -/

/-- The coercion of the reals commutes with finite sums. -/
theorem coe_finset_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by the number of nodes is the product with the real 1/25000. -/
theorem div_cnt (x : EReal) : Ideal.div x cnt = x * (((1 : ℝ) / 25000 : ℝ) : EReal) := by
  rw [cnt_eq, Ideal.div_coe (by norm_num : (25000 : ℝ) ≠ 0)]

/-- Over the reals: the mean of the squares minus the square of the mean is the mean squared deviation. -/
theorem real_variance (y : Fin 25000 → ℝ) :
    (∑ n, y n * y n) * (1 / 25000) - ((∑ n, y n) * (1 / 25000)) * ((∑ n, y n) * (1 / 25000))
      = (∑ n, (y n - (∑ n, y n) * (1 / 25000)) * (y n - (∑ n, y n) * (1 / 25000))) * (1 / 25000) := by
  have h1 : ∀ m : ℝ, ∑ n, (y n - m) * (y n - m) = (∑ n, y n * y n) - 2 * m * (∑ n, y n) + 25000 * (m * m) := by
    intro m
    have h2 : ∀ n, (y n - m) * (y n - m) = y n * y n - 2 * m * y n + m * m := fun n => by ring
    simp only [h2, Finset.sum_add_distrib, Finset.sum_sub_distrib, ← Finset.mul_sum, Finset.sum_const, Finset.card_univ,
      Fintype.card_fin, nsmul_eq_mul]
    push_cast; ring
  rw [h1]; ring

theorem varSq_eq_varDev {y : SN.Idx → EReal} (hy : IsReal y) (d : Fin 512) : varSq y d = varDev y d := by
  choose y' hy' using fun n : Fin 25000 => hy (ix2 n d)
  have hmean : mean y d = (((∑ n, y' n) * (1 / 25000) : ℝ) : EReal) := by
    simp only [mean, colSum, hy', div_cnt, ← coe_finset_sum, ← EReal.coe_mul]
  simp only [varSq, varDev, colSumSq, hmean, hy', div_cnt, ← EReal.coe_mul, ← EReal.coe_sub, ← coe_finset_sum]
  rw [real_variance]

theorem resultSq_eq_resultDev {y : SN.Idx → EReal} (hy : IsReal y) (gamma beta : SD.Idx → EReal) :
    resultSq y gamma beta = resultDev y gamma beta := by
  have h : varSq y = varDev y := funext fun d => varSq_eq_varDev hy d
  rw [resultSq, resultDev, h]

/-! ## Regrouping a sum over the nodes -/

/-- The nodes summed in 25 blocks of 1000 rows. -/
theorem sum_blocks (f : Fin 25000 → EReal) :
    (∑ t : Fin 25, ∑ r : Fin 1000, f ⟨1000 * t.val + r.val, by omega⟩) = ∑ n : Fin 25000, f n := by
  rw [← Fintype.sum_prod_type']
  refine Fintype.sum_equiv (finProdFinEquiv (m := 25) (n := 1000)) _ _ ?_
  rintro ⟨t, r⟩
  congr 1
  apply Fin.ext
  simp [finProdFinEquiv]
  omega

/-- The running total of the first n block sums, added one at a time from zero on the left. -/
def accSum (s : Fin 25 → EReal) : (n : Nat) → n ≤ 25 → EReal
  | 0, _ => 0
  | n + 1, h => accSum s n (Nat.le_of_succ_le h) + s ⟨n, h⟩

theorem accSum_eq (s : Fin 25 → EReal) (n : Nat) (h : n ≤ 25) :
    accSum s n h = ∑ t : Fin n, s ⟨t.val, lt_of_lt_of_le t.isLt h⟩ := by
  induction n with
  | zero => simp [accSum]
  | succ n ih => rw [accSum, ih, Fin.sum_univ_castSucc]; rfl

theorem fold_blocks (s : Fin 25 → EReal) : accSum s 25 le_rfl = ∑ t : Fin 25, s t := by
  rw [accSum_eq]

/-! ## The divisor of the reference's variance routine -/

theorem sitofp_zero : FloatOps.sitofp (F := Ideal) .f32 (0#32 : BitVec 32) = (0 : EReal) := by
  show (((0#32 : BitVec 32).toInt : ℝ) : EReal) = 0
  simp

theorem cnt_sub_zero : cnt - (0 : EReal) = cnt := sub_zero cnt

theorem cmp_cnt_pos : FloatOps.cmpf (F := Ideal) (φ := .f32) .ogt cnt (Ideal.ofBits .f32 0x00000000#32) = 1#1 := by
  rw [Ideal.cmpf_def, Ideal.cmp, Ideal.ofBits_zero_f32, cnt_eq]
  have h : (0 : EReal) < ((25000 : ℝ) : EReal) := by exact_mod_cast (by norm_num : (0 : ℝ) < 25000)
  simp [h]

end Cert.Gine

end
-- ==== Proof.K1.lean ====
/-
  The perceptron kernel's two output arrays.

  The grid has 25 points; point t handles the 1000 nodes 1000·t … 1000·t + 999: it reads those rows of the node array h
  and the whole of the two weight matrices and biases, writes those rows of y, and adds the block's column sums and
  column sums of squares into the statistics, which are written back once, after the last point. So whatever the arrays
  hold when the region is entered:
    the first output array ends holding y(n, d) = ∑ k, max (∑ j, h(n, j) · W1(j, k) + b1(k), 0) · W2(k, d) + b2(d);
    the statistics array ends holding, in row 0, ∑ n, y(n, d) and, in row 1, ∑ n, y(n, d)², the sums over all 25000
    nodes — the 25 block sums added one after the other from zero, regrouped.
-/
import proofs.«137729_j60997125538475_2_alg».proof.Proof.K1Body
import proofs.«137729_j60997125538475_2_alg».proof.Proof.SpecLaws

set_option maxRecDepth 16384
set_option pp.maxSteps 20000
set_option pp.deepTerms false
set_option pp.proofs false

noncomputable section

namespace Cert.KernelIdeal.K1

open Idealize.ShloMosaic Idealize.ShloMosaic.TcCoe Idealize.ShloMosaic.ValueIdx Idealize.SL.Sem Idealize.ShloMosaic.Tactic
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-- The block indices of the seven windows at point t: the node-row input and the first output move with t along the
    rows; the weights, the biases and the statistics stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = 0 ∧ win1_6.index t (1 : Fin 2) = 0 ∧ t.val < 25 :=
  (by decide +kernel : ∀ t : Fin grid1.N, _)

theorem lt25 (t : Fin cfg1.N) : t.val < 25 := (idx_facts t).2.2.2.2.2.2.2.2.2.2.2.2

/-- Node number 1000·t + a. -/
def row (t : Fin cfg1.N) (a : Fin 1000) : Fin 25000 :=
  ⟨1000 * t.val + a.val, by have := lt25 t; have := a.isLt; omega⟩

/-- The five arrays the region reads, as it finds them: node array, first weights and bias, second weights and bias. -/
abbrev aH (c : Dev nD) : S25000x512.Idx → EReal := V c main_v19
abbrev aW1 (c : Dev nD) : S512x512.Idx → EReal := V c main_arg5
abbrev aB1 (c : Dev nD) : S512.Idx → EReal := V c main_arg6
abbrev aW2 (c : Dev nD) : S512x512.Idx → EReal := V c main_arg7
abbrev aB2 (c : Dev nD) : S512.Idx → EReal := V c main_arg8

/-- The perceptron's output as a function of the arrays the region finds. -/
def Y (c : Dev nD) : S25000x512.Idx → EReal :=
  Cert.Gine.mlp (aH V c) (aW1 V c) (aB1 V c) (aW2 V c) (aB2 V c)

theorem blk_0 (c : Dev nD) (t : Fin cfg1.N) (a : Fin 1000) (k : Fin 512) :
    iblk1 V c 0 t (ix2 a k) = aH V c (ix2 (row t a) k) := by
  show V c main_v19 (((cfg1.win 0).blk t).view.emb (ix2 a k)) = _
  refine congrArg _ (funext fun b => Fin.ext ?_)
  obtain ⟨e0, e1, -⟩ := idx_facts t
  match b with
  | ⟨0, _⟩ => show win1_0.index t (0 : Fin 2) * 1000 + 1 * a.val = 1000 * t.val + a.val; omega
  | ⟨1, _⟩ => show win1_0.index t (1 : Fin 2) * 512 + 1 * k.val = k.val; omega

theorem blk_1 (c : Dev nD) (t : Fin cfg1.N) (j k : Fin 512) : iblk1 V c 1 t (ix2 j k) = aW1 V c (ix2 j k) := by
  show V c main_arg5 (((cfg1.win 1).blk t).view.emb (ix2 j k)) = _
  refine congrArg _ (funext fun b => Fin.ext ?_)
  obtain ⟨-, -, e0, e1, -⟩ := idx_facts t
  match b with
  | ⟨0, _⟩ => show win1_1.index t (0 : Fin 2) * 512 + 1 * j.val = j.val; omega
  | ⟨1, _⟩ => show win1_1.index t (1 : Fin 2) * 512 + 1 * k.val = k.val; omega

theorem blk_2 (c : Dev nD) (t : Fin cfg1.N) (k : Fin 512) : iblk1 V c 2 t (ix1 k) = aB1 V c (ix1 k) := by
  show V c main_arg6 (((cfg1.win 2).blk t).view.emb (ix1 k)) = _
  refine congrArg _ (funext fun b => Fin.ext ?_)
  obtain ⟨-, -, -, -, e0, -⟩ := idx_facts t
  match b with
  | ⟨0, _⟩ => show win1_2.index t (0 : Fin 1) * 512 + 1 * k.val = k.val; omega

theorem blk_3 (c : Dev nD) (t : Fin cfg1.N) (k d : Fin 512) : iblk1 V c 3 t (ix2 k d) = aW2 V c (ix2 k d) := by
  show V c main_arg7 (((cfg1.win 3).blk t).view.emb (ix2 k d)) = _
  refine congrArg _ (funext fun b => Fin.ext ?_)
  obtain ⟨-, -, -, -, -, e0, e1, -⟩ := idx_facts t
  match b with
  | ⟨0, _⟩ => show win1_3.index t (0 : Fin 2) * 512 + 1 * k.val = k.val; omega
  | ⟨1, _⟩ => show win1_3.index t (1 : Fin 2) * 512 + 1 * d.val = d.val; omega

theorem blk_4 (c : Dev nD) (t : Fin cfg1.N) (d : Fin 512) : iblk1 V c 4 t (ix1 d) = aB2 V c (ix1 d) := by
  show V c main_arg8 (((cfg1.win 4).blk t).view.emb (ix1 d)) = _
  refine congrArg _ (funext fun b => Fin.ext ?_)
  obtain ⟨-, -, -, -, -, -, -, e0, -⟩ := idx_facts t
  match b with
  | ⟨0, _⟩ => show win1_4.index t (0 : Fin 1) * 512 + 1 * d.val = d.val; omega

theorem emb_5 (t : Fin cfg1.N) (a : Fin 1000) (d : Fin 512) :
    ((cfg1.win 5).blk t).view.emb (ix2 a d) = (ix2 (row t a) d : S25000x512.Idx) := by
  refine funext fun b => Fin.ext ?_
  obtain ⟨-, -, -, -, -, -, -, -, e0, e1, -⟩ := idx_facts t
  match b with
  | ⟨0, _⟩ => show win1_5.index t (0 : Fin 2) * 1000 + 1 * a.val = 1000 * t.val + a.val; omega
  | ⟨1, _⟩ => show win1_5.index t (1 : Fin 2) * 512 + 1 * d.val = d.val; omega

theorem emb_6 (t : Fin cfg1.N) (u : Fin 2) (d : Fin 512) :
    ((cfg1.win 6).blk t).view.emb (ix2 u d) = (ix2 u d : S2x512.Idx) := by
  refine funext fun b => Fin.ext ?_
  obtain ⟨-, -, -, -, -, -, -, -, -, -, e0, e1, -⟩ := idx_facts t
  match b with
  | ⟨0, _⟩ => show win1_6.index t (0 : Fin 2) * 2 + 1 * u.val = u.val; omega
  | ⟨1, _⟩ => show win1_6.index t (1 : Fin 2) * 512 + 1 * d.val = d.val; omega

/-- The body's stored value at a block is the perceptron's output at the block's rows. -/
theorem pay3_blk (c : Dev nD) (t : Fin cfg1.N) (a : Fin 1000) (d : Fin 512) :
    k1_pay3 (F := Ideal) (iblk1 V c 0 t) (iblk1 V c 1 t) (iblk1 V c 2 t) (iblk1 V c 3 t) (iblk1 V c 4 t) (ix2 a d) = Y V c (ix2 (row t a) d) := by
  refine (k1_pay3_apply (iblk1 V c 0 t) (iblk1 V c 1 t) (iblk1 V c 2 t) (iblk1 V c 3 t) (iblk1 V c 4 t) a d).trans ?_
  show _ = (∑ k : Fin 512, max ((∑ j : Fin 512, aH V c (ix2 (row t a) j) * aW1 V c (ix2 j k)) + aB1 V c (ix1 k)) 0
    * aW2 V c (ix2 k d)) + aB2 V c (ix1 d)
  rw [blk_4 V c t d]
  refine congrArg (· + aB2 V c (ix1 d)) ?_
  refine Finset.sum_congr rfl fun k _ => ?_
  rw [blk_3 V c t k d, blk_2 V c t k]
  refine congrArg (fun s => max (s + aB1 V c (ix1 k)) 0 * aW2 V c (ix2 k d)) ?_
  exact Finset.sum_congr rfl fun j _ => by rw [blk_0 V c t a j, blk_1 V c t j k]

/-- At every point the first output's buffer holds the body's stored value. -/
theorem outs5 (c : Dev nD) (t : Fin cfg1.N) :
    (outsAt1 V c t.val t.isLt).1 = k1_pay3 (F := Ideal) (iblk1 V c 0 t) (iblk1 V c 1 t) (iblk1 V c 2 t) (iblk1 V c 3 t) (iblk1 V c 4 t) := by
  by_cases h0 : t.val % 25 = 0
  · have e1 := congrArg Prod.fst (outsAt1_A V c t h0)
    dsimp only at e1
    exact e1.trans (out_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t))
  · have e1 := congrArg Prod.fst (outsAt1_B V c t h0)
    dsimp only at e1
    exact e1.trans (out_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).2)

/-- What point t writes back to the first output is its 1000 rows of y. -/
theorem flushed5_eq (c : Dev nD) (t : Fin cfg1.N) :
    (dat1 V c).flushed 5 t = ((cfg1.win 5).blk t).view.read (Elt Ideal) (Y V c) := by
  show (cfg1.win 5).cut (grid1.coords t) ((dat1 V c).after 5 t) = _
  rw [after1_5, outs5 V c t]
  funext j
  obtain ⟨a, d, rfl⟩ : ∃ (a : Fin 1000) (d : Fin 512), j = ix2 a d := ⟨j 0, j 1, eq_ix2 j⟩
  show k1_pay3 (F := Ideal) (iblk1 V c 0 t) (iblk1 V c 1 t) (iblk1 V c 2 t) (iblk1 V c 3 t) (iblk1 V c 4 t) (ix2 a d) = Y V c (((cfg1.win 5).blk t).view.emb (ix2 a d))
  rw [emb_5 t a d]
  exact pay3_blk V c t a d

theorem mem_blk5 (t : Fin cfg1.N) (i : S25000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v20_0).slice (win1_5.rect t)).set ↔ _
  rw [View.set_slice_whole, Rect.mem_set_unit]
  exact Iff.rfl

theorem cover5 (i : S25000x512.Idx) : ∃ t : Fin cfg1.N, (cfg1.win 5).flush t = true ∧ i ∈ ((cfg1.win 5).blk t).view.set := by
  have hi0 : (i 0).val < 25000 := (i 0).isLt
  have hi1 : (i 1).val < 512 := (i 1).isLt
  have hN : cfg1.N = 25 := rfl
  let t : Fin cfg1.N := ⟨(i 0).val / 1000, by rw [hN]; omega⟩
  refine ⟨t, flush1_5 t, ?_⟩
  rw [mem_blk5]
  obtain ⟨-, -, -, -, -, -, -, -, e0, e1, -⟩ := idx_facts t
  have ht : t.val = (i 0).val / 1000 := rfl
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 512 ≤ (i 1).val ∧ (i 1).val < win1_5.index t (1 : Fin 2) * 512 + 512; omega

/-- The first output array after the region: the perceptron's output. -/
theorem final5 (c : Dev nD) : (dat1 V c).arrAt 5 cfg1.N = Y V c :=
  (dat1 V c).arrAt_eq_of_cover 5 (Y V c) (fun t _ => flushed5_eq V c t) cover5

/-! ## The statistics -/

/-- The column sum, and the column sum of squares, of block t at feature d. -/
def s0 (c : Dev nD) (d : Fin 512) : Fin 25 → EReal :=
  fun t => ∑ r : Fin 1000, Y V c (ix2 (⟨1000 * t.val + r.val, by omega⟩ : Fin 25000) d)
def s1 (c : Dev nD) (d : Fin 512) : Fin 25 → EReal :=
  fun t => ∑ r : Fin 1000, Y V c (ix2 (⟨1000 * t.val + r.val, by omega⟩ : Fin 25000) d)
    * Y V c (ix2 (⟨1000 * t.val + r.val, by omega⟩ : Fin 25000) d)

theorem hN25 : cfg1.N = 25 := rfl

/-- The accumulated contents depend on the point's number only, not on the proof that it is in range. -/
theorem outsAt1_congr (c : Dev nD) {k n : Nat} (hk : k < cfg1.N) (hn : n < cfg1.N) (e : k = n) :
    outsAt1 V c k hk = outsAt1 V c n hn := by
  subst e; rfl

/-- After point n the statistics buffer holds the first n + 1 block sums added up from zero. -/
theorem stats_inv (c : Dev nD) (d : Fin 512) : ∀ (n : Nat) (hn : n < cfg1.N),
    (outsAt1 V c n hn).2 (ix2 (0 : Fin 2) d) = Cert.Gine.accSum (s0 V c d) (n + 1) (by have := hN25; omega)
    ∧ (outsAt1 V c n hn).2 (ix2 (1 : Fin 2) d) = Cert.Gine.accSum (s1 V c d) (n + 1) (by have := hN25; omega)
  | 0, hn => by
    have e2 := congrArg Prod.snd (outsAt1_A V c ⟨0, hn⟩ (Nat.zero_mod 25))
    dsimp only at e2
    constructor
    · refine (congrFun e2 (ix2 (0 : Fin 2) d)).trans ?_
      refine (out_A_6_row0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod 25)) (iblk1 V c 0 ⟨0, hn⟩) (iblk1 V c 1 ⟨0, hn⟩) (iblk1 V c 2 ⟨0, hn⟩) (iblk1 V c 3 ⟨0, hn⟩) (iblk1 V c 4 ⟨0, hn⟩) d).trans ?_
      show _ = 0 + s0 V c d ⟨0, by omega⟩
      exact congrArg (0 + ·) (Finset.sum_congr rfl fun r _ => pay3_blk V c ⟨0, hn⟩ r d)
    · refine (congrFun e2 (ix2 (1 : Fin 2) d)).trans ?_
      refine (out_A_6_row1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod 25)) (iblk1 V c 0 ⟨0, hn⟩) (iblk1 V c 1 ⟨0, hn⟩) (iblk1 V c 2 ⟨0, hn⟩) (iblk1 V c 3 ⟨0, hn⟩) (iblk1 V c 4 ⟨0, hn⟩) d).trans ?_
      show _ = 0 + s1 V c d ⟨0, by omega⟩
      exact congrArg (0 + ·) (Finset.sum_congr rfl fun r _ => congrArg₂ (· * ·) (pay3_blk V c ⟨0, hn⟩ r d) (pay3_blk V c ⟨0, hn⟩ r d))
  | n + 1, hn => by
    have hlt : n + 1 < 25 := lt_of_lt_of_eq hn hN25
    have h0 : ¬ (n + 1) % 25 = 0 := by omega
    have hn' : n < cfg1.N := Nat.lt_of_succ_lt hn
    obtain ⟨ih0, ih1⟩ := stats_inv c d n hn'
    have e2 := congrArg Prod.snd (outsAt1_B V c ⟨n + 1, hn⟩ h0)
    dsimp only at e2
    have hprev : ∀ h, outsAt1 V c (n + 1 - 1) h = outsAt1 V c n hn' :=
      fun h => outsAt1_congr V c h hn' (Nat.add_sub_cancel n 1)
    rw [hprev] at e2
    generalize (outsAt1 V c n hn').2 = xo6 at e2 ih0 ih1
    constructor
    · refine (congrFun e2 (ix2 (0 : Fin 2) d)).trans ?_
      refine (out_B_6_row0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) xo6 d).trans ?_
      refine (congrArg (· + _) ih0).trans ?_
      show _ = Cert.Gine.accSum (s0 V c d) (n + 1) _ + s0 V c d ⟨n + 1, by omega⟩
      exact congrArg (_ + ·) (Finset.sum_congr rfl fun r _ => pay3_blk V c ⟨n + 1, hn⟩ r d)
    · refine (congrFun e2 (ix2 (1 : Fin 2) d)).trans ?_
      refine (out_B_6_row1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) xo6 d).trans ?_
      refine (congrArg (· + _) ih1).trans ?_
      show _ = Cert.Gine.accSum (s1 V c d) (n + 1) _ + s1 V c d ⟨n + 1, by omega⟩
      exact congrArg (_ + ·) (Finset.sum_congr rfl fun r _ => congrArg₂ (· * ·) (pay3_blk V c ⟨n + 1, hn⟩ r d) (pay3_blk V c ⟨n + 1, hn⟩ r d))

/-- The 25 block sums added up are the sum over all nodes. -/
theorem accSum_all (s : Fin 25 → EReal) (n : Nat) (h : n ≤ 25) (hn : n = 25) : Cert.Gine.accSum s n h = ∑ t : Fin 25, s t := by
  subst hn; exact Cert.Gine.fold_blocks s

/-- The statistics as a function of the arrays the region finds: row 0 the column sums of y, row 1 of y². -/
def Stats (c : Dev nD) : S2x512.Idx → EReal := fun i =>
  if (i 0).val = 0 then Cert.Gine.colSum (Y V c) ⟨(i 1).val, idx2_lt1 i⟩ else Cert.Gine.colSumSq (Y V c) ⟨(i 1).val, idx2_lt1 i⟩

theorem Stats_row0 (c : Dev nD) (d : Fin 512) : Stats V c (ix2 (0 : Fin 2) d) = Cert.Gine.colSum (Y V c) d := if_pos rfl
theorem Stats_row1 (c : Dev nD) (d : Fin 512) : Stats V c (ix2 (1 : Fin 2) d) = Cert.Gine.colSumSq (Y V c) d :=
  if_neg (show ¬ (1 : ℕ) = 0 from Nat.one_ne_zero)

/-- What the last point writes back to the statistics array. -/
theorem flushed6_eq (c : Dev nD) (t : Fin cfg1.N) (hf : (cfg1.win 6).flush t = true) :
    (dat1 V c).flushed 6 t = ((cfg1.win 6).blk t).view.read (Elt Ideal) (Stats V c) := by
  have ht : t.val = 24 := by have := (flush1_6 t).mp hf; have := lt25 t; omega
  show (cfg1.win 6).cut (grid1.coords t) ((dat1 V c).after 6 t) = _
  rw [after1_6]
  funext j
  obtain ⟨u, d, rfl⟩ : ∃ (u : Fin 2) (d : Fin 512), j = ix2 u d := ⟨j 0, j 1, eq_ix2 j⟩
  show (outsAt1 V c t.val t.isLt).2 (ix2 u d) = Stats V c (((cfg1.win 6).blk t).view.emb (ix2 u d))
  rw [emb_6 t u d]
  obtain ⟨h0, h1⟩ := stats_inv V c d t.val t.isLt
  match u with
  | ⟨0, _⟩ =>
    refine h0.trans ?_
    rw [accSum_all _ _ _ (by omega)]
    exact (Cert.Gine.sum_blocks (fun n => Y V c (ix2 n d))).trans (Stats_row0 V c d).symm
  | ⟨1, _⟩ =>
    refine h1.trans ?_
    rw [accSum_all _ _ _ (by omega)]
    exact (Cert.Gine.sum_blocks (fun n => Y V c (ix2 n d) * Y V c (ix2 n d))).trans (Stats_row1 V c d).symm

theorem mem_blk6 (t : Fin cfg1.N) (i : S2x512.Idx) :
    i ∈ ((cfg1.win 6).blk t).view.set ↔ ∀ a : Fin 2, win1_6.index t a * S2x512.size a ≤ (i a).val ∧ (i a).val < win1_6.index t a * S2x512.size a + S2x512.size a := by
  show i ∈ ((View.whole main_v20_1).slice (win1_6.rect t)).set ↔ _
  rw [View.set_slice_whole, Rect.mem_set_unit]
  exact Iff.rfl

theorem cover6 (i : S2x512.Idx) : ∃ t : Fin cfg1.N, (cfg1.win 6).flush t = true ∧ i ∈ ((cfg1.win 6).blk t).view.set := by
  have hi0 : (i 0).val < 2 := (i 0).isLt
  have hi1 : (i 1).val < 512 := (i 1).isLt
  let t : Fin cfg1.N := ⟨24, by rw [hN25]; omega⟩
  refine ⟨t, (flush1_6 t).mpr rfl, ?_⟩
  rw [mem_blk6]
  obtain ⟨-, -, -, -, -, -, -, -, -, -, e0, e1, -⟩ := idx_facts t
  intro a
  match a with
  | ⟨0, _⟩ => show win1_6.index t (0 : Fin 2) * 2 ≤ (i 0).val ∧ (i 0).val < win1_6.index t (0 : Fin 2) * 2 + 2; omega
  | ⟨1, _⟩ => show win1_6.index t (1 : Fin 2) * 512 ≤ (i 1).val ∧ (i 1).val < win1_6.index t (1 : Fin 2) * 512 + 512; omega

/-- The statistics array after the region. -/
theorem final6 (c : Dev nD) : (dat1 V c).arrAt 6 cfg1.N = Stats V c :=
  (dat1 V c).arrAt_eq_of_cover 6 (Stats V c) (fun t hf => flushed6_eq V c t hf) cover6

end Cert.KernelIdeal.K1

end
-- ==== Proof.K2.lean ====
/-
  The normalising kernel's output array.

  The grid has 25 points; point t handles the 1000 nodes 1000·t … 1000·t + 999: it reads those rows of the perceptron's
  output, the whole mean, variance, scale and shift vectors, and writes those rows of the result. So whatever the arrays
  hold when the region is entered, the output array ends holding, at every (n, d),
      ((y(n, d) − mean(d)) · rsqrt (var(d) + ε)) · γ(d) + β(d).
-/
import proofs.«137729_j60997125538475_2_alg».proof.Proof.Gen.KernelIdeal.Frame
import proofs.«137729_j60997125538475_2_alg».proof.Proof.KPay
import proofs.«137729_j60997125538475_2_alg».proof.Proof.Spec

set_option maxRecDepth 16384
set_option pp.maxSteps 5000
set_option pp.deepTerms false

noncomputable section

namespace Cert.KernelIdeal.K2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices of the six windows at point t: the node-row input and the output move with t along the rows, the
    four feature vectors stay. -/
theorem idx_facts : ∀ t : Fin cfg2.N,
    win2_0.index t (0 : Fin 2) = t.val ∧ win2_0.index t (1 : Fin 2) = 0
    ∧ win2_1.index t (0 : Fin 1) = 0 ∧ win2_2.index t (0 : Fin 1) = 0
    ∧ win2_3.index t (0 : Fin 1) = 0 ∧ win2_4.index t (0 : Fin 1) = 0
    ∧ win2_5.index t (0 : Fin 2) = t.val ∧ win2_5.index t (1 : Fin 2) = 0 ∧ t.val < 25 :=
  (by decide +kernel : ∀ t : Fin grid2.N, _)

/-- Node number 1000·t + a. -/
def row (t : Fin cfg2.N) (a : Fin 1000) : Fin 25000 :=
  ⟨1000 * t.val + a.val, by have := (idx_facts t).2.2.2.2.2.2.2.2; have := a.isLt; omega⟩

/-- The five arrays the region reads, as it finds them: perceptron output, mean, variance, scale, shift. -/
abbrev aY (c : Dev nD) : S25000x512.Idx → EReal := V c main_v20_0
abbrev aM (c : Dev nD) : S512.Idx → EReal := V c main_v24
abbrev aV (c : Dev nD) : S512.Idx → EReal := V c main_v30
abbrev aS (c : Dev nD) : S512.Idx → EReal := V c main_arg9
abbrev aT (c : Dev nD) : S512.Idx → EReal := V c main_arg10

/-- The normalised output as a function of the arrays the region finds. -/
def G (c : Dev nD) : S25000x512.Idx → EReal :=
  Cert.Gine.bnorm (aY V c) (fun d => aM V c (ix1 d)) (fun d => aV V c (ix1 d)) (aS V c) (aT V c)

theorem blk_0 (c : Dev nD) (t : Fin cfg2.N) (a : Fin 1000) (k : Fin 512) :
    iblk2 V c 0 t (ix2 a k) = aY V c (ix2 (row t a) k) := by
  show V c main_v20_0 (((cfg2.win 0).blk t).view.emb (ix2 a k)) = _
  refine congrArg _ (funext fun b => Fin.ext ?_)
  obtain ⟨e0, e1, -⟩ := idx_facts t
  match b with
  | ⟨0, _⟩ => show win2_0.index t (0 : Fin 2) * 1000 + 1 * a.val = 1000 * t.val + a.val; omega
  | ⟨1, _⟩ => show win2_0.index t (1 : Fin 2) * 512 + 1 * k.val = k.val; omega

theorem blk_1 (c : Dev nD) (t : Fin cfg2.N) (d : Fin 512) : iblk2 V c 1 t (ix1 d) = aM V c (ix1 d) := by
  show V c main_v24 (((cfg2.win 1).blk t).view.emb (ix1 d)) = _
  refine congrArg _ (funext fun b => Fin.ext ?_)
  obtain ⟨-, -, e0, -⟩ := idx_facts t
  match b with
  | ⟨0, _⟩ => show win2_1.index t (0 : Fin 1) * 512 + 1 * d.val = d.val; omega

theorem blk_2 (c : Dev nD) (t : Fin cfg2.N) (d : Fin 512) : iblk2 V c 2 t (ix1 d) = aV V c (ix1 d) := by
  show V c main_v30 (((cfg2.win 2).blk t).view.emb (ix1 d)) = _
  refine congrArg _ (funext fun b => Fin.ext ?_)
  obtain ⟨-, -, -, e0, -⟩ := idx_facts t
  match b with
  | ⟨0, _⟩ => show win2_2.index t (0 : Fin 1) * 512 + 1 * d.val = d.val; omega

theorem blk_3 (c : Dev nD) (t : Fin cfg2.N) (d : Fin 512) : iblk2 V c 3 t (ix1 d) = aS V c (ix1 d) := by
  show V c main_arg9 (((cfg2.win 3).blk t).view.emb (ix1 d)) = _
  refine congrArg _ (funext fun b => Fin.ext ?_)
  obtain ⟨-, -, -, -, e0, -⟩ := idx_facts t
  match b with
  | ⟨0, _⟩ => show win2_3.index t (0 : Fin 1) * 512 + 1 * d.val = d.val; omega

theorem blk_4 (c : Dev nD) (t : Fin cfg2.N) (d : Fin 512) : iblk2 V c 4 t (ix1 d) = aT V c (ix1 d) := by
  show V c main_arg10 (((cfg2.win 4).blk t).view.emb (ix1 d)) = _
  refine congrArg _ (funext fun b => Fin.ext ?_)
  obtain ⟨-, -, -, -, -, e0, -⟩ := idx_facts t
  match b with
  | ⟨0, _⟩ => show win2_4.index t (0 : Fin 1) * 512 + 1 * d.val = d.val; omega

theorem emb_5 (t : Fin cfg2.N) (a : Fin 1000) (d : Fin 512) :
    ((cfg2.win 5).blk t).view.emb (ix2 a d) = (ix2 (row t a) d : S25000x512.Idx) := by
  refine funext fun b => Fin.ext ?_
  obtain ⟨-, -, -, -, -, -, e0, e1, -⟩ := idx_facts t
  match b with
  | ⟨0, _⟩ => show win2_5.index t (0 : Fin 2) * 1000 + 1 * a.val = 1000 * t.val + a.val; omega
  | ⟨1, _⟩ => show win2_5.index t (1 : Fin 2) * 512 + 1 * d.val = d.val; omega

/-- What point t writes back is its 1000 rows of the normalised output. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S1000x512) hz2, View.ld_unit_zero (S := S512) hz1]
  funext j
  obtain ⟨a, d, rfl⟩ : ∃ (a : Fin 1000) (d : Fin 512), j = ix2 a d := ⟨j 0, j 1, eq_ix2 j⟩
  show k2_pay1 (F := Ideal) (iblk2 V c 0 t) (iblk2 V c 2 t) (iblk2 V c 1 t) (iblk2 V c 3 t) (iblk2 V c 4 t) (ix2 a d)
    = G V c (((cfg2.win 5).blk t).view.emb (ix2 a d))
  rw [emb_5 t a d]
  refine (k2_pay1_apply (iblk2 V c 0 t) (iblk2 V c 2 t) (iblk2 V c 1 t) (iblk2 V c 3 t) (iblk2 V c 4 t) a d).trans ?_
  show _ = (aY V c (ix2 (row t a) d) - aM V c (ix1 d)) * Ideal.rsqrt (aV V c (ix1 d) + Cert.Gine.eps) * aS V c (ix1 d)
    + aT V c (ix1 d)
  rw [blk_0 V c t a d, blk_1 V c t d, blk_2 V c t d, blk_3 V c t d, blk_4 V c t d]

theorem mem_blk (t : Fin cfg2.N) (i : S25000x512.Idx) :
    i ∈ ((cfg2.win 5).blk t).view.set ↔ ∀ a : Fin 2, win2_5.index t a * S1000x512.size a ≤ (i a).val ∧ (i a).val < win2_5.index t a * S1000x512.size a + S1000x512.size a := by
  show i ∈ ((View.whole main_v31).slice (win2_5.rect t)).set ↔ _
  rw [View.set_slice_whole, Rect.mem_set_unit]
  exact Iff.rfl

/-- Every node row lies in the block of point n / 1000. -/
theorem cover (i : S25000x512.Idx) : ∃ t : Fin cfg2.N, (cfg2.win 5).flush t = true ∧ i ∈ ((cfg2.win 5).blk t).view.set := by
  have hi0 : (i 0).val < 25000 := (i 0).isLt
  have hi1 : (i 1).val < 512 := (i 1).isLt
  have hN : cfg2.N = 25 := rfl
  let t : Fin cfg2.N := ⟨(i 0).val / 1000, by rw [hN]; omega⟩
  refine ⟨t, flush2_5 t, ?_⟩
  rw [mem_blk]
  obtain ⟨-, -, -, -, -, -, e0, e1, -⟩ := idx_facts t
  have ht : t.val = (i 0).val / 1000 := rfl
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 512 ≤ (i 1).val ∧ (i 1).val < win2_5.index t (1 : Fin 2) * 512 + 512; omega

/-- The output array after the region: the normalised output. -/
theorem final (c : Dev nD) : (dat2 V c).arrAt 5 cfg2.N = G V c :=
  (dat2 V c).arrAt_eq_of_cover 5 (G V c) (fun t _ => flushed_eq V c t) cover

end Cert.KernelIdeal.K2

end
-- ==== Proof.LibRowIndex.lean ====
import Idealize.ShloMosaic.PureOps.Ideal
import Idealize.ShloMosaic.Lib.ValueIdx

/-! # Which row a row gather reads and which row a row scatter-add writes

Index facts about the dimension numbers of "gather whole rows of an `[N, C]` array at run-time row numbers" and of
"add whole rows into an `[N, C]` array at run-time row numbers", stated over generic extents. -/

namespace Cert.Gcn

open Idealize.ShloMosaic Idealize.ShloMosaic.ValueIdx

variable {N E C w : Nat} {α : Type}

/-- The dimension numbers of a gather of whole rows of an `[N, C]` operand at start indices `[E, 1]`: result row `e` is
    the operand's row named by start index `e`. -/
abbrev rowGather2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of an `[N]` operand at start indices `[E, 1]`. -/
abbrev rowGather1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of whole rows `[E, C]` into an `[N, C]` operand at scatter indices `[E, 1]`:
    update row `e` goes to the operand row named by scatter index `e`. -/
abbrev rowScatter2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a start index selects: the word read as a signed integer, negatives to 0, clamped to `N - 1`. -/
def clampRow (N : Nat) (hN : 0 < N) {w : Nat} (v : BitVec w) : Fin N := ⟨min v.toInt.toNat (N - 1), by omega⟩

/-- A row gather read at `(e, c)`: the operand at row "start index `e`, read signed and clamped into `[0, N - 1]`" and
    column `c`. -/
theorem rowGather2_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGather2 N E C wf) x idx j
      = x (ix2 (clampRow N hN (idx (ix2 (⟨(j 0).val, idx2_lt0 j⟩ : Fin E) (0 : Fin 1))))
          (⟨(j 1).val, idx2_lt1 j⟩ : Fin C)) := by
  unfold Host.gather
  congr 1
  funext a
  match a with
  | ⟨0, _⟩ =>
    refine Fin.ext ?_
    show (rowGather2 N E C wf).start j idx 0 + (rowGather2 N E C wf).batchCoord j 0
      + (rowGather2 N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N E C wf).startIndexMap from List.mem_singleton.mpr rfl)]
    have hsi : (rowGather2 N E C wf).siIdx j ⟨List.idxOf (0 : Fin 2) (rowGather2 N E C wf).startIndexMap,
        List.idxOf_lt_length_iff.2 (List.mem_singleton.mpr rfl)⟩
        = ix2 (⟨(j 0).val, idx2_lt0 j⟩ : Fin E) (0 : Fin 1) := by
      funext b; refine Fin.ext ?_
      match b with
      | ⟨0, _⟩ => rfl
      | ⟨1, _⟩ => rfl
    rw [hsi]
    rfl
  | ⟨1, _⟩ =>
    refine Fin.ext ?_
    show (rowGather2 N E C wf).start j idx 1 + (rowGather2 N E C wf).batchCoord j 1
      + (rowGather2 N E C wf).offCoord j 1 = _
    rw [GatherDims.batchCoord_eq_zero _ _ _ List.not_mem_nil]
    unfold GatherDims.start
    rw [dif_neg (show (1 : Fin 2) ∉ (rowGather2 N E C wf).startIndexMap from
      fun h => absurd (List.mem_singleton.mp h) (show ¬ ((1 : Fin 2) = 0) by decide))]
    simp only [Nat.add_zero, Nat.zero_add]
    unfold GatherDims.offCoord
    rw [dif_pos (show (1 : Fin 2) ∈ (rowGather2 N E C wf).sKept from (GatherDims.mem_sKept _ _).mpr
      ⟨fun h => absurd (List.mem_singleton.mp h) (show ¬ ((1 : Fin 2) = 0) by decide), List.not_mem_nil⟩)]
    rfl

/-- Where a row scatter puts update `(e, c)`: when it lands inside the operand at `i`, scatter index `e`, read as a
    signed integer and not clamped, is the row `i 0`, and the column is kept. -/
theorem rowScatter2_resultIdx
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatter2 N E C wf).resultIdx? j idx = some i) :
    (idx (ix2 (⟨(j 0).val, idx2_lt0 j⟩ : Fin E) (0 : Fin 1))).toInt = ((i 0).val : Int) ∧ (j 1).val = (i 1).val := by
  have hstart0 : (rowScatter2 N E C wf).start j idx 0
      = (idx (ix2 (⟨(j 0).val, idx2_lt0 j⟩ : Fin E) (0 : Fin 1))).toInt := by
    unfold ScatterDims.start
    rw [dif_pos (show (0 : Fin 2) ∈ (rowScatter2 N E C wf).scatterDimsToOperandDims from List.mem_singleton.mpr rfl)]
    have hsi : (rowScatter2 N E C wf).siIdx j ⟨List.idxOf (0 : Fin 2) (rowScatter2 N E C wf).scatterDimsToOperandDims,
        List.idxOf_lt_length_iff.2 (List.mem_singleton.mpr rfl)⟩
        = ix2 (⟨(j 0).val, idx2_lt0 j⟩ : Fin E) (0 : Fin 1) := by
      funext b; refine Fin.ext ?_
      match b with
      | ⟨0, _⟩ => rfl
      | ⟨1, _⟩ => rfl
    rw [hsi]
  have hwin0 : (rowScatter2 N E C wf).window j 0 = 0 := by
    unfold ScatterDims.window
    rw [dif_neg (show (0 : Fin 2) ∉ (rowScatter2 N E C wf).sKept from
      (show (0 : Fin 2) ∉ (List.finRange 2).filter (fun a => a ∉ ([0] : List (Fin 2))) by decide))]
  have hstart1 : (rowScatter2 N E C wf).start j idx 1 = 0 := by
    unfold ScatterDims.start
    rw [dif_neg (show (1 : Fin 2) ∉ (rowScatter2 N E C wf).scatterDimsToOperandDims from
      fun h => absurd (List.mem_singleton.mp h) (show ¬ ((1 : Fin 2) = 0) by decide))]
  have hwin1 : (rowScatter2 N E C wf).window j 1 = (j 1).val := by
    unfold ScatterDims.window
    rw [dif_pos (show (1 : Fin 2) ∈ (rowScatter2 N E C wf).sKept from
      (show (1 : Fin 2) ∈ (List.finRange 2).filter (fun a => a ∉ ([0] : List (Fin 2))) by decide))]
    rfl
  unfold ScatterDims.resultIdx? at h
  split at h
  · rename_i hr
    have hi := Option.some.inj h
    have h0 := hr 0
    have h1 := hr 1
    rw [hstart0, hwin0] at h0
    rw [hstart1, hwin1] at h1
    constructor
    · have e0 : (((rowScatter2 N E C wf).start j idx 0 + ((rowScatter2 N E C wf).window j 0 : Nat)).toNat) = (i 0).val :=
        congrArg Fin.val (congrFun hi 0)
      rw [hstart0, hwin0] at e0
      omega
    · have e1 : (((rowScatter2 N E C wf).start j idx 1 + ((rowScatter2 N E C wf).window j 1 : Nat)).toNat) = (i 1).val :=
        congrArg Fin.val (congrFun hi 1)
      rw [hstart1, hwin1] at e1
      omega
  · exact absurd h (by simp)

/-- An entry gather read at `e`: the operand at "start index `e`, read signed and clamped into `[0, N - 1]`". -/
theorem rowGather1_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (rowGather1 N E wf) x idx e
      = x (ix1 (clampRow N hN (idx (ix2 (⟨(e 0).val, (e 0).isLt⟩ : Fin E) (0 : Fin 1))))) := by
  unfold Host.gather
  congr 1
  funext a
  obtain rfl : a = 0 := Subsingleton.elim _ _
  refine Fin.ext ?_
  show (rowGather1 N E wf).start e idx 0 + (rowGather1 N E wf).batchCoord e 0 + (rowGather1 N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N E wf).startIndexMap from List.mem_singleton.mpr rfl)]
  have hsi : (rowGather1 N E wf).siIdx e ⟨List.idxOf (0 : Fin 1) (rowGather1 N E wf).startIndexMap,
      List.idxOf_lt_length_iff.2 (List.mem_singleton.mpr rfl)⟩
      = ix2 (⟨(e 0).val, (e 0).isLt⟩ : Fin E) (0 : Fin 1) := by
    funext b; refine Fin.ext ?_
    match b with
    | ⟨0, _⟩ => rfl
    | ⟨1, _⟩ => rfl
  rw [hsi]
  rfl

/-- The wrap of a negative index, "`v + 50000` when `v < 0`, else `v`", leaves a word that reads as a row number
    `n < 50000` alone, and the clamp then selects row `n`. -/
theorem clampRow_normalized (v : BitVec 32) (n : Nat) (hn : n < 50000) (hv : v.toInt = (n : Int)) :
    clampRow 50000 (by decide) (Scalar.select (IntOp.cmpi .slt v 0#32) (IntOp.addi v 50000#32) v) = ⟨n, hn⟩ := by
  have hs : v.slt 0#32 = false := by
    apply Bool.eq_false_iff.mpr
    intro hlt
    have h1 : v.toInt < (0#32 : BitVec 32).toInt := BitVec.slt_iff_toInt_lt.mp hlt
    rw [hv, BitVec.toInt_zero] at h1
    omega
  have hc : IntOp.cmpi .slt v 0#32 = 0#1 := by
    show BitVec.ofBool (v.slt 0#32) = 0#1
    rw [hs]
    rfl
  rw [hc, select_zero]
  refine Fin.ext ?_
  show min v.toInt.toNat (50000 - 1) = n
  rw [hv]
  omega

end Cert.Gcn
-- ==== Proof.RowDims.lean ====
/-
  The dimension numbers both programs use for their row gather and their row scatter-add, as the generic records of
  whole-row gathers and scatters at the sizes of this layer: 25000 nodes, 400000 edges, 512 features. Their
  well-formedness is decided once here, so that every module names the same two records.
-/
import proofs.«137729_j60997125538475_2_alg».proof.Proof.Spec
import proofs.«137729_j60997125538475_2_alg».proof.Proof.LibRowIndex

namespace Cert.Gine

open Idealize.ShloMosaic

/-- The row gather's dimension numbers are well formed at these sizes. -/
theorem wfg : GatherDims.WF ⟨2, ![25000, 512]⟩ ⟨2, ![400000, 1]⟩ ⟨2, ![400000, 512]⟩ [1] [0] [] [0] [] 1 ![1, 512] := by decide

/-- The row scatter's dimension numbers are well formed at these sizes. -/
theorem wfs : ScatterDims.WF ⟨2, ![25000, 512]⟩ ⟨2, ![400000, 1]⟩ ⟨2, ![400000, 512]⟩ [1] [0] [0] 1 := by decide

/-- The gather of whole node rows at the edges' source numbers. -/
abbrev gd : GatherDims SN SI SE := Cert.Gcn.rowGather2 25000 400000 512 wfg

/-- The scatter-add of whole message rows at the edges' destination numbers. -/
abbrev sd : ScatterDims SN SI SE := Cert.Gcn.rowScatter2 25000 400000 512 wfs

end Cert.Gine
-- ==== Proof.KHost.lean ====
/-
  What the three stretches of host operations of the kernel program compute, for any buffer contents before the stretch:
  which buffers they leave alone, and what the buffers they write hold as functions of the contents before.

  Stretch 0 slices the two rows of the edge list, wraps a negative source-node number once by the number of nodes, and
  gathers the source rows of the node features.  Stretch 1 adds the messages into their destination rows of a zero array
  and adds 1 · x.  Stretch 2 divides the two rows of the statistics (column sums and column sums of squares) by the number
  of nodes and forms the mean and "mean of squares minus square of the mean".
-/
import proofs.«137729_j60997125538475_2_alg».proof.Proof.Gen.KernelIdeal.Launch
import proofs.«137729_j60997125538475_2_alg».proof.Proof.Spec
import proofs.«137729_j60997125538475_2_alg».proof.Proof.SpecLaws
import proofs.«137729_j60997125538475_2_alg».proof.Proof.LibRowIndex
import proofs.«137729_j60997125538475_2_alg».proof.Proof.RowDims
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KHost

open Cert.KernelIdeal Cert.KernelIdeal.Gen Cert.Gine Idealize.ShloMosaic Idealize.ShloMosaic.ValueIdx

variable (W : Valuation τ sig (Elt Ideal))

/-! ## Buffers a stretch does not write keep their contents -/

/-- No operation of the stretch writes the buffer: each operation's written buffer is another one. -/
local macro "not_written" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

theorem keep0_arg0 : StableHlo.after (hostOps0 (F := Ideal)) W (Proc.devRef .tc main_arg0) = W (Proc.devRef .tc main_arg0) := by
  not_written
theorem keep0_arg1 : StableHlo.after (hostOps0 (F := Ideal)) W (Proc.devRef .tc main_arg1) = W (Proc.devRef .tc main_arg1) := by
  not_written
theorem keep0_arg2 : StableHlo.after (hostOps0 (F := Ideal)) W (Proc.devRef .tc main_arg2) = W (Proc.devRef .tc main_arg2) := by
  not_written
theorem keep0_arg3 : StableHlo.after (hostOps0 (F := Ideal)) W (Proc.devRef .tc main_arg3) = W (Proc.devRef .tc main_arg3) := by
  not_written
theorem keep0_arg4 : StableHlo.after (hostOps0 (F := Ideal)) W (Proc.devRef .tc main_arg4) = W (Proc.devRef .tc main_arg4) := by
  not_written
theorem keep0_arg5 : StableHlo.after (hostOps0 (F := Ideal)) W (Proc.devRef .tc main_arg5) = W (Proc.devRef .tc main_arg5) := by
  not_written
theorem keep0_arg6 : StableHlo.after (hostOps0 (F := Ideal)) W (Proc.devRef .tc main_arg6) = W (Proc.devRef .tc main_arg6) := by
  not_written
theorem keep0_arg7 : StableHlo.after (hostOps0 (F := Ideal)) W (Proc.devRef .tc main_arg7) = W (Proc.devRef .tc main_arg7) := by
  not_written
theorem keep0_arg8 : StableHlo.after (hostOps0 (F := Ideal)) W (Proc.devRef .tc main_arg8) = W (Proc.devRef .tc main_arg8) := by
  not_written
theorem keep0_arg9 : StableHlo.after (hostOps0 (F := Ideal)) W (Proc.devRef .tc main_arg9) = W (Proc.devRef .tc main_arg9) := by
  not_written
theorem keep0_arg10 : StableHlo.after (hostOps0 (F := Ideal)) W (Proc.devRef .tc main_arg10) = W (Proc.devRef .tc main_arg10) := by
  not_written
theorem keep1_arg0 : StableHlo.after (hostOps1 (F := Ideal)) W (Proc.devRef .tc main_arg0) = W (Proc.devRef .tc main_arg0) := by
  not_written
theorem keep1_arg1 : StableHlo.after (hostOps1 (F := Ideal)) W (Proc.devRef .tc main_arg1) = W (Proc.devRef .tc main_arg1) := by
  not_written
theorem keep1_arg2 : StableHlo.after (hostOps1 (F := Ideal)) W (Proc.devRef .tc main_arg2) = W (Proc.devRef .tc main_arg2) := by
  not_written
theorem keep1_arg3 : StableHlo.after (hostOps1 (F := Ideal)) W (Proc.devRef .tc main_arg3) = W (Proc.devRef .tc main_arg3) := by
  not_written
theorem keep1_arg4 : StableHlo.after (hostOps1 (F := Ideal)) W (Proc.devRef .tc main_arg4) = W (Proc.devRef .tc main_arg4) := by
  not_written
theorem keep1_arg5 : StableHlo.after (hostOps1 (F := Ideal)) W (Proc.devRef .tc main_arg5) = W (Proc.devRef .tc main_arg5) := by
  not_written
theorem keep1_arg6 : StableHlo.after (hostOps1 (F := Ideal)) W (Proc.devRef .tc main_arg6) = W (Proc.devRef .tc main_arg6) := by
  not_written
theorem keep1_arg7 : StableHlo.after (hostOps1 (F := Ideal)) W (Proc.devRef .tc main_arg7) = W (Proc.devRef .tc main_arg7) := by
  not_written
theorem keep1_arg8 : StableHlo.after (hostOps1 (F := Ideal)) W (Proc.devRef .tc main_arg8) = W (Proc.devRef .tc main_arg8) := by
  not_written
theorem keep1_arg9 : StableHlo.after (hostOps1 (F := Ideal)) W (Proc.devRef .tc main_arg9) = W (Proc.devRef .tc main_arg9) := by
  not_written
theorem keep1_arg10 : StableHlo.after (hostOps1 (F := Ideal)) W (Proc.devRef .tc main_arg10) = W (Proc.devRef .tc main_arg10) := by
  not_written
theorem keep2_arg9 : StableHlo.after (hostOps2 (F := Ideal)) W (Proc.devRef .tc main_arg9) = W (Proc.devRef .tc main_arg9) := by
  not_written
theorem keep2_arg10 : StableHlo.after (hostOps2 (F := Ideal)) W (Proc.devRef .tc main_arg10) = W (Proc.devRef .tc main_arg10) := by
  not_written
theorem keep2_v20_0 : StableHlo.after (hostOps2 (F := Ideal)) W (Proc.devRef .tc main_v20_0) = W (Proc.devRef .tc main_v20_0) := by
  not_written

/-! ## Reading the layout operations at an index -/

/-- Row r of a two-axis array, cut out as a one-row slice and reshaped to a vector, read at an index. -/
theorem slice_row_apply {α : Type} {n0 n : Nat} (o : Nat) (X : (⟨2, ![n0, n]⟩ : Shape).Idx → α)
    (h1 : (⟨2, ![n0, n]⟩ : Shape).Slices ![o, 0] ⟨2, ![1, n]⟩) (h2 : (⟨2, ![1, n]⟩ : Shape).ShapeCasts ⟨1, ![n]⟩)
    (r : Fin n0) (hr : r.val = o) (i : (⟨1, ![n]⟩ : Shape).Idx) :
    shapeCast ⟨1, ![n]⟩ (extractStridedSlice ⟨2, ![1, n]⟩ ![o, 0] X h1) h2 i
      = X (ix2 r (⟨(i 0).val, (i 0).isLt⟩ : Fin n)) := by
  obtain ⟨a, rfl⟩ : ∃ a, i = ix1 a := ⟨i 0, eq_ix1 i⟩
  rw [shapeCast_1a_a_apply, slice2_axis0_apply o X h1 0 a r (by simp [hr])]
  rfl

/-- A vector broadcast to a one-column matrix, read at an index: the entry of the row. -/
theorem column_apply {α : Type} {n : Nat} (hn : n ≠ 1) (v : (⟨1, ![n]⟩ : Shape).Idx → α)
    (h : (⟨1, ![n]⟩ : Shape).BroadcastsInDim ⟨2, ![n, 1]⟩ ![0]) (j : (⟨2, ![n, 1]⟩ : Shape).Idx) :
    broadcastInDim ⟨2, ![n, 1]⟩ ![0] h v j = v (ix1 (⟨(j 0).val, idx2_lt0 j⟩ : Fin n)) :=
  broadcastInDim_apply ![0] h v j (ix1 (⟨(j 0).val, idx2_lt0 j⟩ : Fin n)) (fun a => by
    match a with
    | ⟨0, _⟩ => exact (if_neg hn).symm)

/-! ## Stretch 0: the destination numbers and the gathered source rows -/

/-- The printed gather record is the generic row gather. -/
theorem gather_eq : gather_S25000x512_S400000x1_S400000x512_1_0_n_n_0_1_1512 = Cert.Gine.gd := rfl

/-- The printed scatter record is the generic row scatter. -/
theorem scatter_eq : scatter_S25000x512_S400000x1_S400000x512_1_0_0_1 = Cert.Gine.sd := rfl

/-- The destination numbers: row 1 of the edge list. -/
theorem host0_v3 :
    (StableHlo.after (hostOps0 (F := Ideal)) W (Proc.devRef .tc main_v3) : (⟨1, ![400000]⟩ : Shape).Idx → BitVec 32)
      = fun i => (W (Proc.devRef .tc main_arg1) : IVec SEI 32) (ix2 (1 : Fin 2) (⟨(i 0).val, (i 0).isLt⟩ : Fin 400000)) := by
  have e : (StableHlo.after (hostOps0 (F := Ideal)) W (Proc.devRef .tc main_v3) : S400000.Idx → BitVec 32)
      = shapeCast S400000 (extractStridedSlice S1x400000 ![1, 0] (W (Proc.devRef .tc main_arg1))
          slices_S2x400000_S1x400000_1_0) shapeCasts_S1x400000_S400000 := by
    dsimp only [hostOps0]; after_results; rfl
  rw [e]
  funext i
  exact slice_row_apply 1 _ _ _ 1 rfl i

/-- The source column: row 0 of the edge list, a negative number wrapped once by the number of nodes, as a column. -/
theorem srcCol_eq (a1 : IVec SEI 32) :
    broadcastInDim S400000x1 ![0] bcast_S400000_S400000x1_0
        (select
          (cmpi .slt
            (shapeCast S400000 (extractStridedSlice S1x400000 ![0, 0] a1 slices_S2x400000_S1x400000_0_0)
              shapeCasts_S1x400000_S400000)
            (broadcastInDim S400000 ![] bcast_S_S400000 (constantI S_ 32 0#32)))
          (addi
            (shapeCast S400000 (extractStridedSlice S1x400000 ![0, 0] a1 slices_S2x400000_S1x400000_0_0)
              shapeCasts_S1x400000_S400000)
            (broadcastInDim S400000 ![] bcast_S_S400000 (constantI S_ 32 25000#32)))
          (shapeCast S400000 (extractStridedSlice S1x400000 ![0, 0] a1 slices_S2x400000_S1x400000_0_0)
            shapeCasts_S1x400000_S400000))
      = srcIdx a1 := by
  funext j
  rw [column_apply (by decide)]
  show Scalar.select (IntOp.cmpi .slt (shapeCast S400000 _ _ _) 0#32) (IntOp.addi (shapeCast S400000 _ _ _) 25000#32)
    (shapeCast S400000 _ _ _) = _
  rw [slice_row_apply 0 a1 _ _ 0 rfl]
  rfl

/-- The gathered source rows. -/
theorem host0_v11 :
    (StableHlo.after (hostOps0 (F := Ideal)) W (Proc.devRef .tc main_v11) : SE.Idx → EReal)
      = Host.gather Cert.Gine.gd (W (Proc.devRef .tc main_arg0) : SN.Idx → EReal) (srcIdx (W (Proc.devRef .tc main_arg1))) := by
  have e : (StableHlo.after (hostOps0 (F := Ideal)) W (Proc.devRef .tc main_v11) : S400000x512.Idx → EReal)
      = truncf (F := Ideal) (φ := .f32) .bf16 (Host.gather gather_S25000x512_S400000x1_S400000x512_1_0_n_n_0_1_1512
          (W (Proc.devRef .tc main_arg0) : S25000x512.Idx → EReal)
          (broadcastInDim S400000x1 ![0] bcast_S400000_S400000x1_0
            (select
              (cmpi .slt
                (shapeCast S400000 (extractStridedSlice S1x400000 ![0, 0] (W (Proc.devRef .tc main_arg1))
                  slices_S2x400000_S1x400000_0_0) shapeCasts_S1x400000_S400000)
                (broadcastInDim S400000 ![] bcast_S_S400000 (constantI S_ 32 0#32)))
              (addi
                (shapeCast S400000 (extractStridedSlice S1x400000 ![0, 0] (W (Proc.devRef .tc main_arg1))
                  slices_S2x400000_S1x400000_0_0) shapeCasts_S1x400000_S400000)
                (broadcastInDim S400000 ![] bcast_S_S400000 (constantI S_ 32 25000#32)))
              (shapeCast S400000 (extractStridedSlice S1x400000 ![0, 0] (W (Proc.devRef .tc main_arg1))
                slices_S2x400000_S1x400000_0_0) shapeCasts_S1x400000_S400000))))
          bitsLt_bf16_f32 := by
    dsimp only [hostOps0]; after_results; rfl
  rw [e, srcCol_eq, gather_eq]
  rfl

/-! ## Stretch 1: 1 · x plus the messages added into their destination rows -/

/-- What stretch 1 leaves in its last buffer, as the operations' term. -/
theorem host1_v19_raw :
    (StableHlo.after (hostOps1 (F := Ideal)) W (Proc.devRef .tc main_v19) : S25000x512.Idx → EReal)
      = truncf (F := Ideal) (φ := .f32) .bf16
          (addf
            (mulf (broadcastInDim S25000x512 ![] bcast_S_S25000x512 (constant (F := Ideal) S_ .f32 0x3F800000#32))
              (W (Proc.devRef .tc main_arg0) : S25000x512.Idx → EReal))
            (Host.scatterAdd scatter_S25000x512_S400000x1_S400000x512_1_0_0_1
              (broadcastInDim S25000x512 ![] bcast_S_S25000x512 (constant (F := Ideal) S_ .f32 0x00000000#32))
              (broadcastInDim S400000x1 ![0] bcast_S400000_S400000x1_0
                (W (Proc.devRef .tc main_v3) : S400000.Idx → BitVec 32))
              (W (Proc.devRef .tc main_v12) : S400000x512.Idx → EReal)))
          bitsLt_bf16_f32 := by
  dsimp only [hostOps1]; after_results

/-- The operations of stretch 1 on arbitrary operands, read at an index. -/
theorem stretch1_apply (x : S25000x512.Idx → EReal) (v3 : S400000.Idx → BitVec 32) (upd : S400000x512.Idx → EReal)
    (i : S25000x512.Idx) :
    truncf (F := Ideal) (φ := .f32) .bf16
        (addf
          (mulf (broadcastInDim S25000x512 ![] bcast_S_S25000x512 (constant (F := Ideal) S_ .f32 0x3F800000#32)) x)
          (Host.scatterAdd scatter_S25000x512_S400000x1_S400000x512_1_0_0_1
            (broadcastInDim S25000x512 ![] bcast_S_S25000x512 (constant (F := Ideal) S_ .f32 0x00000000#32))
            (broadcastInDim S400000x1 ![0] bcast_S400000_S400000x1_0 v3) upd))
        bitsLt_bf16_f32 i
      = one * x i
        + Ideal.hostScatterAdd Cert.Gine.sd (fun _ => zero)
            (fun j => v3 (ix1 (⟨(j 0).val, idx2_lt0 j⟩ : Fin 400000))) upd i := by
  have hcol : broadcastInDim S400000x1 ![0] bcast_S400000_S400000x1_0 v3
      = fun j => v3 (ix1 (⟨(j 0).val, idx2_lt0 j⟩ : Fin 400000)) :=
    funext fun j => column_apply (by decide) _ _ j
  have hz : broadcastInDim S25000x512 ![] bcast_S_S25000x512 (constant (F := Ideal) S_ .f32 0x00000000#32)
      = fun _ => zero := rfl
  have ho : broadcastInDim S25000x512 ![] bcast_S_S25000x512 (constant (F := Ideal) S_ .f32 0x3F800000#32) i = one := rfl
  rw [truncf_apply, addf_apply, mulf_apply, hcol, hz, ho, scatter_eq]
  unfold Host.scatterAdd
  rw [Ideal.hostScatterAdd_def]

/-- The node array entering the perceptron, from the destination numbers and the messages as the stretch finds them. -/
theorem host1_v19 :
    (StableHlo.after (hostOps1 (F := Ideal)) W (Proc.devRef .tc main_v19) : SN.Idx → EReal)
      = fun i => one * (W (Proc.devRef .tc main_arg0) : SN.Idx → EReal) i
          + Ideal.hostScatterAdd Cert.Gine.sd (fun _ => zero)
              (fun j => (W (Proc.devRef .tc main_v3) : (⟨1, ![400000]⟩ : Shape).Idx → BitVec 32)
                (ix1 (⟨(j 0).val, idx2_lt0 j⟩ : Fin 400000)))
              (W (Proc.devRef .tc main_v12) : SE.Idx → EReal) i :=
  funext fun i => (congrFun (host1_v19_raw W) i).trans (stretch1_apply _ _ _ i)

/-- The same with the destination numbers read off an edge list and the messages given as the specification's. -/
theorem host1_node (a1 : IVec SEI 32) (g ea : SE.Idx → EReal) (We : SW.Idx → EReal) (be : SD.Idx → EReal)
    (h3 : (W (Proc.devRef .tc main_v3) : (⟨1, ![400000]⟩ : Shape).Idx → BitVec 32)
      = fun i => a1 (ix2 (1 : Fin 2) (⟨(i 0).val, (i 0).isLt⟩ : Fin 400000)))
    (h12 : (W (Proc.devRef .tc main_v12) : SE.Idx → EReal) = msg g ea We be) :
    (StableHlo.after (hostOps1 (F := Ideal)) W (Proc.devRef .tc main_v19) : SN.Idx → EReal)
      = fun i => one * (W (Proc.devRef .tc main_arg0) : SN.Idx → EReal) i
          + Ideal.hostScatterAdd Cert.Gine.sd (fun _ => zero) (dstIdx a1) (msg g ea We be) i := by
  have hd : (fun j : SI.Idx => (W (Proc.devRef .tc main_v3) : (⟨1, ![400000]⟩ : Shape).Idx → BitVec 32)
      (ix1 (⟨(j 0).val, idx2_lt0 j⟩ : Fin 400000))) = dstIdx a1 := by
    rw [h3]; rfl
  rw [host1_v19, hd, h12]

/-- With the messages built from the gathered source rows, the stretch leaves the specification's node array. -/
theorem host1_node' (a1 : IVec SEI 32) (ea : SE.Idx → EReal) (We : SW.Idx → EReal) (be : SD.Idx → EReal)
    (h3 : (W (Proc.devRef .tc main_v3) : (⟨1, ![400000]⟩ : Shape).Idx → BitVec 32)
      = fun i => a1 (ix2 (1 : Fin 2) (⟨(i 0).val, (i 0).isLt⟩ : Fin 400000)))
    (h12 : (W (Proc.devRef .tc main_v12) : SE.Idx → EReal)
      = msg (Host.gather Cert.Gine.gd (W (Proc.devRef .tc main_arg0) : SN.Idx → EReal) (srcIdx a1)) ea We be) :
    (StableHlo.after (hostOps1 (F := Ideal)) W (Proc.devRef .tc main_v19) : SN.Idx → EReal)
      = node Cert.Gine.gd Cert.Gine.sd (W (Proc.devRef .tc main_arg0) : SN.Idx → EReal) a1 ea We be :=
  host1_node W a1 _ ea We be h3 h12

/-! ## Stretch 2: the mean and the mean of squares minus the square of the mean -/

/-- The word of 25000.0 broadcast to a feature vector is the specification's count at every feature. -/
theorem cntVec_apply (i : S512.Idx) :
    broadcastInDim S512 ![] bcast_S_S512 (constant (F := Ideal) S_ .f32 0x46C35000#32) i = cnt := rfl

/-- The mean: row 0 of the statistics divided by the number of nodes. -/
theorem host2_v24 :
    (StableHlo.after (hostOps2 (F := Ideal)) W (Proc.devRef .tc main_v24) : SD.Idx → EReal)
      = ofFn1 fun d => Ideal.div
          ((W (Proc.devRef .tc main_v20_1) : (⟨2, ![2, 512]⟩ : Shape).Idx → EReal) (ix2 (0 : Fin 2) d)) cnt := by
  have e : (StableHlo.after (hostOps2 (F := Ideal)) W (Proc.devRef .tc main_v24) : S512.Idx → EReal)
      = Host.divf (F := Ideal) (φ := .f32)
          (shapeCast S512 (extractStridedSlice S1x512 ![0, 0]
            (W (Proc.devRef .tc main_v20_1) : S2x512.Idx → EReal) slices_S2x512_S1x512_0_0) shapeCasts_S1x512_S512)
          (broadcastInDim S512 ![] bcast_S_S512 (constant (F := Ideal) S_ .f32 0x46C35000#32)) := by
    dsimp only [hostOps2]; after_results; rfl
  rw [e]
  funext i
  show Ideal.div (shapeCast S512 _ _ i) cnt = _
  rw [slice_row_apply 0 _ _ _ 0 rfl]
  rfl

/-- The variance as the kernel forms it: row 1 of the statistics divided by the number of nodes, minus the mean squared. -/
theorem host2_v30 :
    (StableHlo.after (hostOps2 (F := Ideal)) W (Proc.devRef .tc main_v30) : SD.Idx → EReal)
      = ofFn1 fun d =>
          Ideal.div ((W (Proc.devRef .tc main_v20_1) : (⟨2, ![2, 512]⟩ : Shape).Idx → EReal) (ix2 (1 : Fin 2) d)) cnt
            - Ideal.div ((W (Proc.devRef .tc main_v20_1) : (⟨2, ![2, 512]⟩ : Shape).Idx → EReal) (ix2 (0 : Fin 2) d)) cnt
              * Ideal.div ((W (Proc.devRef .tc main_v20_1) : (⟨2, ![2, 512]⟩ : Shape).Idx → EReal) (ix2 (0 : Fin 2) d)) cnt := by
  have e : (StableHlo.after (hostOps2 (F := Ideal)) W (Proc.devRef .tc main_v30) : S512.Idx → EReal)
      = subf
          (Host.divf (F := Ideal) (φ := .f32)
            (shapeCast S512 (extractStridedSlice S1x512 ![1, 0]
              (W (Proc.devRef .tc main_v20_1) : S2x512.Idx → EReal) slices_S2x512_S1x512_1_0) shapeCasts_S1x512_S512)
            (broadcastInDim S512 ![] bcast_S_S512 (constant (F := Ideal) S_ .f32 0x46C35000#32)))
          (mulf
            (Host.divf (F := Ideal) (φ := .f32)
              (shapeCast S512 (extractStridedSlice S1x512 ![0, 0]
                (W (Proc.devRef .tc main_v20_1) : S2x512.Idx → EReal) slices_S2x512_S1x512_0_0) shapeCasts_S1x512_S512)
              (broadcastInDim S512 ![] bcast_S_S512 (constant (F := Ideal) S_ .f32 0x46C35000#32)))
            (Host.divf (F := Ideal) (φ := .f32)
              (shapeCast S512 (extractStridedSlice S1x512 ![0, 0]
                (W (Proc.devRef .tc main_v20_1) : S2x512.Idx → EReal) slices_S2x512_S1x512_0_0) shapeCasts_S1x512_S512)
              (broadcastInDim S512 ![] bcast_S_S512 (constant (F := Ideal) S_ .f32 0x46C35000#32)))) := by
    dsimp only [hostOps2]; after_results; rfl
  rw [e]
  funext i
  show Ideal.div (shapeCast S512 _ _ i) cnt - Ideal.div (shapeCast S512 _ _ i) cnt * Ideal.div (shapeCast S512 _ _ i) cnt = _
  rw [slice_row_apply 1 _ _ _ 1 rfl, slice_row_apply 0 _ _ _ 0 rfl]
  rfl

end Cert.KernelIdeal.KHost

end
-- ==== Proof.KValue.lean ====
/-
  The kernel program's result is the specification of its launch arrays.

  Following the program from the launch memory: the first host stretch gathers the source rows; the edge kernel turns
  them, the edge features and the edge weights into the messages; the second host stretch sums the messages into their
  destination rows and adds 1 · x, which gives the node array; the perceptron kernel turns it into y and into the column
  sums of y and of y²; the third host stretch divides these by the number of nodes and takes mean of squares minus square
  of the mean; the normalising kernel applies ((y − mean) · rsqrt (var + ε)) · γ + β. No array an argument sits in is
  written on the way, so each stage reads the launch contents of the arguments it uses.
-/
import proofs.«137729_j60997125538475_2_alg».proof.Proof.KRun
import proofs.«137729_j60997125538475_2_alg».proof.Proof.K0
import proofs.«137729_j60997125538475_2_alg».proof.Proof.K1
import proofs.«137729_j60997125538475_2_alg».proof.Proof.K2
import proofs.«137729_j60997125538475_2_alg».proof.Proof.KHost
import proofs.«137729_j60997125538475_2_alg».proof.Proof.RowDims
import proofs.«137729_j60997125538475_2_alg».proof.Proof.SpecLaws

set_option maxRecDepth 16384
set_option pp.maxSteps 20000
set_option pp.deepTerms false
set_option pp.proofs false

noncomputable section

namespace Cert.KernelIdeal.KValue

open Idealize.ShloMosaic Idealize.ShloMosaic.TcCoe Idealize.ShloMosaic.ValueIdx Idealize.SL.Sem
open Cert.KernelIdeal Cert.KernelIdeal.Gen Cert.Gine

variable (m : (ℓ : Loc nD τ sig) → Buf (Elt Ideal) ℓ) (ρ : Dev nD → PrngReg)

/-! ## Each argument array, read at every boundary, is as launched -/

theorem W1_arg0 (c : Dev nD) : W1 m ρ c (Proc.devRef .tc main_arg0) = m ((c : Thread nD τ).loc main_arg0) := KHost.keep0_arg0 (W0 m ρ c)
theorem W1_arg1 (c : Dev nD) : W1 m ρ c (Proc.devRef .tc main_arg1) = m ((c : Thread nD τ).loc main_arg1) := KHost.keep0_arg1 (W0 m ρ c)
theorem W1_arg2 (c : Dev nD) : W1 m ρ c (Proc.devRef .tc main_arg2) = m ((c : Thread nD τ).loc main_arg2) := KHost.keep0_arg2 (W0 m ρ c)
theorem W1_arg3 (c : Dev nD) : W1 m ρ c (Proc.devRef .tc main_arg3) = m ((c : Thread nD τ).loc main_arg3) := KHost.keep0_arg3 (W0 m ρ c)
theorem W1_arg4 (c : Dev nD) : W1 m ρ c (Proc.devRef .tc main_arg4) = m ((c : Thread nD τ).loc main_arg4) := KHost.keep0_arg4 (W0 m ρ c)
theorem W1_arg5 (c : Dev nD) : W1 m ρ c (Proc.devRef .tc main_arg5) = m ((c : Thread nD τ).loc main_arg5) := KHost.keep0_arg5 (W0 m ρ c)
theorem W1_arg6 (c : Dev nD) : W1 m ρ c (Proc.devRef .tc main_arg6) = m ((c : Thread nD τ).loc main_arg6) := KHost.keep0_arg6 (W0 m ρ c)
theorem W1_arg7 (c : Dev nD) : W1 m ρ c (Proc.devRef .tc main_arg7) = m ((c : Thread nD τ).loc main_arg7) := KHost.keep0_arg7 (W0 m ρ c)
theorem W1_arg8 (c : Dev nD) : W1 m ρ c (Proc.devRef .tc main_arg8) = m ((c : Thread nD τ).loc main_arg8) := KHost.keep0_arg8 (W0 m ρ c)
theorem W1_arg9 (c : Dev nD) : W1 m ρ c (Proc.devRef .tc main_arg9) = m ((c : Thread nD τ).loc main_arg9) := KHost.keep0_arg9 (W0 m ρ c)
theorem W1_arg10 (c : Dev nD) : W1 m ρ c (Proc.devRef .tc main_arg10) = m ((c : Thread nD τ).loc main_arg10) := KHost.keep0_arg10 (W0 m ρ c)
theorem W2_arg0 (c : Dev nD) : W2 m ρ c (Proc.devRef .tc main_arg0) = m ((c : Thread nD τ).loc main_arg0) :=
  (W2_of_ne m ρ c main_arg0 (by decide)).trans (W1_arg0 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W3_arg5 (c : Dev nD) : W3 m ρ c (Proc.devRef .tc main_arg5) = m ((c : Thread nD τ).loc main_arg5) :=
  (KHost.keep1_arg5 (W2 m ρ c)).trans (W2_arg5 m ρ c)
theorem W3_arg6 (c : Dev nD) : W3 m ρ c (Proc.devRef .tc main_arg6) = m ((c : Thread nD τ).loc main_arg6) :=
  (KHost.keep1_arg6 (W2 m ρ c)).trans (W2_arg6 m ρ c)
theorem W3_arg7 (c : Dev nD) : W3 m ρ c (Proc.devRef .tc main_arg7) = m ((c : Thread nD τ).loc main_arg7) :=
  (KHost.keep1_arg7 (W2 m ρ c)).trans (W2_arg7 m ρ c)
theorem W3_arg8 (c : Dev nD) : W3 m ρ c (Proc.devRef .tc main_arg8) = m ((c : Thread nD τ).loc main_arg8) :=
  (KHost.keep1_arg8 (W2 m ρ c)).trans (W2_arg8 m ρ c)
theorem W3_arg9 (c : Dev nD) : W3 m ρ c (Proc.devRef .tc main_arg9) = m ((c : Thread nD τ).loc main_arg9) :=
  (KHost.keep1_arg9 (W2 m ρ c)).trans (W2_arg9 m ρ c)
theorem W3_arg10 (c : Dev nD) : W3 m ρ c (Proc.devRef .tc main_arg10) = m ((c : Thread nD τ).loc main_arg10) :=
  (KHost.keep1_arg10 (W2 m ρ c)).trans (W2_arg10 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg9 (c : Dev nD) : W5 m ρ c (Proc.devRef .tc main_arg9) = m ((c : Thread nD τ).loc main_arg9) :=
  (KHost.keep2_arg9 (W4 m ρ c)).trans (W4_arg9 m ρ c)
theorem W5_arg10 (c : Dev nD) : W5 m ρ c (Proc.devRef .tc main_arg10) = m ((c : Thread nD τ).loc main_arg10) :=
  (KHost.keep2_arg10 (W4 m ρ c)).trans (W4_arg10 m ρ c)

/-! ## The launch arrays by name -/

abbrev x (c : Dev nD) : SN.Idx → EReal := m ((c : Thread nD τ).loc main_arg0)
abbrev e1 (c : Dev nD) : IVec SEI 32 := m ((c : Thread nD τ).loc main_arg1)
abbrev ea (c : Dev nD) : SE.Idx → EReal := m ((c : Thread nD τ).loc main_arg2)
abbrev We (c : Dev nD) : SW.Idx → EReal := m ((c : Thread nD τ).loc main_arg3)
abbrev be (c : Dev nD) : SD.Idx → EReal := m ((c : Thread nD τ).loc main_arg4)
abbrev W1m (c : Dev nD) : SW.Idx → EReal := m ((c : Thread nD τ).loc main_arg5)
abbrev b1 (c : Dev nD) : SD.Idx → EReal := m ((c : Thread nD τ).loc main_arg6)
abbrev W2m (c : Dev nD) : SW.Idx → EReal := m ((c : Thread nD τ).loc main_arg7)
abbrev b2 (c : Dev nD) : SD.Idx → EReal := m ((c : Thread nD τ).loc main_arg8)
abbrev gam (c : Dev nD) : SD.Idx → EReal := m ((c : Thread nD τ).loc main_arg9)
abbrev bet (c : Dev nD) : SD.Idx → EReal := m ((c : Thread nD τ).loc main_arg10)

/-- The node array and the perceptron's output of the launch arrays. -/
def hnode (c : Dev nD) : SN.Idx → EReal := node gd sd (x m c) (e1 m c) (ea m c) (We m c) (be m c)
def yout (c : Dev nD) : SN.Idx → EReal := mlp (hnode m c) (W1m m c) (b1 m c) (W2m m c) (b2 m c)

/-! ## The stages -/

/-- The gathered source rows the edge kernel is entered with. -/
theorem aG_eq (c : Dev nD) : K0.aG (V1 m ρ) c = Host.gather gd (x m c) (srcIdx (e1 m c)) :=
  KHost.host0_v11 (W0 m ρ c)

theorem aE_eq (c : Dev nD) : K0.aE (V1 m ρ) c = ea m c := W1_arg2 m ρ c
theorem aW_eq (c : Dev nD) : K0.aW (V1 m ρ) c = We m c := W1_arg3 m ρ c
theorem aB_eq (c : Dev nD) : K0.aB (V1 m ρ) c = be m c := W1_arg4 m ρ c

/-- The messages the edge kernel leaves. -/
theorem msgs (c : Dev nD) :
    (W2 m ρ c (Proc.devRef .tc main_v12) : SE.Idx → EReal) = msg (Host.gather gd (x m c) (srcIdx (e1 m c))) (ea m c) (We m c) (be m c) := by
  refine (W2_arr m ρ c 4).trans ?_
  refine (K0.final (V1 m ρ) c).trans ?_
  unfold K0.G
  rw [aG_eq m ρ c, aE_eq m ρ c, aW_eq m ρ c, aB_eq m ρ c]

/-- The destination numbers after the edge kernel: row 1 of the edge list. -/
theorem dsts (c : Dev nD) :
    (W2 m ρ c (Proc.devRef .tc main_v3) : (⟨1, ![400000]⟩ : Shape).Idx → BitVec 32)
      = fun i => e1 m c (ix2 (1 : Fin 2) (⟨(i 0).val, (i 0).isLt⟩ : Fin 400000)) :=
  (W2_of_ne m ρ c main_v3 (by decide)).trans (KHost.host0_v3 (W0 m ρ c))

/-- The node array the perceptron kernel is entered with. -/
theorem aH_eq (c : Dev nD) : K1.aH (V3 m ρ) c = hnode m c := by
  have h12 : (W2 m ρ c (Proc.devRef .tc main_v12) : SE.Idx → EReal)
      = msg (Host.gather gd (W2 m ρ c (Proc.devRef .tc main_arg0) : SN.Idx → EReal) (srcIdx (e1 m c))) (ea m c) (We m c) (be m c) := by
    rw [W2_arg0 m ρ c]; exact msgs m ρ c
  refine (KHost.host1_node' (W2 m ρ c) (e1 m c) (ea m c) (We m c) (be m c) (dsts m ρ c) h12).trans ?_
  rw [W2_arg0 m ρ c]
  rfl

theorem aW1_eq (c : Dev nD) : K1.aW1 (V3 m ρ) c = W1m m c := W3_arg5 m ρ c
theorem aB1_eq (c : Dev nD) : K1.aB1 (V3 m ρ) c = b1 m c := W3_arg6 m ρ c
theorem aW2_eq (c : Dev nD) : K1.aW2 (V3 m ρ) c = W2m m c := W3_arg7 m ρ c
theorem aB2_eq (c : Dev nD) : K1.aB2 (V3 m ρ) c = b2 m c := W3_arg8 m ρ c

/-- The perceptron's output as the kernel computes it is the specification's. -/
theorem Y_eq (c : Dev nD) : K1.Y (V3 m ρ) c = yout m c := by
  unfold K1.Y
  rw [aH_eq m ρ c, aW1_eq m ρ c, aB1_eq m ρ c, aW2_eq m ρ c, aB2_eq m ρ c]
  rfl

theorem ys (c : Dev nD) : (W4 m ρ c (Proc.devRef .tc main_v20_0) : SN.Idx → EReal) = yout m c :=
  (W4_arr m ρ c 5).trans ((K1.final5 (V3 m ρ) c).trans (Y_eq m ρ c))

theorem stats (c : Dev nD) : (W4 m ρ c (Proc.devRef .tc main_v20_1) : (⟨2, ![2, 512]⟩ : Shape).Idx → EReal) = K1.Stats (V3 m ρ) c :=
  (W4_arr m ρ c 6).trans (K1.final6 (V3 m ρ) c)

/-- What the normalising kernel is entered with: y, its mean, its variance as mean of squares minus square of the mean. -/
theorem aY_eq (c : Dev nD) : K2.aY (V5 m ρ) c = yout m c :=
  (KHost.keep2_v20_0 (W4 m ρ c)).trans (ys m ρ c)

theorem aM_eq (c : Dev nD) : K2.aM (V5 m ρ) c = ofFn1 (mean (yout m c)) := by
  refine (KHost.host2_v24 (W4 m ρ c)).trans ?_
  refine congrArg ofFn1 (funext fun d => ?_)
  rw [stats m ρ c, K1.Stats_row0, Y_eq m ρ c]
  rfl

theorem aV_eq (c : Dev nD) : K2.aV (V5 m ρ) c = ofFn1 (varSq (yout m c)) := by
  refine (KHost.host2_v30 (W4 m ρ c)).trans ?_
  refine congrArg ofFn1 (funext fun d => ?_)
  rw [stats m ρ c, K1.Stats_row0, K1.Stats_row1, Y_eq m ρ c]
  rfl

theorem aS_eq (c : Dev nD) : K2.aS (V5 m ρ) c = gam m c := W5_arg9 m ρ c
theorem aT_eq (c : Dev nD) : K2.aT (V5 m ρ) c = bet m c := W5_arg10 m ρ c

/-- The result array at the end of the run. -/
theorem value (c : Dev nD) :
    (W6 m ρ c (Proc.devRef .tc main_v31) : SN.Idx → EReal) = resultSq (yout m c) (gam m c) (bet m c) := by
  refine (W6_arr m ρ c 5).trans ?_
  refine (K2.final (V5 m ρ) c).trans ?_
  unfold K2.G
  rw [aY_eq m ρ c, aM_eq m ρ c, aV_eq m ρ c, aS_eq m ρ c, aT_eq m ρ c]
  rfl

end Cert.KernelIdeal.KValue

end
-- ==== Proof.RefRun.lean ====
/-
  The reference program's run, read back.

  The reference's @main is a straight line of host operations once its three calls (the two clippings at zero and
  the variance routine, which itself calls the guard's selection) are unfolded at their call sites over each call's
  own buffers. Run from any memory with zero counters it terminates, with the result buffer at the operations'
  composed term of the eleven argument arrays and the arguments unchanged. The composed term is stated as a chain
  of named stages: the index columns, the gathered rows, the edge linear layer, the messages, the scatter-add, the
  node array, the perceptron's hidden layer and output, the mean, the variance, the normalised result.
-/
import proofs.«137729_j60997125538475_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the three calls unfolded: each clipping is three (the scalar zero, its broadcast, the
    maximum), the variance routine nineteen of its own and the guard's three. -/
abbrev ops : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.binary main_arg2 main_arg3 main_v4 ((fun l r => Host.dotGeneral dot_S400000x512_S512x512_S400000x512_1_0_0_1_n_n none l r) : (⟨S400000x512, .f32⟩ : BufTy).Contents (Elt F) → (⟨S512x512, .f32⟩ : BufTy).Contents (Elt F) → (⟨S400000x512, .f32⟩ : BufTy).Contents (Elt F)),
    StableHlo.unary main_arg4 main_v5 (broadcastInDim S1x512 ![1] bcast_S512_S1x512_1 : (⟨S512, .f32⟩ : BufTy).Contents (Elt F) → (⟨S1x512, .f32⟩ : BufTy).Contents (Elt F)),
    StableHlo.unary main_v5 main_v6 (broadcastInDim S400000x512 ![0, 1] bcast_S1x512_S400000x512_0_1 : (⟨S1x512, .f32⟩ : BufTy).Contents (Elt F) → (⟨S400000x512, .f32⟩ : BufTy).Contents (Elt F)),
    StableHlo.binary main_v4 main_v6 main_v7 (addf : (⟨S400000x512, .f32⟩ : BufTy).Contents (Elt F) → (⟨S400000x512, .f32⟩ : BufTy).Contents (Elt F) → (⟨S400000x512, .f32⟩ : BufTy).Contents (Elt F)),
    StableHlo.nullary main_c (constantI S_ 32 0#32),
    StableHlo.unary main_c main_v8 (broadcastInDim S400000 ![] bcast_S_S400000 : (⟨S_, .i32⟩ : BufTy).Contents (Elt F) → (⟨S400000, .i32⟩ : BufTy).Contents (Elt F)),
    StableHlo.binary main_v1 main_v8 main_v9 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 25000#32),
    StableHlo.unary main_c_0 main_v10 (broadcastInDim S400000 ![] bcast_S_S400000 : (⟨S_, .i32⟩ : BufTy).Contents (Elt F) → (⟨S400000, .i32⟩ : BufTy).Contents (Elt F)),
    StableHlo.binary main_v1 main_v10 main_v11 (addi : (⟨S400000, .i32⟩ : BufTy).Contents (Elt F) → (⟨S400000, .i32⟩ : BufTy).Contents (Elt F) → (⟨S400000, .i32⟩ : BufTy).Contents (Elt F)),
    StableHlo.ternary main_v9 main_v11 main_v1 main_v12 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v12 main_v13 (broadcastInDim S400000x1 ![0] bcast_S400000_S400000x1_0 : (⟨S400000, .i32⟩ : BufTy).Contents (Elt F) → (⟨S400000x1, .i32⟩ : BufTy).Contents (Elt F)),
    StableHlo.binary main_arg0 main_v13 main_v14 ((fun x i => Host.gather gather_S25000x512_S400000x1_S400000x512_1_0_n_n_0_1_1512 x i) : (⟨S25000x512, .f32⟩ : BufTy).Contents (Elt F) → (⟨S400000x1, .i32⟩ : BufTy).Contents (Elt F) → (⟨S400000x512, .f32⟩ : BufTy).Contents (Elt F)),
    StableHlo.binary main_v14 main_v7 main_v15 (addf : (⟨S400000x512, .f32⟩ : BufTy).Contents (Elt F) → (⟨S400000x512, .f32⟩ : BufTy).Contents (Elt F) → (⟨S400000x512, .f32⟩ : BufTy).Contents (Elt F)),
    StableHlo.TRef.nullary main_call0.cst (constant S_ .f32 0x00000000#32),
    StableHlo.TRef.unary main_call0.cst main_call0.v0 (broadcastInDim S400000x512 ![] bcast_S_S400000x512),
    StableHlo.TRef.binary (.of main_v15) main_call0.v0 main_call0.v1 maximumf,
    StableHlo.nullary main_cst (constant S_ .f32 0x00000000#32),
    StableHlo.unary main_cst main_v17 (broadcastInDim S25000x512 ![] bcast_S_S25000x512 : (⟨S_, .f32⟩ : BufTy).Contents (Elt F) → (⟨S25000x512, .f32⟩ : BufTy).Contents (Elt F)),
    StableHlo.unary main_v3 main_v18 (broadcastInDim S400000x1 ![0] bcast_S400000_S400000x1_0 : (⟨S400000, .i32⟩ : BufTy).Contents (Elt F) → (⟨S400000x1, .i32⟩ : BufTy).Contents (Elt F)),
    StableHlo.ternary main_v17 main_v18 main_v16 main_v19 ((fun x i u => Host.scatterAdd scatter_S25000x512_S400000x1_S400000x512_1_0_0_1 x i u) : (⟨S25000x512, .f32⟩ : BufTy).Contents (Elt F) → (⟨S400000x1, .i32⟩ : BufTy).Contents (Elt F) → (⟨S400000x512, .f32⟩ : BufTy).Contents (Elt F) → (⟨S25000x512, .f32⟩ : BufTy).Contents (Elt F)),
    StableHlo.nullary main_cst_1 (constant S_ .f32 0x3F800000#32),
    StableHlo.unary main_cst_1 main_v20 (broadcastInDim S25000x512 ![] bcast_S_S25000x512 : (⟨S_, .f32⟩ : BufTy).Contents (Elt F) → (⟨S25000x512, .f32⟩ : BufTy).Contents (Elt F)),
    StableHlo.binary main_v20 main_arg0 main_v21 (mulf : (⟨S25000x512, .f32⟩ : BufTy).Contents (Elt F) → (⟨S25000x512, .f32⟩ : BufTy).Contents (Elt F) → (⟨S25000x512, .f32⟩ : BufTy).Contents (Elt F)),
    StableHlo.binary main_v21 main_v19 main_v22 (addf : (⟨S25000x512, .f32⟩ : BufTy).Contents (Elt F) → (⟨S25000x512, .f32⟩ : BufTy).Contents (Elt F) → (⟨S25000x512, .f32⟩ : BufTy).Contents (Elt F)),
    StableHlo.binary main_v22 main_arg5 main_v23 ((fun l r => Host.dotGeneral dot_S25000x512_S512x512_S25000x512_1_0_0_1_n_n none l r) : (⟨S25000x512, .f32⟩ : BufTy).Contents (Elt F) → (⟨S512x512, .f32⟩ : BufTy).Contents (Elt F) → (⟨S25000x512, .f32⟩ : BufTy).Contents (Elt F)),
    StableHlo.unary main_arg6 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S25000x512 ![0, 1] bcast_S1x512_S25000x512_0_1 : (⟨S1x512, .f32⟩ : BufTy).Contents (Elt F) → (⟨S25000x512, .f32⟩ : BufTy).Contents (Elt F)),
    StableHlo.binary main_v23 main_v25 main_v26 (addf : (⟨S25000x512, .f32⟩ : BufTy).Contents (Elt F) → (⟨S25000x512, .f32⟩ : BufTy).Contents (Elt F) → (⟨S25000x512, .f32⟩ : BufTy).Contents (Elt F)),
    StableHlo.TRef.nullary main_call1.cst (constant S_ .f32 0x00000000#32),
    StableHlo.TRef.unary main_call1.cst main_call1.v0 (broadcastInDim S25000x512 ![] bcast_S_S25000x512),
    StableHlo.TRef.binary (.of main_v26) main_call1.v0 main_call1.v1 maximumf,
    StableHlo.binary main_v27 main_arg7 main_v28 ((fun l r => Host.dotGeneral dot_S25000x512_S512x512_S25000x512_1_0_0_1_n_n none l r) : (⟨S25000x512, .f32⟩ : BufTy).Contents (Elt F) → (⟨S512x512, .f32⟩ : BufTy).Contents (Elt F) → (⟨S25000x512, .f32⟩ : BufTy).Contents (Elt F)),
    StableHlo.unary main_arg8 main_v29 (broadcastInDim S1x512 ![1] bcast_S512_S1x512_1 : (⟨S512, .f32⟩ : BufTy).Contents (Elt F) → (⟨S1x512, .f32⟩ : BufTy).Contents (Elt F)),
    StableHlo.unary main_v29 main_v30 (broadcastInDim S25000x512 ![0, 1] bcast_S1x512_S25000x512_0_1 : (⟨S1x512, .f32⟩ : BufTy).Contents (Elt F) → (⟨S25000x512, .f32⟩ : BufTy).Contents (Elt F)),
    StableHlo.binary main_v28 main_v30 main_v31 (addf : (⟨S25000x512, .f32⟩ : BufTy).Contents (Elt F) → (⟨S25000x512, .f32⟩ : BufTy).Contents (Elt F) → (⟨S25000x512, .f32⟩ : BufTy).Contents (Elt F)),
    StableHlo.nullary main_cst_2 (constant S_ .f32 0x00000000#32),
    StableHlo.binary main_v31 main_cst_2 main_v32 ((fun x v => Host.reduceAdd x v reducesTo_S25000x512_S512_d0 h_S_) : (⟨S25000x512, .f32⟩ : BufTy).Contents (Elt F) → (⟨S_, .f32⟩ : BufTy).Contents (Elt F) → (⟨S512, .f32⟩ : BufTy).Contents (Elt F)),
    StableHlo.nullary main_cst_3 (constant S_ .f32 0x46C35000#32),
    StableHlo.unary main_cst_3 main_v33 (broadcastInDim S512 ![] bcast_S_S512 : (⟨S_, .f32⟩ : BufTy).Contents (Elt F) → (⟨S512, .f32⟩ : BufTy).Contents (Elt F)),
    StableHlo.binary main_v32 main_v33 main_v34 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32),
    StableHlo.TRef.nullary main_call2.cst (constant S_ .f32 0x00000000#32),
    StableHlo.TRef.binary (.of main_v31) main_call2.cst main_call2.v0 (fun x v => Host.reduceAdd x v reducesTo_S25000x512_S512_d0 h_S_),
    StableHlo.TRef.unary main_call2.v0 main_call2.v1 (broadcastInDim S1x512 ![1] bcast_S512_S1x512_1),
    StableHlo.TRef.nullary main_call2.cst_0 (constant S_ .f32 0x46C35000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S25000x512 ![0, 1] bcast_S1x512_S25000x512_0_1),
    StableHlo.TRef.binary (.of main_v31) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x46C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S25000x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v34 main_v36 (broadcastInDim S1x512 ![1] bcast_S512_S1x512_1 : (⟨S512, .f32⟩ : BufTy).Contents (Elt F) → (⟨S1x512, .f32⟩ : BufTy).Contents (Elt F)),
    StableHlo.unary main_v36 main_v37 (broadcastInDim S25000x512 ![0, 1] bcast_S1x512_S25000x512_0_1 : (⟨S1x512, .f32⟩ : BufTy).Contents (Elt F) → (⟨S25000x512, .f32⟩ : BufTy).Contents (Elt F)),
    StableHlo.binary main_v31 main_v37 main_v38 (subf : (⟨S25000x512, .f32⟩ : BufTy).Contents (Elt F) → (⟨S25000x512, .f32⟩ : BufTy).Contents (Elt F) → (⟨S25000x512, .f32⟩ : BufTy).Contents (Elt F)),
    StableHlo.nullary main_cst_5 (constant S_ .f32 0x3727C5AC#32),
    StableHlo.unary main_cst_5 main_v39 (broadcastInDim S512 ![] bcast_S_S512 : (⟨S_, .f32⟩ : BufTy).Contents (Elt F) → (⟨S512, .f32⟩ : BufTy).Contents (Elt F)),
    StableHlo.binary main_v35 main_v39 main_v40 (addf : (⟨S512, .f32⟩ : BufTy).Contents (Elt F) → (⟨S512, .f32⟩ : BufTy).Contents (Elt F) → (⟨S512, .f32⟩ : BufTy).Contents (Elt F)),
    StableHlo.unary main_v40 main_v41 (Host.rsqrt : (⟨S512, .f32⟩ : BufTy).Contents (Elt F) → (⟨S512, .f32⟩ : BufTy).Contents (Elt F)),
    StableHlo.unary main_v41 main_v42 (broadcastInDim S1x512 ![1] bcast_S512_S1x512_1 : (⟨S512, .f32⟩ : BufTy).Contents (Elt F) → (⟨S1x512, .f32⟩ : BufTy).Contents (Elt F)),
    StableHlo.unary main_v42 main_v43 (broadcastInDim S25000x512 ![0, 1] bcast_S1x512_S25000x512_0_1 : (⟨S1x512, .f32⟩ : BufTy).Contents (Elt F) → (⟨S25000x512, .f32⟩ : BufTy).Contents (Elt F)),
    StableHlo.binary main_v38 main_v43 main_v44 (mulf : (⟨S25000x512, .f32⟩ : BufTy).Contents (Elt F) → (⟨S25000x512, .f32⟩ : BufTy).Contents (Elt F) → (⟨S25000x512, .f32⟩ : BufTy).Contents (Elt F)),
    StableHlo.unary main_arg9 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S25000x512 ![0, 1] bcast_S1x512_S25000x512_0_1 : (⟨S1x512, .f32⟩ : BufTy).Contents (Elt F) → (⟨S25000x512, .f32⟩ : BufTy).Contents (Elt F)),
    StableHlo.binary main_v44 main_v46 main_v47 (mulf : (⟨S25000x512, .f32⟩ : BufTy).Contents (Elt F) → (⟨S25000x512, .f32⟩ : BufTy).Contents (Elt F) → (⟨S25000x512, .f32⟩ : BufTy).Contents (Elt F)),
    StableHlo.unary main_arg10 main_v48 (broadcastInDim S1x512 ![1] bcast_S512_S1x512_1 : (⟨S512, .f32⟩ : BufTy).Contents (Elt F) → (⟨S1x512, .f32⟩ : BufTy).Contents (Elt F)),
    StableHlo.unary main_v48 main_v49 (broadcastInDim S25000x512 ![0, 1] bcast_S1x512_S25000x512_0_1 : (⟨S1x512, .f32⟩ : BufTy).Contents (Elt F) → (⟨S25000x512, .f32⟩ : BufTy).Contents (Elt F)),
    StableHlo.binary main_v47 main_v49 main_v50 (addf : (⟨S25000x512, .f32⟩ : BufTy).Contents (Elt F) → (⟨S25000x512, .f32⟩ : BufTy).Contents (Elt F) → (⟨S25000x512, .f32⟩ : BufTy).Contents (Elt F)) ]

set_option maxRecDepth 8192 in
/-- @main is that straight line: the functions' definitions unfold at their calls and the records at their fields, and
    sequencing after a call's last operation continues with the caller's next, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-! ## The composed term, stage by stage -/

/-- Row 0 of the edge list (the source-node numbers) as a vector of 400000 words. -/
def edgeRow0 (a1 : IVec S2x400000 32) : IVec S400000 32 :=
  shapeCast S400000 (extractStridedSlice S1x400000 ![0, 0] a1 slices_S2x400000_S1x400000_0_0) shapeCasts_S1x400000_S400000

/-- Row 1 of the edge list (the destination-node numbers) as a vector of 400000 words. -/
def edgeRow1 (a1 : IVec S2x400000 32) : IVec S400000 32 :=
  shapeCast S400000 (extractStridedSlice S1x400000 ![1, 0] a1 slices_S2x400000_S1x400000_1_0) shapeCasts_S1x400000_S400000

/-- The source-index column [400000, 1]: a negative source number wrapped once by the number of nodes. -/
def srcCol (a1 : IVec S2x400000 32) : IVec S400000x1 32 :=
  broadcastInDim S400000x1 ![0] bcast_S400000_S400000x1_0
    (select (cmpi .slt (edgeRow0 a1) (broadcastInDim S400000 ![] bcast_S_S400000 (constantI S_ 32 0#32)))
      (addi (edgeRow0 a1) (broadcastInDim S400000 ![] bcast_S_S400000 (constantI S_ 32 25000#32)))
      (edgeRow0 a1))

/-- The destination-index column [400000, 1]. -/
def dstCol (a1 : IVec S2x400000 32) : IVec S400000x1 32 :=
  broadcastInDim S400000x1 ![0] bcast_S400000_S400000x1_0 (edgeRow1 a1)

/-- The gathered rows: for each edge the feature row of its source node. -/
def gathered (x : FVec F S25000x512 .f32) (a1 : IVec S2x400000 32) : FVec F S400000x512 .f32 :=
  Host.gather gather_S25000x512_S400000x1_S400000x512_1_0_n_n_0_1_1512 x (srcCol a1)

/-- A feature vector repeated along the 400000 edges. -/
def rowsE (b : FVec F S512 .f32) : FVec F S400000x512 .f32 :=
  broadcastInDim S400000x512 ![0, 1] bcast_S1x512_S400000x512_0_1 (broadcastInDim S1x512 ![1] bcast_S512_S1x512_1 b)

/-- A feature vector repeated along the 25000 nodes. -/
def rowsN (b : FVec F S512 .f32) : FVec F S25000x512 .f32 :=
  broadcastInDim S25000x512 ![0, 1] bcast_S1x512_S25000x512_0_1 (broadcastInDim S1x512 ![1] bcast_S512_S1x512_1 b)

/-- The edge linear layer: the edge features times the weights, plus the bias. -/
def edgeLin (ea : FVec F S400000x512 .f32) (We : FVec F S512x512 .f32) (be : FVec F S512 .f32) : FVec F S400000x512 .f32 :=
  addf (Host.dotGeneral dot_S400000x512_S512x512_S400000x512_1_0_0_1_n_n none ea We) (rowsE be)

/-- The messages: gathered row plus edge linear layer, clipped below at zero. -/
def messages (x : FVec F S25000x512 .f32) (a1 : IVec S2x400000 32) (ea : FVec F S400000x512 .f32) (We : FVec F S512x512 .f32)
    (be : FVec F S512 .f32) : FVec F S400000x512 .f32 :=
  maximumf (addf (gathered x a1) (edgeLin ea We be))
    (broadcastInDim S400000x512 ![] bcast_S_S400000x512 (constant S_ .f32 0x00000000#32))

/-- The scatter-add: the messages summed into their destination rows, from zeros. -/
def scattered (x : FVec F S25000x512 .f32) (a1 : IVec S2x400000 32) (ea : FVec F S400000x512 .f32) (We : FVec F S512x512 .f32)
    (be : FVec F S512 .f32) : FVec F S25000x512 .f32 :=
  Host.scatterAdd scatter_S25000x512_S400000x1_S400000x512_1_0_0_1
    (broadcastInDim S25000x512 ![] bcast_S_S25000x512 (constant S_ .f32 0x00000000#32)) (dstCol a1) (messages x a1 ea We be)

/-- The node array entering the perceptron: one times the node features, plus the scattered messages. -/
def nodeArr (x : FVec F S25000x512 .f32) (a1 : IVec S2x400000 32) (ea : FVec F S400000x512 .f32) (We : FVec F S512x512 .f32)
    (be : FVec F S512 .f32) : FVec F S25000x512 .f32 :=
  addf (mulf (broadcastInDim S25000x512 ![] bcast_S_S25000x512 (constant S_ .f32 0x3F800000#32)) x) (scattered x a1 ea We be)

/-- A linear layer over the nodes: the array times the weights, plus the bias. -/
def linN (h : FVec F S25000x512 .f32) (W : FVec F S512x512 .f32) (b : FVec F S512 .f32) : FVec F S25000x512 .f32 :=
  addf (Host.dotGeneral dot_S25000x512_S512x512_S25000x512_1_0_0_1_n_n none h W) (rowsN b)

/-- The perceptron's hidden layer: the first linear layer clipped below at zero. -/
def hiddenArr (h : FVec F S25000x512 .f32) (W1 : FVec F S512x512 .f32) (b1 : FVec F S512 .f32) : FVec F S25000x512 .f32 :=
  maximumf (linN h W1 b1) (broadcastInDim S25000x512 ![] bcast_S_S25000x512 (constant S_ .f32 0x00000000#32))

/-- The perceptron's output. -/
def mlpOut (h : FVec F S25000x512 .f32) (W1 : FVec F S512x512 .f32) (b1 : FVec F S512 .f32) (W2 : FVec F S512x512 .f32)
    (b2 : FVec F S512 .f32) : FVec F S25000x512 .f32 :=
  linN (hiddenArr h W1 b1) W2 b2

/-- The sums over the nodes, per feature, from the zero word. -/
def colSums (y : FVec F S25000x512 .f32) : FVec F S512 .f32 :=
  Host.reduceAdd y (constant S_ .f32 0x00000000#32) reducesTo_S25000x512_S512_d0 h_S_

/-- The mean per feature: the sums divided by the number of nodes. -/
def meanVec (y : FVec F S25000x512 .f32) : FVec F S512 .f32 :=
  Host.divf (colSums y) (broadcastInDim S512 ![] bcast_S_S512 (constant S_ .f32 0x46C35000#32))

/-- The variance routine's own mean, kept as a row [1, 512]. -/
def meanRow (y : FVec F S25000x512 .f32) : FVec F S1x512 .f32 :=
  Host.divf (broadcastInDim S1x512 ![1] bcast_S512_S1x512_1 (colSums y))
    (broadcastInDim S1x512 ![] bcast_S_S1x512 (constant S_ .f32 0x46C35000#32))

/-- The deviations from the mean. -/
def devArr (y : FVec F S25000x512 .f32) : FVec F S25000x512 .f32 :=
  subf y (broadcastInDim S25000x512 ![0, 1] bcast_S1x512_S25000x512_0_1 (meanRow y))

/-- The variance routine's divisor: the number of nodes less the correction, here the integer zero converted. -/
def cntLess : FVec F S_ .f32 :=
  subf (constant S_ .f32 0x46C35000#32) (sitofp .f32 (constantI S_ 32 0#32))

/-- The variance per feature: the mean squared deviation where the divisor is positive, else the not-a-number word. -/
def varVec (y : FVec F S25000x512 .f32) : FVec F S512 .f32 :=
  select (broadcastInDim S512 ![] bcast_S_S512 (cmpf .ogt (cntLess (F := F)) (constant S_ .f32 0x00000000#32)))
    (Host.divf (Host.reduceAdd (mulf (devArr y) (devArr y)) (constant S_ .f32 0x00000000#32) reducesTo_S25000x512_S512_d0 h_S_)
      (broadcastInDim S512 ![] bcast_S_S512 (cntLess (F := F))))
    (broadcastInDim S512 ![] bcast_S_S512 (constant S_ .f32 0x7FC00000#32))

/-- The normalised result: deviation from the mean times the reciprocal root of variance plus stabiliser, scaled and shifted. -/
def result (y : FVec F S25000x512 .f32) (gamma beta : FVec F S512 .f32) : FVec F S25000x512 .f32 :=
  addf
    (mulf
      (mulf (subf y (rowsN (meanVec y)))
        (rowsN (Host.rsqrt (addf (varVec y) (broadcastInDim S512 ![] bcast_S_S512 (constant S_ .f32 0x3727C5AC#32))))))
      (rowsN gamma))
    (rowsN beta)

/-- The whole composed term of the eleven argument arrays. -/
def resOf (x : FVec F S25000x512 .f32) (a1 : IVec S2x400000 32) (ea : FVec F S400000x512 .f32) (We : FVec F S512x512 .f32)
    (be : FVec F S512 .f32) (W1 : FVec F S512x512 .f32) (b1 : FVec F S512 .f32) (W2 : FVec F S512x512 .f32) (b2 : FVec F S512 .f32)
    (gamma beta : FVec F S512 .f32) : FVec F S25000x512 .f32 :=
  result (mlpOut (nodeArr x a1 ea We be) W1 b1 W2 b2) gamma beta

/-- The result of the run from memory m on device c: the composed term of the launch contents of the arguments. -/
def res (m : (ℓ : Loc nD τ sig) → Buf (Elt F) ℓ) (c : Dev nD) : FVec F S25000x512 .f32 :=
  resOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-! ## The run -/

set_option maxRecDepth 16384 in
set_option maxHeartbeats 1600000 in
/-- The fold of the operations at the result buffer is the composed term of the valuation at the argument buffers. -/
theorem out_eq (V : Valuation τ sig (Elt F)) :
    after ops V (main_v50 : DevRef τ sig)
      = resOf (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp
theorem arg10_eq (V : Valuation τ sig (Elt F)) : after ops V (main_arg10 : DevRef τ sig) = V (main_arg10 : DevRef τ sig) := by
  after_results_simp

/-- On every device, for any float values, from any memory with zero counters: every weakly fair execution of @main
    terminates with the result buffer at the composed term of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v50) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v50).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.RefRun

end
-- ==== Proof.RefRead.lean ====
/-
  The reference's composed term is the specification.

  Stage by stage, index by index: the index columns are the specification's source and destination numbers; the
  gather and the scatter-add use the generic row records; a linear layer read at (row, feature) is the sum over the
  contracted feature plus the bias; clipping is the maximum with zero; the sums over the nodes are finite sums; the
  variance routine's guard is decided (its divisor is the number of nodes, which is positive), leaving the mean squared
  deviation; the result is the normalised output.
-/
import proofs.«137729_j60997125538475_2_alg».proof.Proof.RefRun
import proofs.«137729_j60997125538475_2_alg».proof.Proof.Spec
import proofs.«137729_j60997125538475_2_alg».proof.Proof.LibRowIndex
import proofs.«137729_j60997125538475_2_alg».proof.Proof.RowDims
import proofs.«137729_j60997125538475_2_alg».proof.Proof.SpecLaws
import Idealize.ShloMosaic.Lib.ValueLayout
import Idealize.ShloMosaic.Lib.StackMember
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx

open Idealize.ShloMosaic.TcCoe Idealize.SL.Sem

/-! ## The index columns -/

theorem edgeRow0_apply (a1 : IVec S2x400000 32) (e : Fin 400000) : edgeRow0 a1 (ix1 e) = a1 (ix2 (0 : Fin 2) e) := by
  unfold edgeRow0
  rw [shapeCast_1a_a_apply]
  exact slice2_axis0_apply 0 a1 _ (0 : Fin 1) e (0 : Fin 2) rfl

theorem edgeRow1_apply (a1 : IVec S2x400000 32) (e : Fin 400000) : edgeRow1 a1 (ix1 e) = a1 (ix2 (1 : Fin 2) e) := by
  unfold edgeRow1
  rw [shapeCast_1a_a_apply]
  exact slice2_axis0_apply 1 a1 _ (0 : Fin 1) e (1 : Fin 2) rfl

/-- The source-index column is the specification's. -/
theorem srcCol_eq (a1 : IVec S2x400000 32) : srcCol a1 = Cert.Gine.srcIdx a1 := by
  funext i
  obtain ⟨e, u, rfl⟩ : ∃ (e : Fin 400000) (u : Fin 1), i = ix2 e u := ⟨i 0, i 1, eq_ix2 i⟩
  unfold srcCol
  refine (broadcastInDim_apply _ _ _ (ix2 e u) (ix1 e) ?_).trans ?_
  · intro a
    match a with
    | ⟨0, _⟩ => rfl
  · show Scalar.select (IntOp.cmpi .slt (edgeRow0 a1 (ix1 e)) 0#32) (IntOp.addi (edgeRow0 a1 (ix1 e)) 25000#32)
        (edgeRow0 a1 (ix1 e)) = _
    rw [edgeRow0_apply]
    rfl

/-- The destination-index column is the specification's. -/
theorem dstCol_eq (a1 : IVec S2x400000 32) : dstCol a1 = Cert.Gine.dstIdx a1 := by
  funext i
  obtain ⟨e, u, rfl⟩ : ∃ (e : Fin 400000) (u : Fin 1), i = ix2 e u := ⟨i 0, i 1, eq_ix2 i⟩
  unfold dstCol
  refine (broadcastInDim_apply _ _ _ (ix2 e u) (ix1 e) ?_).trans ?_
  · intro a
    match a with
    | ⟨0, _⟩ => rfl
  · rw [edgeRow1_apply]
    rfl

/-! ## The printed records are the generic ones -/

theorem gather_eq : gather_S25000x512_S400000x1_S400000x512_1_0_n_n_0_1_1512 = Cert.Gine.gd := rfl

theorem scatter_eq : scatter_S25000x512_S400000x1_S400000x512_1_0_0_1 = Cert.Gine.sd := rfl

theorem dotE_eq : dot_S400000x512_S512x512_S400000x512_1_0_0_1_n_n = DotDims.plain 400000 512 512 := rfl

theorem dotN_eq : dot_S25000x512_S512x512_S25000x512_1_0_0_1_n_n = DotDims.plain 25000 512 512 := rfl

/-! ## A feature vector repeated along the rows, read at an index -/

theorem rowsE_apply (b : FVec Ideal S512 .f32) (e : Fin 400000) (d : Fin 512) : rowsE b (ix2 e d) = b (ix1 d) := by
  unfold rowsE
  refine (broadcastInDim_apply _ _ _ (ix2 e d) (ix2 (0 : Fin 1) d) ?_).trans
    (broadcastInDim_apply _ _ _ (ix2 (0 : Fin 1) d) (ix1 d) ?_)
  · intro a
    match a with
    | ⟨0, _⟩ => rfl
    | ⟨1, _⟩ => rfl
  · intro a
    match a with
    | ⟨0, _⟩ => rfl

theorem rowsN_apply (b : FVec Ideal S512 .f32) (n : Fin 25000) (d : Fin 512) : rowsN b (ix2 n d) = b (ix1 d) := by
  unfold rowsN
  refine (broadcastInDim_apply _ _ _ (ix2 n d) (ix2 (0 : Fin 1) d) ?_).trans
    (broadcastInDim_apply _ _ _ (ix2 (0 : Fin 1) d) (ix1 d) ?_)
  · intro a
    match a with
    | ⟨0, _⟩ => rfl
    | ⟨1, _⟩ => rfl
  · intro a
    match a with
    | ⟨0, _⟩ => rfl

/-! ## The linear layers -/

theorem edgeLin_apply (ea : FVec Ideal S400000x512 .f32) (We : FVec Ideal S512x512 .f32) (be : FVec Ideal S512 .f32)
    (e : Fin 400000) (d : Fin 512) : edgeLin ea We be (ix2 e d) = Cert.Gine.lin ea We be e d := by
  unfold edgeLin Cert.Gine.lin
  rw [addf_apply, rowsE_apply, dotE_eq, StackMember.dotGeneral_plain_apply]

theorem linN_apply (h : FVec Ideal S25000x512 .f32) (W : FVec Ideal S512x512 .f32) (b : FVec Ideal S512 .f32)
    (n : Fin 25000) (d : Fin 512) : linN h W b (ix2 n d) = Cert.Gine.lin h W b n d := by
  unfold linN Cert.Gine.lin
  rw [addf_apply, rowsN_apply, dotN_eq, StackMember.dotGeneral_plain_apply]

/-! ## The messages, the scatter-add, the node array -/

/-- The messages are the specification's, over the gathered rows. -/
theorem messages_eq (x : FVec Ideal S25000x512 .f32) (a1 : IVec S2x400000 32) (ea : FVec Ideal S400000x512 .f32)
    (We : FVec Ideal S512x512 .f32) (be : FVec Ideal S512 .f32) :
    messages x a1 ea We be = Cert.Gine.msg (Host.gather Cert.Gine.gd x (Cert.Gine.srcIdx a1)) ea We be := by
  funext i
  obtain ⟨e, d, rfl⟩ : ∃ (e : Fin 400000) (d : Fin 512), i = ix2 e d := ⟨i 0, i 1, eq_ix2 i⟩
  unfold messages Cert.Gine.msg
  rw [Cert.Gine.ofFn2_ix2, maximumf_apply, addf_apply, edgeLin_apply]
  unfold gathered
  rw [gather_eq, srcCol_eq]
  show max _ (Ideal.ofBits .f32 0x00000000#32) = _
  rw [Ideal.ofBits_zero_f32]

/-- The zeros the scatter-add starts from. -/
theorem zerosN_eq :
    (broadcastInDim S25000x512 ![] bcast_S_S25000x512 (constant (F := Ideal) S_ .f32 0x00000000#32) : FVec Ideal S25000x512 .f32)
      = fun _ => Cert.Gine.zero := rfl

/-- The scatter-add is the exact sum of the messages into their destination rows. -/
theorem scattered_eq (x : FVec Ideal S25000x512 .f32) (a1 : IVec S2x400000 32) (ea : FVec Ideal S400000x512 .f32)
    (We : FVec Ideal S512x512 .f32) (be : FVec Ideal S512 .f32) :
    scattered x a1 ea We be
      = Ideal.hostScatterAdd Cert.Gine.sd (fun _ => Cert.Gine.zero) (Cert.Gine.dstIdx a1)
          (Cert.Gine.msg (Host.gather Cert.Gine.gd x (Cert.Gine.srcIdx a1)) ea We be) := by
  unfold scattered
  rw [scatter_eq, dstCol_eq, messages_eq, zerosN_eq]
  rfl

/-- The node array is the specification's. -/
theorem nodeArr_eq (x : FVec Ideal S25000x512 .f32) (a1 : IVec S2x400000 32) (ea : FVec Ideal S400000x512 .f32)
    (We : FVec Ideal S512x512 .f32) (be : FVec Ideal S512 .f32) :
    nodeArr x a1 ea We be = Cert.Gine.node Cert.Gine.gd Cert.Gine.sd x a1 ea We be := by
  funext i
  unfold nodeArr Cert.Gine.node
  rw [addf_apply, mulf_apply, scattered_eq]
  rfl

/-! ## The perceptron -/

theorem hiddenArr_eq (h : FVec Ideal S25000x512 .f32) (W1 : FVec Ideal S512x512 .f32) (b1 : FVec Ideal S512 .f32) :
    hiddenArr h W1 b1 = Cert.Gine.hidden h W1 b1 := by
  funext i
  obtain ⟨n, k, rfl⟩ : ∃ (n : Fin 25000) (k : Fin 512), i = ix2 n k := ⟨i 0, i 1, eq_ix2 i⟩
  unfold hiddenArr Cert.Gine.hidden
  rw [Cert.Gine.ofFn2_ix2, maximumf_apply, linN_apply]
  show max _ (Ideal.ofBits .f32 0x00000000#32) = _
  rw [Ideal.ofBits_zero_f32]

theorem mlpOut_eq (h : FVec Ideal S25000x512 .f32) (W1 : FVec Ideal S512x512 .f32) (b1 : FVec Ideal S512 .f32)
    (W2 : FVec Ideal S512x512 .f32) (b2 : FVec Ideal S512 .f32) :
    mlpOut h W1 b1 W2 b2 = Cert.Gine.mlp h W1 b1 W2 b2 := by
  funext i
  obtain ⟨n, d, rfl⟩ : ∃ (n : Fin 25000) (d : Fin 512), i = ix2 n d := ⟨i 0, i 1, eq_ix2 i⟩
  unfold mlpOut Cert.Gine.mlp
  rw [Cert.Gine.ofFn2_ix2, linN_apply, hiddenArr_eq]

/-! ## The statistics over the nodes -/

theorem reduces_N : S25000x512.Reduces [0] S512 := by decide

/-- The reduced index (d) with node n put back on the summed axis is (n, d). -/
theorem lift_eq (d : Fin 512) (n : Fin 25000) : reduces_N.lift (ix1 d) n = ix2 n d := by
  funext a
  apply Fin.ext
  match a with
  | ⟨0, _⟩ => rfl
  | ⟨1, _⟩ => rfl

/-- A sum over the nodes from the zero word is the finite sum. -/
theorem sumN_apply (v : FVec Ideal S25000x512 .f32) (d : Fin 512) :
    (Host.reduceAdd v (constant (F := Ideal) S_ .f32 0x00000000#32) reducesTo_S25000x512_S512_d0 h_S_ : FVec Ideal S512 .f32) (ix1 d)
      = ∑ n : Fin 25000, v (ix2 n d) := by
  show Ideal.hostReduceAdd reducesTo_S25000x512_S512_d0 v (Ideal.ofBits .f32 0x00000000#32) (ix1 d) = _
  rw [Ideal.hostReduceAdd_single reducesTo_S25000x512_S512_d0 reduces_N, Ideal.ofBits_zero_f32, zero_add]
  exact Finset.sum_congr rfl fun n _ => congrArg v (lift_eq d n)

theorem colSums_apply (y : FVec Ideal S25000x512 .f32) (d : Fin 512) : colSums y (ix1 d) = Cert.Gine.colSum y d := by
  unfold colSums Cert.Gine.colSum
  exact sumN_apply y d

theorem meanVec_apply (y : FVec Ideal S25000x512 .f32) (d : Fin 512) : meanVec y (ix1 d) = Cert.Gine.mean y d := by
  unfold meanVec Cert.Gine.mean
  show Ideal.div (colSums y (ix1 d)) (Ideal.ofBits .f32 0x46C35000#32) = _
  rw [colSums_apply]
  rfl

theorem meanRow_apply (y : FVec Ideal S25000x512 .f32) (u : Fin 1) (d : Fin 512) : meanRow y (ix2 u d) = Cert.Gine.mean y d := by
  unfold meanRow Cert.Gine.mean
  show Ideal.div (broadcastInDim S1x512 ![1] bcast_S512_S1x512_1 (colSums y) (ix2 u d)) (Ideal.ofBits .f32 0x46C35000#32) = _
  rw [broadcastInDim_apply _ _ _ (ix2 u d) (ix1 d) (by intro a; match a with | ⟨0, _⟩ => rfl), colSums_apply]
  rfl

theorem devArr_apply (y : FVec Ideal S25000x512 .f32) (n : Fin 25000) (d : Fin 512) :
    devArr y (ix2 n d) = y (ix2 n d) - Cert.Gine.mean y d := by
  unfold devArr
  rw [subf_apply, broadcastInDim_apply _ _ _ (ix2 n d) (ix2 (0 : Fin 1) d)
    (by intro a; match a with | ⟨0, _⟩ => rfl | ⟨1, _⟩ => rfl), meanRow_apply]

/-- The variance routine's divisor is the number of nodes: the correction is the integer zero. -/
theorem cntLess_apply (i : S_.Idx) : cntLess (F := Ideal) i = Cert.Gine.cnt := by
  show Cert.Gine.cnt - FloatOps.sitofp (F := Ideal) .f32 (0#32 : BitVec 32) = _
  rw [Cert.Gine.sitofp_zero, Cert.Gine.cnt_sub_zero]

/-- The guard holds, so the variance is the mean squared deviation. -/
theorem varVec_apply (y : FVec Ideal S25000x512 .f32) (d : Fin 512) : varVec y (ix1 d) = Cert.Gine.varDev y d := by
  unfold varVec
  rw [select_apply]
  have hcond : broadcastInDim S512 ![] bcast_S_S512 (cmpf .ogt (cntLess (F := Ideal)) (constant S_ .f32 0x00000000#32)) (ix1 d)
      = 1#1 := by
    show FloatOps.cmpf .ogt (cntLess (F := Ideal) _) (Ideal.ofBits .f32 0x00000000#32) = 1#1
    rw [cntLess_apply]
    exact Cert.Gine.cmp_cnt_pos
  rw [hcond, select_one]
  unfold Cert.Gine.varDev
  show Ideal.div ((Host.reduceAdd (mulf (devArr y) (devArr y)) (constant (F := Ideal) S_ .f32 0x00000000#32)
      reducesTo_S25000x512_S512_d0 h_S_ : FVec Ideal S512 .f32) (ix1 d)) (cntLess (F := Ideal) _) = _
  rw [cntLess_apply, sumN_apply]
  refine congrArg (fun s => Ideal.div s Cert.Gine.cnt) (Finset.sum_congr rfl fun n _ => ?_)
  rw [mulf_apply, devArr_apply]

/-! ## The result -/

theorem result_eq (y : FVec Ideal S25000x512 .f32) (gamma beta : FVec Ideal S512 .f32) :
    result y gamma beta = Cert.Gine.resultDev y gamma beta := by
  funext i
  obtain ⟨n, d, rfl⟩ : ∃ (n : Fin 25000) (d : Fin 512), i = ix2 n d := ⟨i 0, i 1, eq_ix2 i⟩
  unfold result Cert.Gine.resultDev Cert.Gine.bnorm
  rw [Cert.Gine.ofFn2_ix2, addf_apply, mulf_apply, mulf_apply, subf_apply, rowsN_apply, rowsN_apply, rowsN_apply, rowsN_apply,
    meanVec_apply]
  show (_ - _) * Ideal.rsqrt (varVec y (ix1 d) + Ideal.ofBits .f32 0x3727C5AC#32) * _ + _ = _
  rw [varVec_apply]
  rfl

/-- The composed term of the eleven arrays is the specification's result with the variance as mean squared deviation. -/
theorem resOf_eq (x : FVec Ideal S25000x512 .f32) (a1 : IVec S2x400000 32) (ea : FVec Ideal S400000x512 .f32)
    (We : FVec Ideal S512x512 .f32) (be : FVec Ideal S512 .f32) (W1 : FVec Ideal S512x512 .f32) (b1 : FVec Ideal S512 .f32)
    (W2 : FVec Ideal S512x512 .f32) (b2 : FVec Ideal S512 .f32) (gamma beta : FVec Ideal S512 .f32) :
    resOf x a1 ea We be W1 b1 W2 b2 gamma beta
      = Cert.Gine.resultDev (Cert.Gine.mlp (Cert.Gine.node Cert.Gine.gd Cert.Gine.sd x a1 ea We be) W1 b1 W2 b2) gamma beta := by
  unfold resOf
  rw [nodeArr_eq, mlpOut_eq, result_eq]

/-- The reference's result from memory m on device c is the specification of the launch contents of its arguments. -/
theorem res_eq (m : (ℓ : Loc nD τ sig) → Buf (Elt Ideal) ℓ) (c : Dev nD) :
    res m c
      = Cert.Gine.resultDev
          (Cert.Gine.mlp
            (Cert.Gine.node Cert.Gine.gd Cert.Gine.sd (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7))
            (m ((c.tc : Thread nD τ).loc main_arg8)))
          (m ((c.tc : Thread nD τ).loc main_arg9)) (m ((c.tc : Thread nD τ).loc main_arg10)) :=
  resOf_eq _ _ _ _ _ _ _ _ _ _ _

end Cert.ReferenceIdeal.RefRead

end
-- ==== Proof.PreFinite.lean ====
/-
  From the precondition to the finiteness of the inputs: the precondition is the conjunction, over the float inputs, of
  "every entry has absolute value below +∞"; on the extended reals an entry with |x| < ⊤ is a real number.
-/
import proofs.«137729_j60997125538475_2_alg».proof.Proof.Spec
import proofs.«137729_j60997125538475_2_alg».proof.Pre_finite_inputs
import Idealize.ShloMosaic.Lib.ReduceAll
import Idealize.ShloMosaic.PureOps.Ideal.Laws

noncomputable section

namespace Cert.Gine

open Idealize.ShloMosaic Idealize.ShloMosaic.ValueIdx

/-- The shape with no axes has one index. -/
instance subsingleton_scalarIdx : Subsingleton Cert.Pre_finite_inputs.S_.Idx := ⟨fun _ _ => funext fun d => d.elim0⟩

/-- The word 0x7F800000 denotes +∞. -/
theorem inf_eq : Ideal.ofBits .f32 0x7F800000#32 = (⊤ : EReal) := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.cmpf_def, Ideal.hostAbsf_def, Ideal.absf_def, Ideal.ofBits_def, inf_eq] at h
  induction x using EReal.rec with
  | bot => simp [Ideal.cmp] at h
  | coe r => exact ⟨r, rfl⟩
  | top => simp [Ideal.cmp] at h

/-- An array all of whose entries pass the test |x| < +∞ (the test reduced by "and" to one word that is 1) is real. -/
theorem isReal_of_all {S : Shape} {axes : List (Fin S.rank)} (x : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf (F := Ideal) (φ := .f32) .olt (Host.absf x)
          (broadcastInDim S ![] hb (constant Cert.Pre_finite_inputs.S_ .f32 0x7F800000#32)))
        (constantI Cert.Pre_finite_inputs.S_ 1 1#1) hr hu ix0 = 1#1) : IsReal x :=
  fun i => real_of_abs_lt (x i) (Host.reduce_andi_all _ _ hr hu ix0 e i)

variable [Cert.Pre_finite_inputs.Facts]

theorem isReal_of_pre (a0 : SN.Idx → EReal) (a1 : IVec SEI 32) (a2 : SE.Idx → EReal) (a3 : SW.Idx → EReal)
    (a4 : SD.Idx → EReal) (a5 : SW.Idx → EReal) (a6 : SD.Idx → EReal) (a7 : SW.Idx → EReal) (a8 : SD.Idx → EReal)
    (a9 a10 : SD.Idx → EReal)
    (h : Cert.Pre_finite_inputs.fn (F := Ideal) a0 a1 a2 a3 a4 a5 a6 a7 a8 a9 a10 = fun _ => 1#1) :
    IsReal a0 ∧ IsReal a2 ∧ IsReal a3 ∧ IsReal a4 ∧ IsReal a5 ∧ IsReal a6 ∧ IsReal a7 ∧ IsReal a8 := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e2⟩, e3⟩, e4⟩, e5⟩, e6⟩, e7⟩, e8⟩, _⟩, _⟩ := h0
  exact ⟨isReal_of_all a0 _ _ _ e0, isReal_of_all a2 _ _ _ e2, isReal_of_all a3 _ _ _ e3, isReal_of_all a4 _ _ _ e4,
    isReal_of_all a5 _ _ _ e5, isReal_of_all a6 _ _ _ e6, isReal_of_all a7 _ _ _ e7, isReal_of_all a8 _ _ _ e8⟩

/-- The same for the two remaining float inputs, the scale and the shift of the normalisation. -/
theorem isReal_scale_shift_of_pre (a0 : SN.Idx → EReal) (a1 : IVec SEI 32) (a2 : SE.Idx → EReal) (a3 : SW.Idx → EReal)
    (a4 : SD.Idx → EReal) (a5 : SW.Idx → EReal) (a6 : SD.Idx → EReal) (a7 : SW.Idx → EReal) (a8 : SD.Idx → EReal)
    (a9 a10 : SD.Idx → EReal)
    (h : Cert.Pre_finite_inputs.fn (F := Ideal) a0 a1 a2 a3 a4 a5 a6 a7 a8 a9 a10 = fun _ => 1#1) :
    IsReal a9 ∧ IsReal a10 := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨_, e9⟩, e10⟩ := h0
  exact ⟨isReal_of_all a9 _ _ _ e9, isReal_of_all a10 _ _ _ e10⟩

end Cert.Gine

end
-- ==== Proof.lean ====
/-
  The certificate: the kernel program against its reference.

  Both programs compute, on the extended reals, the same chain up to the perceptron's output y: gather the source rows,
  form the messages max (g + (ea · We + be), 0), sum them into their destination rows, add 1 · x, apply the two-layer
  perceptron. They then normalise y over the 25000 nodes, feature by feature, with the same mean; the kernel takes the
  variance as mean of squares minus square of the mean, the reference as the mean squared deviation. These agree when
  every entry of y is a real number, and y is real because every float input is (the precondition) and each stage keeps
  real arrays real: a gathered entry is an entry of x, a scattered sum is a finite sum of messages, a matrix product is a
  finite sum of products. On the extended reals the two variances differ at infinite entries, which is why the
  precondition is used.

  The three frames: the kernel's two are generated with the programs; the reference's is its run with the result dropped.
  The idealisation rewrote nothing, so its claim is trivial.
-/
import proofs.«137729_j60997125538475_2_alg».proof.Defs
import proofs.«137729_j60997125538475_2_alg».proof.Proof.Gen.Kernel
import proofs.«137729_j60997125538475_2_alg».proof.Proof.Gen.Kernel.Skeleton
import proofs.«137729_j60997125538475_2_alg».proof.Proof.Gen.Kernel.Launch
import proofs.«137729_j60997125538475_2_alg».proof.Proof.Gen.Kernel.Points
import proofs.«137729_j60997125538475_2_alg».proof.Proof.Gen.Kernel.Frame
import proofs.«137729_j60997125538475_2_alg».proof.Proof.Gen.KernelIdeal
import proofs.«137729_j60997125538475_2_alg».proof.Proof.Gen.KernelIdeal.Skeleton
import proofs.«137729_j60997125538475_2_alg».proof.Proof.Gen.KernelIdeal.Launch
import proofs.«137729_j60997125538475_2_alg».proof.Proof.Gen.KernelIdeal.Points
import proofs.«137729_j60997125538475_2_alg».proof.Proof.Gen.KernelIdeal.Frame
import proofs.«137729_j60997125538475_2_alg».proof.Proof.Gen.ReferenceIdeal
import proofs.«137729_j60997125538475_2_alg».proof.Proof.Gen.Pre_finite_inputs
import proofs.«137729_j60997125538475_2_alg».proof.Proof.KRun
import proofs.«137729_j60997125538475_2_alg».proof.Proof.KValue
import proofs.«137729_j60997125538475_2_alg».proof.Proof.RefRun
import proofs.«137729_j60997125538475_2_alg».proof.Proof.RefRead
import proofs.«137729_j60997125538475_2_alg».proof.Proof.PreFinite
import proofs.«137729_j60997125538475_2_alg».proof.Proof.SpecLaws
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Under the precondition the perceptron's output of the launch arrays is real. -/
theorem yout_real (m : (ℓ : Loc Cert.KernelIdeal.nD Cert.KernelIdeal.τ Cert.KernelIdeal.sig) → Buf (Elt Ideal) ℓ)
    (hpre : Cert.Pre_KernelIdeal m) (c : Dev Cert.KernelIdeal.nD) : Cert.Gine.IsReal (Cert.KernelIdeal.KValue.yout m c) := by
  obtain ⟨h0, h2, h3, h4, h5, h6, h7, h8⟩ := Cert.Gine.isReal_of_pre _ _ _ _ _ _ _ _ _ _ _ (hpre c)
  exact Cert.Gine.isReal_mlp (Cert.Gine.isReal_node Cert.Gine.gd Cert.Gine.sd _ h0 h2 h3 h4) h5 h6 h7 h8

/-- The two idealised programs, from memories agreeing on the arguments, end with equal results. -/
theorem algebraic : Cert.algebraic_KernelIdeal_ReferenceIdeal := by
  intro m ρ m' ρ' hpre hagree
  refine ⟨fun c => Cert.Gine.resultSq (Cert.KernelIdeal.KValue.yout m c) (Cert.KernelIdeal.KValue.gam m c)
    (Cert.KernelIdeal.KValue.bet m c), ?_, ?_⟩
  · exact (θ_run Cert.KernelIdeal.defs _ _).mono
      (fun _ h c => ⟨(h c).1.trans (Cert.KernelIdeal.KValue.value m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run (F := Ideal) m' ρ')
    refine (Cert.ReferenceIdeal.RefRead.res_eq m' c).trans ?_
    obtain ⟨e0, e1, e2, e3, e4, e5, e6, e7, e8, e9, e10⟩ := hagree c
    rw [e0, e1, e2, e3, e4, e5, e6, e7, e8, e9, e10]
    exact (Cert.Gine.resultSq_eq_resultDev (yout_real m hpre c) _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
